-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S8x8 : Shape := ⟨2, ![8, 8]⟩
abbrev S8 : Shape := ⟨1, ![8]⟩
abbrev S8x4 : Shape := ⟨2, ![8, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S1x4 : Shape := ⟨2, ![1, 4]⟩
abbrev S4x8 : Shape := ⟨2, ![4, 8]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_
  bcast_S_S1x4 : S_.BroadcastsInDim S1x4 (![] : Fin 0 → Fin S1x4.rank)
  reducesTo_S1x4_S_d0_1 : S1x4.ReducesTo [0, 1] S_
  bcast_S_S4x8 : S_.BroadcastsInDim S4x8 (![] : Fin 0 → Fin S4x8.rank)
  reducesTo_S4x8_S_d0_1 : S4x8.ReducesTo [0, 1] S_

variable [Facts]

def fn_part7 {F : FTy → Type} [FloatOps F] (main_arg25 : FVec F S4x8 .f32) (main_arg26 : FVec F S8 .f32) (main_v118 : IVec S_ 1) (main_v119 : FVec F S4 .f32) : IVec S_ 1 :=
  let main_cst_46 : FVec F S_ .f32 := constant S_ .f32 0x7F800000#32
  let main_v120 : FVec F S4 .f32 := broadcastInDim S4 ![] bcast_S_S4 main_cst_46
  let main_v121 : IVec S4 1 := cmpf .olt main_v119 main_v120
  let main_c_47 : IVec S_ 1 := constantI S_ 1 1#1
  let main_v122 : IVec S_ 1 := (fun x v => Host.reduce IntOp.andi x v reducesTo_S4_S_d0 h_S_) main_v121 main_c_47
  let main_v123 : IVec S_ 1 := andi main_v118 main_v122
  let main_v124 : FVec F S4x8 .f32 := Host.absf main_arg25
  let main_cst_48 : FVec F S_ .f32 := constant S_ .f32 0x7F800000#32
  let main_v125 : FVec F S4x8 .f32 := broadcastInDim S4x8 ![] bcast_S_S4x8 main_cst_48
  let main_v126 : IVec S4x8 1 := cmpf .olt main_v124 main_v125
  let main_c_49 : IVec S_ 1 := constantI S_ 1 1#1
  let main_v127 : IVec S_ 1 := (fun x v => Host.reduce IntOp.andi x v reducesTo_S4x8_S_d0_1 h_S_) main_v126 main_c_49
  let main_v128 : IVec S_ 1 := andi main_v123 main_v127
  let main_v129 : FVec F S8 .f32 := Host.absf main_arg26
  let main_cst_50 : FVec F S_ .f32 := constant S_ .f32 0x7F800000#32
  let main_v130 : FVec F S8 .f32 := broadcastInDim S8 ![] bcast_S_S8 main_cst_50
  let main_v131 : IVec S8 1 := cmpf .olt main_v129 main_v130
  let main_c_51 : IVec S_ 1 := constantI S_ 1 1#1
  let main_v132 : IVec S_ 1 := (fun x v => Host.reduce IntOp.andi x v reducesTo_S8_S_d0 h_S_) main_v131 main_c_51
  let main_v133 : IVec S_ 1 := andi main_v128 main_v132
  main_v133

def fn_part6 {F : FTy → Type} [FloatOps F] (main_arg21 : FVec F S4x4 .f32) (main_arg22 : FVec F S4 .f32) (main_arg23 : FVec F S4x4 .f32) (main_arg24 : FVec F S4 .f32) (main_arg25 : FVec F S4x8 .f32) (main_arg26 : FVec F S8 .f32) (main_v98 : IVec S_ 1) (main_v101 : IVec S4 1) (main_c_39 : IVec S_ 1) : IVec S_ 1 :=
  let main_v102 : IVec S_ 1 := (fun x v => Host.reduce IntOp.andi x v reducesTo_S4_S_d0 h_S_) main_v101 main_c_39
  let main_v103 : IVec S_ 1 := andi main_v98 main_v102
  let main_v104 : FVec F S4x4 .f32 := Host.absf main_arg21
  let main_cst_40 : FVec F S_ .f32 := constant S_ .f32 0x7F800000#32
  let main_v105 : FVec F S4x4 .f32 := broadcastInDim S4x4 ![] bcast_S_S4x4 main_cst_40
  let main_v106 : IVec S4x4 1 := cmpf .olt main_v104 main_v105
  let main_c_41 : IVec S_ 1 := constantI S_ 1 1#1
  let main_v107 : IVec S_ 1 := (fun x v => Host.reduce IntOp.andi x v reducesTo_S4x4_S_d0_1 h_S_) main_v106 main_c_41
  let main_v108 : IVec S_ 1 := andi main_v103 main_v107
  let main_v109 : FVec F S4 .f32 := Host.absf main_arg22
  let main_cst_42 : FVec F S_ .f32 := constant S_ .f32 0x7F800000#32
  let main_v110 : FVec F S4 .f32 := broadcastInDim S4 ![] bcast_S_S4 main_cst_42
  let main_v111 : IVec S4 1 := cmpf .olt main_v109 main_v110
  let main_c_43 : IVec S_ 1 := constantI S_ 1 1#1
  let main_v112 : IVec S_ 1 := (fun x v => Host.reduce IntOp.andi x v reducesTo_S4_S_d0 h_S_) main_v111 main_c_43
  let main_v113 : IVec S_ 1 := andi main_v108 main_v112
  let main_v114 : FVec F S4x4 .f32 := Host.absf main_arg23
  let main_cst_44 : FVec F S_ .f32 := constant S_ .f32 0x7F800000#32
  let main_v115 : FVec F S4x4 .f32 := broadcastInDim S4x4 ![] bcast_S_S4x4 main_cst_44
  let main_v116 : IVec S4x4 1 := cmpf .olt main_v114 main_v115
  let main_c_45 : IVec S_ 1 := constantI S_ 1 1#1
  let main_v117 : IVec S_ 1 := (fun x v => Host.reduce IntOp.andi x v reducesTo_S4x4_S_d0_1 h_S_) main_v116 main_c_45
  let main_v118 : IVec S_ 1 := andi main_v113 main_v117
  let main_v119 : FVec F S4 .f32 := Host.absf main_arg24
  fn_part7 (F := F) main_arg25 main_arg26 main_v118 main_v119

def fn_part5 {F : FTy → Type} [FloatOps F] (main_arg18 : FVec F S4 .f32) (main_arg19 : FVec F S4x4 .f32) (main_arg20 : FVec F S4 .f32) (main_arg21 : FVec F S4x4 .f32) (main_arg22 : FVec F S4 .f32) (main_arg23 : FVec F S4x4 .f32) (main_arg24 : FVec F S4 .f32) (main_arg25 : FVec F S4x8 .f32) (main_arg26 : FVec F S8 .f32) (main_v83 : IVec S_ 1) (main_v84 : FVec F S4x4 .f32) (main_cst_32 : FVec F S_ .f32) : IVec S_ 1 :=
  let main_v85 : FVec F S4x4 .f32 := broadcastInDim S4x4 ![] bcast_S_S4x4 main_cst_32
  let main_v86 : IVec S4x4 1 := cmpf .olt main_v84 main_v85
  let main_c_33 : IVec S_ 1 := constantI S_ 1 1#1
  let main_v87 : IVec S_ 1 := (fun x v => Host.reduce IntOp.andi x v reducesTo_S4x4_S_d0_1 h_S_) main_v86 main_c_33
  let main_v88 : IVec S_ 1 := andi main_v83 main_v87
  let main_v89 : FVec F S4 .f32 := Host.absf main_arg18
  let main_cst_34 : FVec F S_ .f32 := constant S_ .f32 0x7F800000#32
  let main_v90 : FVec F S4 .f32 := broadcastInDim S4 ![] bcast_S_S4 main_cst_34
  let main_v91 : IVec S4 1 := cmpf .olt main_v89 main_v90
  let main_c_35 : IVec S_ 1 := constantI S_ 1 1#1
  let main_v92 : IVec S_ 1 := (fun x v => Host.reduce IntOp.andi x v reducesTo_S4_S_d0 h_S_) main_v91 main_c_35
  let main_v93 : IVec S_ 1 := andi main_v88 main_v92
  let main_v94 : FVec F S4x4 .f32 := Host.absf main_arg19
  let main_cst_36 : FVec F S_ .f32 := constant S_ .f32 0x7F800000#32
  let main_v95 : FVec F S4x4 .f32 := broadcastInDim S4x4 ![] bcast_S_S4x4 main_cst_36
  let main_v96 : IVec S4x4 1 := cmpf .olt main_v94 main_v95
  let main_c_37 : IVec S_ 1 := constantI S_ 1 1#1
  let main_v97 : IVec S_ 1 := (fun x v => Host.reduce IntOp.andi x v reducesTo_S4x4_S_d0_1 h_S_) main_v96 main_c_37
  let main_v98 : IVec S_ 1 := andi main_v93 main_v97
  let main_v99 : FVec F S4 .f32 := Host.absf main_arg20
  let main_cst_38 : FVec F S_ .f32 := constant S_ .f32 0x7F800000#32
  let main_v100 : FVec F S4 .f32 := broadcastInDim S4 ![] bcast_S_S4 main_cst_38
  let main_v101 : IVec S4 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S1 .f32) (main_arg15 : FVec F S1x4 .f32) (main_arg16 : FVec F S4 .f32) (main_arg17 : FVec F S4x4 .f32) (main_arg18 : FVec F S4 .f32) (main_arg19 : FVec F S4x4 .f32) (main_arg20 : FVec F S4 .f32) (main_arg21 : FVec F S4x4 .f32) (main_arg22 : FVec F S4 .f32) (main_arg23 : FVec F S4x4 .f32) (main_arg24 : FVec F S4 .f32) (main_arg25 : FVec F S4x8 .f32) (main_arg26 : FVec F S8 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1x4 .f32 := Host.absf main_arg15
  let main_cst_28 : FVec F S_ .f32 := constant S_ .f32 0x7F800000#32
  let main_v75 : FVec F S1x4 .f32 := broadcastInDim S1x4 ![] bcast_S_S1x4 main_cst_28
  let main_v76 : IVec S1x4 1 := cmpf .olt main_v74 main_v75
  let main_c_29 : IVec S_ 1 := constantI S_ 1 1#1
  let main_v77 : IVec S_ 1 := (fun x v => Host.reduce IntOp.andi x v reducesTo_S1x4_S_d0_1 h_S_) main_v76 main_c_29
  let main_v78 : IVec S_ 1 := andi main_v73 main_v77
  let main_v79 : FVec F S4 .f32 := Host.absf main_arg16
  let main_cst_30 : FVec F S_ .f32 := constant S_ .f32 0x7F800000#32
  let main_v80 : FVec F S4 .f32 := broadcastInDim S4 ![] bcast_S_S4 main_cst_30
  let main_v81 : IVec S4 1 := cmpf .olt main_v79 main_v80
  let main_c_31 : IVec S_ 1 := constantI S_ 1 1#1
  let main_v82 : IVec S_ 1 := (fun x v => Host.reduce IntOp.andi x v reducesTo_S4_S_d0 h_S_) main_v81 main_c_31
  let main_v83 : IVec S_ 1 := andi main_v78 main_v82
  let main_v84 : FVec F S4x4 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S4x4 .f32) (main_arg12 : FVec F S4 .f32) (main_arg13 : FVec F S4x1 .f32) (main_arg14 : FVec F S1 .f32) (main_arg15 : FVec F S1x4 .f32) (main_arg16 : FVec F S4 .f32) (main_arg17 : FVec F S4x4 .f32) (main_arg18 : FVec F S4 .f32) (main_arg19 : FVec F S4x4 .f32) (main_arg20 : FVec F S4 .f32) (main_arg21 : FVec F S4x4 .f32) (main_arg22 : FVec F S4 .f32) (main_arg23 : FVec F S4x4 .f32) (main_arg24 : FVec F S4 .f32) (main_arg25 : FVec F S4x8 .f32) (main_arg26 : FVec F S8 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S4x4 .f32 := Host.absf main_arg11
  let main_cst_20 : FVec F S_ .f32 := constant S_ .f32 0x7F800000#32
  let main_v55 : FVec F S4x4 .f32 := broadcastInDim S4x4 ![] bcast_S_S4x4 main_cst_20
  let main_v56 : IVec S4x4 1 := cmpf .olt main_v54 main_v55
  let main_c_21 : IVec S_ 1 := constantI S_ 1 1#1
  let main_v57 : IVec S_ 1 := (fun x v => Host.reduce IntOp.andi x v reducesTo_S4x4_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4x1 .f32 := Host.absf main_arg13
  let main_cst_24 : FVec F S_ .f32 := constant S_ .f32 0x7F800000#32
  let main_v65 : FVec F S4x1 .f32 := broadcastInDim S4x1 ![] bcast_S_S4x1 main_cst_24
  let main_v66 : IVec S4x1 1 := cmpf .olt main_v64 main_v65
  let main_c_25 : IVec S_ 1 := constantI S_ 1 1#1
  let main_v67 : IVec S_ 1 := (fun x v => Host.reduce IntOp.andi x v reducesTo_S4x1_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S4x4 .f32) (main_arg8 : FVec F S4 .f32) (main_arg9 : FVec F S4x4 .f32) (main_arg10 : FVec F S4 .f32) (main_arg11 : FVec F S4x4 .f32) (main_arg12 : FVec F S4 .f32) (main_arg13 : FVec F S4x1 .f32) (main_arg14 : FVec F S1 .f32) (main_arg15 : FVec F S1x4 .f32) (main_arg16 : FVec F S4 .f32) (main_arg17 : FVec F S4x4 .f32) (main_arg18 : FVec F S4 .f32) (main_arg19 : FVec F S4x4 .f32) (main_arg20 : FVec F S4 .f32) (main_arg21 : FVec F S4x4 .f32) (main_arg22 : FVec F S4 .f32) (main_arg23 : FVec F S4x4 .f32) (main_arg24 : FVec F S4 .f32) (main_arg25 : FVec F S4x8 .f32) (main_arg26 : FVec F S8 .f32) (main_v33 : IVec S_ 1) : IVec S_ 1 :=
  let main_v34 : FVec F S4x4 .f32 := Host.absf main_arg7
  let main_cst_12 : FVec F S_ .f32 := constant S_ .f32 0x7F800000#32
  let main_v35 : FVec F S4x4 .f32 := broadcastInDim S4x4 ![] bcast_S_S4x4 main_cst_12
  let main_v36 : IVec S4x4 1 := cmpf .olt main_v34 main_v35
  let main_c_13 : IVec S_ 1 := constantI S_ 1 1#1
  let main_v37 : IVec S_ 1 := (fun x v => Host.reduce IntOp.andi x v reducesTo_S4x4_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S4x4 .f32 := Host.absf main_arg9
  let main_cst_16 : FVec F S_ .f32 := constant S_ .f32 0x7F800000#32
  let main_v45 : FVec F S4x4 .f32 := broadcastInDim S4x4 ![] bcast_S_S4x4 main_cst_16
  let main_v46 : IVec S4x4 1 := cmpf .olt main_v44 main_v45
  let main_c_17 : IVec S_ 1 := constantI S_ 1 1#1
  let main_v47 : IVec S_ 1 := (fun x v => Host.reduce IntOp.andi x v reducesTo_S4x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S4 .f32) (main_arg5 : FVec F S4x4 .f32) (main_arg6 : FVec F S4 .f32) (main_arg7 : FVec F S4x4 .f32) (main_arg8 : FVec F S4 .f32) (main_arg9 : FVec F S4x4 .f32) (main_arg10 : FVec F S4 .f32) (main_arg11 : FVec F S4x4 .f32) (main_arg12 : FVec F S4 .f32) (main_arg13 : FVec F S4x1 .f32) (main_arg14 : FVec F S1 .f32) (main_arg15 : FVec F S1x4 .f32) (main_arg16 : FVec F S4 .f32) (main_arg17 : FVec F S4x4 .f32) (main_arg18 : FVec F S4 .f32) (main_arg19 : FVec F S4x4 .f32) (main_arg20 : FVec F S4 .f32) (main_arg21 : FVec F S4x4 .f32) (main_arg22 : FVec F S4 .f32) (main_arg23 : FVec F S4x4 .f32) (main_arg24 : FVec F S4 .f32) (main_arg25 : FVec F S4x8 .f32) (main_arg26 : FVec F S8 .f32) (main_v13 : IVec S_ 1) (main_v16 : IVec S8x4 1) : IVec S_ 1 :=
  let main_c_5 : IVec S_ 1 := constantI S_ 1 1#1
  let main_v17 : IVec S_ 1 := (fun x v => Host.reduce IntOp.andi x v reducesTo_S8x4_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x4 .f32 := Host.absf main_arg5
  let main_cst_8 : FVec F S_ .f32 := constant S_ .f32 0x7F800000#32
  let main_v25 : FVec F S4x4 .f32 := broadcastInDim S4x4 ![] bcast_S_S4x4 main_cst_8
  let main_v26 : IVec S4x4 1 := cmpf .olt main_v24 main_v25
  let main_c_9 : IVec S_ 1 := constantI S_ 1 1#1
  let main_v27 : IVec S_ 1 := (fun x v => Host.reduce IntOp.andi x v reducesTo_S4x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S4194304x8 .f32) (main_arg1 : FVec F S8x8 .f32) (main_arg2 : FVec F S8 .f32) (main_arg3 : FVec F S8x4 .f32) (main_arg4 : FVec F S4 .f32) (main_arg5 : FVec F S4x4 .f32) (main_arg6 : FVec F S4 .f32) (main_arg7 : FVec F S4x4 .f32) (main_arg8 : FVec F S4 .f32) (main_arg9 : FVec F S4x4 .f32) (main_arg10 : FVec F S4 .f32) (main_arg11 : FVec F S4x4 .f32) (main_arg12 : FVec F S4 .f32) (main_arg13 : FVec F S4x1 .f32) (main_arg14 : FVec F S1 .f32) (main_arg15 : FVec F S1x4 .f32) (main_arg16 : FVec F S4 .f32) (main_arg17 : FVec F S4x4 .f32) (main_arg18 : FVec F S4 .f32) (main_arg19 : FVec F S4x4 .f32) (main_arg20 : FVec F S4 .f32) (main_arg21 : FVec F S4x4 .f32) (main_arg22 : FVec F S4 .f32) (main_arg23 : FVec F S4x4 .f32) (main_arg24 : FVec F S4 .f32) (main_arg25 : FVec F S4x8 .f32) (main_arg26 : FVec F S8 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x4 .f32 := Host.absf main_arg3
  let main_cst_4 : FVec F S_ .f32 := constant S_ .f32 0x7F800000#32
  let main_v15 : FVec F S8x4 .f32 := broadcastInDim S8x4 ![] bcast_S_S8x4 main_cst_4
  let main_v16 : IVec S8x4 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S4194304x8 : Shape := ⟨2, ![4194304, 8]⟩
abbrev S8x8 : Shape := ⟨2, ![8, 8]⟩
abbrev S8 : Shape := ⟨1, ![8]⟩
abbrev S8x4 : Shape := ⟨2, ![8, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S1x4 : Shape := ⟨2, ![1, 4]⟩
abbrev S4x8 : Shape := ⟨2, ![4, 8]⟩
abbrev S16x16 : Shape := ⟨2, ![16, 16]⟩
abbrev S_ : Shape := ⟨0, ![]⟩
abbrev S16x1x16x1 : Shape := ⟨4, ![16, 1, 16, 1]⟩
abbrev S1x8x1x8 : Shape := ⟨4, ![1, 8, 1, 8]⟩
abbrev S16x8x16x8 : Shape := ⟨4, ![16, 8, 16, 8]⟩
abbrev S128x128 : Shape := ⟨2, ![128, 128]⟩
abbrev S1x8x1x4 : Shape := ⟨4, ![1, 8, 1, 4]⟩
abbrev S16x8x16x4 : Shape := ⟨4, ![16, 8, 16, 4]⟩
abbrev S128x64 : Shape := ⟨2, ![128, 64]⟩
abbrev S1x4x1x4 : Shape := ⟨4, ![1, 4, 1, 4]⟩
abbrev S16x4x16x4 : Shape := ⟨4, ![16, 4, 16, 4]⟩
abbrev S64x64 : Shape := ⟨2, ![64, 64]⟩
abbrev S1x4x1x1 : Shape := ⟨4, ![1, 4, 1, 1]⟩
abbrev S16x4x16x1 : Shape := ⟨4, ![16, 4, 16, 1]⟩
abbrev S64x16 : Shape := ⟨2, ![64, 16]⟩
abbrev S1x1x1x4 : Shape := ⟨4, ![1, 1, 1, 4]⟩
abbrev S16x1x16x4 : Shape := ⟨4, ![16, 1, 16, 4]⟩
abbrev S16x64 : Shape := ⟨2, ![16, 64]⟩
abbrev S1x4x1x8 : Shape := ⟨4, ![1, 4, 1, 8]⟩
abbrev S16x4x16x8 : Shape := ⟨4, ![16, 4, 16, 8]⟩
abbrev S64x128 : Shape := ⟨2, ![64, 128]⟩
abbrev S1x8 : Shape := ⟨2, ![1, 8]⟩
abbrev S16x8 : Shape := ⟨2, ![16, 8]⟩
abbrev S128 : Shape := ⟨1, ![128]⟩
abbrev S1x128 : Shape := ⟨2, ![1, 128]⟩
abbrev S16x4 : Shape := ⟨2, ![16, 4]⟩
abbrev S64 : Shape := ⟨1, ![64]⟩
abbrev S1x64 : Shape := ⟨2, ![1, 64]⟩
abbrev S1x1 : Shape := ⟨2, ![1, 1]⟩
abbrev S16x1 : Shape := ⟨2, ![16, 1]⟩
abbrev S16 : Shape := ⟨1, ![16]⟩
abbrev S1x16 : Shape := ⟨2, ![1, 16]⟩
abbrev S262144x128 : Shape := ⟨2, ![262144, 128]⟩
abbrev S262144x16 : Shape := ⟨2, ![262144, 16]⟩
abbrev S4096x128 : Shape := ⟨2, ![4096, 128]⟩
abbrev S4096x16 : Shape := ⟨2, ![4096, 16]⟩
abbrev S4096x64 : Shape := ⟨2, ![4096, 64]⟩
abbrev S4194304x1 : Shape := ⟨2, ![4194304, 1]⟩

abbrev nBuf : Space → Nat
  | .hbm => 169
  | .vmem => 32
  | .smem => 0
  | _ => 0

abbrev hbmTy0_0 (i : Nat) : BufTy := match i % 128 with
  | 0 => ⟨S4194304x8, .f32⟩
  | 1 => ⟨S8x8, .f32⟩
  | 2 => ⟨S8, .f32⟩
  | 3 => ⟨S8x4, .f32⟩
  | 4 => ⟨S4, .f32⟩
  | 5 => ⟨S4x4, .f32⟩
  | 6 => ⟨S4, .f32⟩
  | 7 => ⟨S4x4, .f32⟩
  | 8 => ⟨S4, .f32⟩
  | 9 => ⟨S4x4, .f32⟩
  | 10 => ⟨S4, .f32⟩
  | 11 => ⟨S4x4, .f32⟩
  | 12 => ⟨S4, .f32⟩
  | 13 => ⟨S4x1, .f32⟩
  | 14 => ⟨S1, .f32⟩
  | 15 => ⟨S1x4, .f32⟩
  | 16 => ⟨S4, .f32⟩
  | 17 => ⟨S4x4, .f32⟩
  | 18 => ⟨S4, .f32⟩
  | 19 => ⟨S4x4, .f32⟩
  | 20 => ⟨S4, .f32⟩
  | 21 => ⟨S4x4, .f32⟩
  | 22 => ⟨S4, .f32⟩
  | 23 => ⟨S4x4, .f32⟩
  | 24 => ⟨S4, .f32⟩
  | 25 => ⟨S4x8, .f32⟩
  | 26 => ⟨S8, .f32⟩
  | 27 => ⟨S16x16, .i32⟩
  | 28 => ⟨S16x16, .i32⟩
  | 29 => ⟨S_, .i32⟩
  | 30 => ⟨S16x16, .i32⟩
  | 31 => ⟨S16x16, .i32⟩
  | 32 => ⟨S16x16, .i1⟩
  | 33 => ⟨S16x16, .f32⟩
  | 34 => ⟨S16x1x16x1, .f32⟩
  | 35 => ⟨S1x8x1x8, .f32⟩
  | 36 => ⟨S16x8x16x8, .f32⟩
  | 37 => ⟨S16x8x16x8, .f32⟩
  | 38 => ⟨S16x8x16x8, .f32⟩
  | 39 => ⟨S128x128, .f32⟩
  | 40 => ⟨S16x1x16x1, .f32⟩
  | 41 => ⟨S1x8x1x4, .f32⟩
  | 42 => ⟨S16x8x16x4, .f32⟩
  | 43 => ⟨S16x8x16x4, .f32⟩
  | 44 => ⟨S16x8x16x4, .f32⟩
  | 45 => ⟨S128x64, .f32⟩
  | 46 => ⟨S16x1x16x1, .f32⟩
  | 47 => ⟨S1x4x1x4, .f32⟩
  | 48 => ⟨S16x4x16x4, .f32⟩
  | 49 => ⟨S16x4x16x4, .f32⟩
  | 50 => ⟨S16x4x16x4, .f32⟩
  | 51 => ⟨S64x64, .f32⟩
  | 52 => ⟨S16x1x16x1, .f32⟩
  | 53 => ⟨S1x4x1x4, .f32⟩
  | 54 => ⟨S16x4x16x4, .f32⟩
  | 55 => ⟨S16x4x16x4, .f32⟩
  | 56 => ⟨S16x4x16x4, .f32⟩
  | 57 => ⟨S64x64, .f32⟩
  | 58 => ⟨S16x1x16x1, .f32⟩
  | 59 => ⟨S1x4x1x4, .f32⟩
  | 60 => ⟨S16x4x16x4, .f32⟩
  | 61 => ⟨S16x4x16x4, .f32⟩
  | 62 => ⟨S16x4x16x4, .f32⟩
  | 63 => ⟨S64x64, .f32⟩
  | 64 => ⟨S16x1x16x1, .f32⟩
  | 65 => ⟨S1x4x1x4, .f32⟩
  | 66 => ⟨S16x4x16x4, .f32⟩
  | 67 => ⟨S16x4x16x4, .f32⟩
  | 68 => ⟨S16x4x16x4, .f32⟩
  | 69 => ⟨S64x64, .f32⟩
  | 70 => ⟨S16x1x16x1, .f32⟩
  | 71 => ⟨S1x4x1x1, .f32⟩
  | 72 => ⟨S16x4x16x1, .f32⟩
  | 73 => ⟨S16x4x16x1, .f32⟩
  | 74 => ⟨S16x4x16x1, .f32⟩
  | 75 => ⟨S64x16, .f32⟩
  | 76 => ⟨S16x1x16x1, .f32⟩
  | 77 => ⟨S1x1x1x4, .f32⟩
  | 78 => ⟨S16x1x16x4, .f32⟩
  | 79 => ⟨S16x1x16x4, .f32⟩
  | 80 => ⟨S16x1x16x4, .f32⟩
  | 81 => ⟨S16x64, .f32⟩
  | 82 => ⟨S16x1x16x1, .f32⟩
  | 83 => ⟨S1x4x1x4, .f32⟩
  | 84 => ⟨S16x4x16x4, .f32⟩
  | 85 => ⟨S16x4x16x4, .f32⟩
  | 86 => ⟨S16x4x16x4, .f32⟩
  | 87 => ⟨S64x64, .f32⟩
  | 88 => ⟨S16x1x16x1, .f32⟩
  | 89 => ⟨S1x4x1x4, .f32⟩
  | 90 => ⟨S16x4x16x4, .f32⟩
  | 91 => ⟨S16x4x16x4, .f32⟩
  | 92 => ⟨S16x4x16x4, .f32⟩
  | 93 => ⟨S64x64, .f32⟩
  | 94 => ⟨S16x1x16x1, .f32⟩
  | 95 => ⟨S1x4x1x4, .f32⟩
  | 96 => ⟨S16x4x16x4, .f32⟩
  | 97 => ⟨S16x4x16x4, .f32⟩
  | 98 => ⟨S16x4x16x4, .f32⟩
  | 99 => ⟨S64x64, .f32⟩
  | 100 => ⟨S16x1x16x1, .f32⟩
  | 101 => ⟨S1x4x1x4, .f32⟩
  | 102 => ⟨S16x4x16x4, .f32⟩
  | 103 => ⟨S16x4x16x4, .f32⟩
  | 104 => ⟨S16x4x16x4, .f32⟩
  | 105 => ⟨S64x64, .f32⟩
  | 106 => ⟨S16x1x16x1, .f32⟩
  | 107 => ⟨S1x4x1x8, .f32⟩
  | 108 => ⟨S16x4x16x8, .f32⟩
  | 109 => ⟨S16x4x16x8, .f32⟩
  | 110 => ⟨S16x4x16x8, .f32⟩
  | 111 => ⟨S64x128, .f32⟩
  | 112 => ⟨S1x8, .f32⟩
  | 113 => ⟨S16x8, .f32⟩
  | 114 => ⟨S128, .f32⟩
  | 115 => ⟨S1x128, .f32⟩
  | 116 => ⟨S1x4, .f32⟩
  | 117 => ⟨S16x4, .f32⟩
  | 118 => ⟨S64, .f32⟩
  | 119 => ⟨S1x64, .f32⟩
  | 120 => ⟨S1x4, .f32⟩
  | 121 => ⟨S16x4, .f32⟩
  | 122 => ⟨S64, .f32⟩
  | 123 => ⟨S1x64, .f32⟩
  | 124 => ⟨S1x4, .f32⟩
  | 125 => ⟨S16x4, .f32⟩
  | 126 => ⟨S64, .f32⟩
  | 127 => ⟨S1x64, .f32⟩
  | _ => ⟨S4194304x8, .f32⟩

abbrev hbmTy0_1 (i : Nat) : BufTy := match i % 128 with
  | 0 => ⟨S1x4, .f32⟩
  | 1 => ⟨S16x4, .f32⟩
  | 2 => ⟨S64, .f32⟩
  | 3 => ⟨S1x64, .f32⟩
  | 4 => ⟨S1x4, .f32⟩
  | 5 => ⟨S16x4, .f32⟩
  | 6 => ⟨S64, .f32⟩
  | 7 => ⟨S1x64, .f32⟩
  | 8 => ⟨S1x1, .f32⟩
  | 9 => ⟨S16x1, .f32⟩
  | 10 => ⟨S16, .f32⟩
  | 11 => ⟨S1x16, .f32⟩
  | 12 => ⟨S1x4, .f32⟩
  | 13 => ⟨S16x4, .f32⟩
  | 14 => ⟨S64, .f32⟩
  | 15 => ⟨S1x64, .f32⟩
  | 16 => ⟨S1x4, .f32⟩
  | 17 => ⟨S16x4, .f32⟩
  | 18 => ⟨S64, .f32⟩
  | 19 => ⟨S1x64, .f32⟩
  | 20 => ⟨S1x4, .f32⟩
  | 21 => ⟨S16x4, .f32⟩
  | 22 => ⟨S64, .f32⟩
  | 23 => ⟨S1x64, .f32⟩
  | 24 => ⟨S1x4, .f32⟩
  | 25 => ⟨S16x4, .f32⟩
  | 26 => ⟨S64, .f32⟩
  | 27 => ⟨S1x64, .f32⟩
  | 28 => ⟨S1x4, .f32⟩
  | 29 => ⟨S16x4, .f32⟩
  | 30 => ⟨S64, .f32⟩
  | 31 => ⟨S1x64, .f32⟩
  | 32 => ⟨S1x8, .f32⟩
  | 33 => ⟨S16x8, .f32⟩
  | 34 => ⟨S128, .f32⟩
  | 35 => ⟨S1x128, .f32⟩
  | 36 => ⟨S262144x128, .f32⟩
  | 37 => ⟨S262144x16, .f32⟩
  | 38 => ⟨S262144x128, .f32⟩
  | 39 => ⟨S4194304x1, .f32⟩
  | 40 => ⟨S4194304x8, .f32⟩
  | _ => ⟨S4194304x8, .f32⟩

abbrev hbmTy (i : Nat) : BufTy := match i / 128 with
  | 0 => hbmTy0_0 i
  | 1 => hbmTy0_1 i
  | _ => ⟨S4194304x8, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x16, .f32⟩
  | .local _ .vmem, ⟨15, _⟩ => ⟨S1x16, .f32⟩
  | .local _ .vmem, ⟨16, _⟩ => ⟨S16x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S64x128, .f32⟩
  | .local _ .vmem, ⟨27, _⟩ => ⟨S1x128, .f32⟩
  | .local _ .vmem, ⟨28, _⟩ => ⟨S4096x16, .f32⟩
  | .local _ .vmem, ⟨29, _⟩ => ⟨S4096x16, .f32⟩
  | .local _ .vmem, ⟨30, _⟩ => ⟨S4096x128, .f32⟩
  | .local _ .vmem, ⟨31, _⟩ => ⟨S4096x128, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_c : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v6 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v7 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v8 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v9 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_v10 : Ref sig .tc := ⟨.hbm, 63, rfl⟩
abbrev main_call5_v0 : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_v11 : Ref sig .tc := ⟨.hbm, 69, rfl⟩
abbrev main_call6_v0 : Ref sig .tc := ⟨.hbm, 70, rfl⟩
abbrev main_call6_v1 : Ref sig .tc := ⟨.hbm, 71, rfl⟩
abbrev main_call6_v2 : Ref sig .tc := ⟨.hbm, 72, rfl⟩
abbrev main_call6_v3 : Ref sig .tc := ⟨.hbm, 73, rfl⟩
abbrev main_call6_v4 : Ref sig .tc := ⟨.hbm, 74, rfl⟩
abbrev main_v12 : Ref sig .tc := ⟨.hbm, 75, rfl⟩
abbrev main_call7_v0 : Ref sig .tc := ⟨.hbm, 76, rfl⟩
abbrev main_call7_v1 : Ref sig .tc := ⟨.hbm, 77, rfl⟩
abbrev main_call7_v2 : Ref sig .tc := ⟨.hbm, 78, rfl⟩
abbrev main_call7_v3 : Ref sig .tc := ⟨.hbm, 79, rfl⟩
abbrev main_call7_v4 : Ref sig .tc := ⟨.hbm, 80, rfl⟩
abbrev main_v13 : Ref sig .tc := ⟨.hbm, 81, rfl⟩
abbrev main_call8_v0 : Ref sig .tc := ⟨.hbm, 82, rfl⟩
abbrev main_call8_v1 : Ref sig .tc := ⟨.hbm, 83, rfl⟩
abbrev main_call8_v2 : Ref sig .tc := ⟨.hbm, 84, rfl⟩
abbrev main_call8_v3 : Ref sig .tc := ⟨.hbm, 85, rfl⟩
abbrev main_call8_v4 : Ref sig .tc := ⟨.hbm, 86, rfl⟩
abbrev main_v14 : Ref sig .tc := ⟨.hbm, 87, rfl⟩
abbrev main_call9_v0 : Ref sig .tc := ⟨.hbm, 88, rfl⟩
abbrev main_call9_v1 : Ref sig .tc := ⟨.hbm, 89, rfl⟩
abbrev main_call9_v2 : Ref sig .tc := ⟨.hbm, 90, rfl⟩
abbrev main_call9_v3 : Ref sig .tc := ⟨.hbm, 91, rfl⟩
abbrev main_call9_v4 : Ref sig .tc := ⟨.hbm, 92, rfl⟩
abbrev main_v15 : Ref sig .tc := ⟨.hbm, 93, rfl⟩
abbrev main_call10_v0 : Ref sig .tc := ⟨.hbm, 94, rfl⟩
abbrev main_call10_v1 : Ref sig .tc := ⟨.hbm, 95, rfl⟩
abbrev main_call10_v2 : Ref sig .tc := ⟨.hbm, 96, rfl⟩
abbrev main_call10_v3 : Ref sig .tc := ⟨.hbm, 97, rfl⟩
abbrev main_call10_v4 : Ref sig .tc := ⟨.hbm, 98, rfl⟩
abbrev main_v16 : Ref sig .tc := ⟨.hbm, 99, rfl⟩
abbrev main_call11_v0 : Ref sig .tc := ⟨.hbm, 100, rfl⟩
abbrev main_call11_v1 : Ref sig .tc := ⟨.hbm, 101, rfl⟩
abbrev main_call11_v2 : Ref sig .tc := ⟨.hbm, 102, rfl⟩
abbrev main_call11_v3 : Ref sig .tc := ⟨.hbm, 103, rfl⟩
abbrev main_call11_v4 : Ref sig .tc := ⟨.hbm, 104, rfl⟩
abbrev main_v17 : Ref sig .tc := ⟨.hbm, 105, rfl⟩
abbrev main_call12_v0 : Ref sig .tc := ⟨.hbm, 106, rfl⟩
abbrev main_call12_v1 : Ref sig .tc := ⟨.hbm, 107, rfl⟩
abbrev main_call12_v2 : Ref sig .tc := ⟨.hbm, 108, rfl⟩
abbrev main_call12_v3 : Ref sig .tc := ⟨.hbm, 109, rfl⟩
abbrev main_call12_v4 : Ref sig .tc := ⟨.hbm, 110, rfl⟩
abbrev main_v18 : Ref sig .tc := ⟨.hbm, 111, rfl⟩
abbrev main_v19 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_v24 : Ref sig .tc := ⟨.hbm, 117, rfl⟩
abbrev main_v25 : Ref sig .tc := ⟨.hbm, 118, rfl⟩
abbrev main_v26 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_v72_0 : Ref sig .tc := ⟨.hbm, 165, rfl⟩
abbrev main_v72_1 : Ref sig .tc := ⟨.hbm, 166, rfl⟩
abbrev main_v73 : Ref sig .tc := ⟨.hbm, 167, rfl⟩
abbrev main_v74 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg27_1 : Ref sig .tc := ⟨.vmem, 29, rfl⟩
abbrev cc0_stg28_0 : Ref sig .tc := ⟨.vmem, 30, rfl⟩
abbrev cc0_stg28_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem27_1 : DmaSem sig := 29
abbrev cc0_sem28_0 : DmaSem sig := 30
abbrev cc0_sem28_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S64x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S64x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S64x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S4096x16 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S4096x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

class Facts₀ : Prop where
  bcast_S_S16x16 : S_.BroadcastsInDim S16x16 (![] : Fin 0 → Fin S16x16.rank)
  bcast_S16x16_S16x1x16x1_0_2 : S16x16.BroadcastsInDim S16x1x16x1 (![0, 2] : Fin 2 → Fin S16x1x16x1.rank)
  bcast_S8x8_S1x8x1x8_1_3 : S8x8.BroadcastsInDim S1x8x1x8 (![1, 3] : Fin 2 → Fin S1x8x1x8.rank)
  bcast_S16x1x16x1_S16x8x16x8_0_1_2_3 : S16x1x16x1.BroadcastsInDim S16x8x16x8 (![0, 1, 2, 3] : Fin 4 → Fin S16x8x16x8.rank)
  bcast_S1x8x1x8_S16x8x16x8_0_1_2_3 : S1x8x1x8.BroadcastsInDim S16x8x16x8 (![0, 1, 2, 3] : Fin 4 → Fin S16x8x16x8.rank)
  shapeCasts_S16x8x16x8_S128x128 : S16x8x16x8.ShapeCasts S128x128
  bcast_S8x4_S1x8x1x4_1_3 : S8x4.BroadcastsInDim S1x8x1x4 (![1, 3] : Fin 2 → Fin S1x8x1x4.rank)
  bcast_S16x1x16x1_S16x8x16x4_0_1_2_3 : S16x1x16x1.BroadcastsInDim S16x8x16x4 (![0, 1, 2, 3] : Fin 4 → Fin S16x8x16x4.rank)
  bcast_S1x8x1x4_S16x8x16x4_0_1_2_3 : S1x8x1x4.BroadcastsInDim S16x8x16x4 (![0, 1, 2, 3] : Fin 4 → Fin S16x8x16x4.rank)
  shapeCasts_S16x8x16x4_S128x64 : S16x8x16x4.ShapeCasts S128x64
  bcast_S4x4_S1x4x1x4_1_3 : S4x4.BroadcastsInDim S1x4x1x4 (![1, 3] : Fin 2 → Fin S1x4x1x4.rank)
  bcast_S16x1x16x1_S16x4x16x4_0_1_2_3 : S16x1x16x1.BroadcastsInDim S16x4x16x4 (![0, 1, 2, 3] : Fin 4 → Fin S16x4x16x4.rank)
  bcast_S1x4x1x4_S16x4x16x4_0_1_2_3 : S1x4x1x4.BroadcastsInDim S16x4x16x4 (![0, 1, 2, 3] : Fin 4 → Fin S16x4x16x4.rank)
  shapeCasts_S16x4x16x4_S64x64 : S16x4x16x4.ShapeCasts S64x64
  bcast_S4x1_S1x4x1x1_1_3 : S4x1.BroadcastsInDim S1x4x1x1 (![1, 3] : Fin 2 → Fin S1x4x1x1.rank)
  bcast_S16x1x16x1_S16x4x16x1_0_1_2_3 : S16x1x16x1.BroadcastsInDim S16x4x16x1 (![0, 1, 2, 3] : Fin 4 → Fin S16x4x16x1.rank)
  bcast_S1x4x1x1_S16x4x16x1_0_1_2_3 : S1x4x1x1.BroadcastsInDim S16x4x16x1 (![0, 1, 2, 3] : Fin 4 → Fin S16x4x16x1.rank)
  shapeCasts_S16x4x16x1_S64x16 : S16x4x16x1.ShapeCasts S64x16
  bcast_S1x4_S1x1x1x4_1_3 : S1x4.BroadcastsInDim S1x1x1x4 (![1, 3] : Fin 2 → Fin S1x1x1x4.rank)
  bcast_S16x1x16x1_S16x1x16x4_0_1_2_3 : S16x1x16x1.BroadcastsInDim S16x1x16x4 (![0, 1, 2, 3] : Fin 4 → Fin S16x1x16x4.rank)
  bcast_S1x1x1x4_S16x1x16x4_0_1_2_3 : S1x1x1x4.BroadcastsInDim S16x1x16x4 (![0, 1, 2, 3] : Fin 4 → Fin S16x1x16x4.rank)
  shapeCasts_S16x1x16x4_S16x64 : S16x1x16x4.ShapeCasts S16x64
  bcast_S4x8_S1x4x1x8_1_3 : S4x8.BroadcastsInDim S1x4x1x8 (![1, 3] : Fin 2 → Fin S1x4x1x8.rank)
  bcast_S16x1x16x1_S16x4x16x8_0_1_2_3 : S16x1x16x1.BroadcastsInDim S16x4x16x8 (![0, 1, 2, 3] : Fin 4 → Fin S16x4x16x8.rank)
  bcast_S1x4x1x8_S16x4x16x8_0_1_2_3 : S1x4x1x8.BroadcastsInDim S16x4x16x8 (![0, 1, 2, 3] : Fin 4 → Fin S16x4x16x8.rank)
  shapeCasts_S16x4x16x8_S64x128 : S16x4x16x8.ShapeCasts S64x128
  shapeCasts_S8_S1x8 : S8.ShapeCasts S1x8
  bcast_S1x8_S16x8_0_1 : S1x8.BroadcastsInDim S16x8 (![0, 1] : Fin 2 → Fin S16x8.rank)
  shapeCasts_S16x8_S128 : S16x8.ShapeCasts S128
  shapeCasts_S128_S1x128 : S128.ShapeCasts S1x128
  shapeCasts_S4_S1x4 : S4.ShapeCasts S1x4
  bcast_S1x4_S16x4_0_1 : S1x4.BroadcastsInDim S16x4 (![0, 1] : Fin 2 → Fin S16x4.rank)
  shapeCasts_S16x4_S64 : S16x4.ShapeCasts S64
  shapeCasts_S64_S1x64 : S64.ShapeCasts S1x64
  shapeCasts_S1_S1x1 : S1.ShapeCasts S1x1
  bcast_S1x1_S16x1_0_1 : S1x1.BroadcastsInDim S16x1 (![0, 1] : Fin 2 → Fin S16x1.rank)
  shapeCasts_S16x1_S16 : S16x1.ShapeCasts S16
  shapeCasts_S16_S1x16 : S16.ShapeCasts S1x16
  shapeCasts_S4194304x8_S262144x128 : S4194304x8.ShapeCasts S262144x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S4096x128 : S1x128.Broadcasts S4096x128
  broadcasts_S1x64_S4096x64 : S1x64.Broadcasts S4096x64
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  shapeCasts_S262144x16_S4194304x1 : S262144x16.ShapeCasts S4194304x1
  shapeCasts_S262144x128_S4194304x8 : S262144x128.ShapeCasts S4194304x8
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S4096x64_S64x64_S4096x64_1_0_0_1_n_n_wf : DotDims.WF S4096x64 S64x64 S4096x64 [1] [0] [0] [1] [] []
  dot_S4096x64_S64x16_S4096x16_1_0_0_1_n_n_wf : DotDims.WF S4096x64 S64x16 S4096x16 [1] [0] [0] [1] [] []
  dot_S4096x16_S16x64_S4096x64_1_0_0_1_n_n_wf : DotDims.WF S4096x16 S16x64 S4096x64 [1] [0] [0] [1] [] []
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x16.size a ≤ S64x16.size a
  hwx0_13 : ∀ i : grid0.Coords, EltTy.bits .f32 = 32 ∨ (Rect.block (s := S64x16) S64x16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x16.size a ≤ S1x16.size a
  hwx0_14 : ∀ i : grid0.Coords, EltTy.bits .f32 = 32 ∨ (Rect.block (s := S1x16) S1x16.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S16x64.size a ≤ S16x64.size a
  hwx0_15 : ∀ i : grid0.Coords, EltTy.bits .f32 = 32 ∨ (Rect.block (s := S16x64) S16x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x64.size a ≤ S64x64.size a
  hwx0_17 : ∀ i : grid0.Coords, EltTy.bits .f32 = 32 ∨ (Rect.block (s := S64x64) S64x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x64.size a ≤ S64x64.size a
  hwx0_19 : ∀ i : grid0.Coords, EltTy.bits .f32 = 32 ∨ (Rect.block (s := S64x64) S64x64.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x64.size a ≤ S1x64.size a
  hwx0_20 : ∀ i : grid0.Coords, EltTy.bits .f32 = 32 ∨ (Rect.block (s := S1x64) S1x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S64x64.size a ≤ S64x64.size a
  hwx0_21 : ∀ i : grid0.Coords, EltTy.bits .f32 = 32 ∨ (Rect.block (s := S64x64) S64x64.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x64.size a ≤ S1x64.size a
  hwx0_22 : ∀ i : grid0.Coords, EltTy.bits .f32 = 32 ∨ (Rect.block (s := S1x64) S1x64.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S64x64.size a ≤ S64x64.size a
  hwx0_23 : ∀ i : grid0.Coords, EltTy.bits .f32 = 32 ∨ (Rect.block (s := S64x64) S64x64.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x64.size a ≤ S1x64.size a
  hwx0_24 : ∀ i : grid0.Coords, EltTy.bits .f32 = 32 ∨ (Rect.block (s := S1x64) S1x64.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S64x128.size a ≤ S64x128.size a
  hwx0_25 : ∀ i : grid0.Coords, EltTy.bits .f32 = 32 ∨ (Rect.block (s := S64x128) S64x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x128.size a ≤ S1x128.size a
  hwx0_26 : ∀ i : grid0.Coords, EltTy.bits .f32 = 32 ∨ (Rect.block (s := S1x128) S1x128.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S4096x16.size a ≤ S262144x16.size a
  hwx0_27 : ∀ i : grid0.Coords, EltTy.bits .f32 = 32 ∨ (Rect.block (s := S262144x16) S4096x16.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S4096x128.size a ≤ S262144x128.size a
  hwx0_28 : ∀ i : grid0.Coords, EltTy.bits .f32 = 32 ∨ (Rect.block (s := S262144x128) S4096x128.size (cc0_transform_28 i) (hinb0_28 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S4096x16_S16x64_S4096x64_1_0_0_1_n_n : DotDims S4096x16 S16x64 S4096x64 where
  lhsContracting := [1]
  rhsContracting := [0]
  lhsNonContracting := [0]
  rhsNonContracting := [1]
  lhsBatch := []
  rhsBatch := []
  wf := dot_S4096x16_S16x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_v71) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S64x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v46) S1x16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S16x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v50) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v14) S64x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v54) S1x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v15) S64x64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v58) S1x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v16) S64x64.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v62) S1x64.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v17) S64x64.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v66) S1x64.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v18) S64x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v70) S1x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v72_0) S4096x16.size cc0_transform_27 reads0_27 true false 2 stage0_27 sem0_27
    hrank0 hreads0_27 hinb0_27 nbuf0_27 (Memref.isWhole_whole _) hwx0_27 hstage0_27

abbrev win0_28 : Pipeline.Window sig grid0 :=
  Pipeline.Window.ofSpec (Memref.whole main_v72_1) S4096x128.size cc0_transform_28 reads0_28 true false 2 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S8x8 : Shape := ⟨2, ![8, 8]⟩
abbrev S8 : Shape := ⟨1, ![8]⟩
abbrev S8x4 : Shape := ⟨2, ![8, 4]⟩
abbrev S4 : Shape := ⟨1, ![4]⟩
abbrev S4x4 : Shape := ⟨2, ![4, 4]⟩
abbrev S4x1 : Shape := ⟨2, ![4, 1]⟩
abbrev S1 : Shape := ⟨1, ![1]⟩
abbrev S1x4 : Shape := ⟨2, ![1, 4]⟩
abbrev S4x8 : Shape := ⟨2, ![4, 8]⟩
abbrev S1x8 : Shape := ⟨2, ![1, 8]⟩
abbrev S_ : Shape := ⟨0, ![]⟩
abbrev S4194304x4 : Shape := ⟨2, ![4194304, 4]⟩
abbrev S4194304x1 : Shape := ⟨2, ![4194304, 1]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S4194304x8, .f32⟩
  | 1 => ⟨S8x8, .f32⟩
  | 2 => ⟨S8, .f32⟩
  | 3 => ⟨S8x4, .f32⟩
  | 4 => ⟨S4, .f32⟩
  | 5 => ⟨S4x4, .f32⟩
  | 6 => ⟨S4, .f32⟩
  | 7 => ⟨S4x4, .f32⟩
  | 8 => ⟨S4, .f32⟩
  | 9 => ⟨S4x4, .f32⟩
  | 10 => ⟨S4, .f32⟩
  | 11 => ⟨S4x4, .f32⟩
  | 12 => ⟨S4, .f32⟩
  | 13 => ⟨S4x1, .f32⟩
  | 14 => ⟨S1, .f32⟩
  | 15 => ⟨S1x4, .f32⟩
  | 16 => ⟨S4, .f32⟩
  | 17 => ⟨S4x4, .f32⟩
  | 18 => ⟨S4, .f32⟩
  | 19 => ⟨S4x4, .f32⟩
  | 20 => ⟨S4, .f32⟩
  | 21 => ⟨S4x4, .f32⟩
  | 22 => ⟨S4, .f32⟩
  | 23 => ⟨S4x4, .f32⟩
  | 24 => ⟨S4, .f32⟩
  | 25 => ⟨S4x8, .f32⟩
  | 26 => ⟨S8, .f32⟩
  | 27 => ⟨S4194304x8, .f32⟩
  | 28 => ⟨S1x8, .f32⟩
  | 29 => ⟨S4194304x8, .f32⟩
  | 30 => ⟨S4194304x8, .f32⟩
  | 31 => ⟨S_, .f32⟩
  | 32 => ⟨S4194304x8, .f32⟩
  | 33 => ⟨S4194304x8, .i1⟩
  | 34 => ⟨S_, .f32⟩
  | 35 => ⟨S4194304x8, .f32⟩
  | 36 => ⟨S4194304x8, .f32⟩
  | 37 => ⟨S4194304x8, .f32⟩
  | 38 => ⟨S4194304x4, .f32⟩
  | 39 => ⟨S1x4, .f32⟩
  | 40 => ⟨S4194304x4, .f32⟩
  | 41 => ⟨S4194304x4, .f32⟩
  | 42 => ⟨S4194304x4, .f32⟩
  | 43 => ⟨S1x4, .f32⟩
  | 44 => ⟨S4194304x4, .f32⟩
  | 45 => ⟨S4194304x4, .f32⟩
  | 46 => ⟨S_, .f32⟩
  | 47 => ⟨S4194304x4, .f32⟩
  | 48 => ⟨S4194304x4, .i1⟩
  | 49 => ⟨S_, .f32⟩
  | 50 => ⟨S4194304x4, .f32⟩
  | 51 => ⟨S4194304x4, .f32⟩
  | 52 => ⟨S4194304x4, .f32⟩
  | 53 => ⟨S4194304x4, .f32⟩
  | 54 => ⟨S1x4, .f32⟩
  | 55 => ⟨S4194304x4, .f32⟩
  | 56 => ⟨S4194304x4, .f32⟩
  | 57 => ⟨S4194304x4, .f32⟩
  | 58 => ⟨S4194304x4, .f32⟩
  | 59 => ⟨S1x4, .f32⟩
  | 60 => ⟨S4194304x4, .f32⟩
  | 61 => ⟨S4194304x4, .f32⟩
  | 62 => ⟨S_, .f32⟩
  | 63 => ⟨S4194304x4, .f32⟩
  | 64 => ⟨S4194304x4, .i1⟩
  | 65 => ⟨S_, .f32⟩
  | 66 => ⟨S4194304x4, .f32⟩
  | 67 => ⟨S4194304x4, .f32⟩
  | 68 => ⟨S4194304x4, .f32⟩
  | 69 => ⟨S4194304x4, .f32⟩
  | 70 => ⟨S1x4, .f32⟩
  | 71 => ⟨S4194304x4, .f32⟩
  | 72 => ⟨S4194304x4, .f32⟩
  | 73 => ⟨S4194304x4, .f32⟩
  | 74 => ⟨S4194304x1, .f32⟩
  | 75 => ⟨S1x1, .f32⟩
  | 76 => ⟨S4194304x1, .f32⟩
  | 77 => ⟨S4194304x1, .f32⟩
  | 78 => ⟨S_, .f32⟩
  | 79 => ⟨S4194304x1, .f32⟩
  | 80 => ⟨S4194304x1, .i1⟩
  | 81 => ⟨S_, .f32⟩
  | 82 => ⟨S4194304x1, .f32⟩
  | 83 => ⟨S4194304x1, .f32⟩
  | 84 => ⟨S4194304x1, .f32⟩
  | 85 => ⟨S4194304x4, .f32⟩
  | 86 => ⟨S1x4, .f32⟩
  | 87 => ⟨S4194304x4, .f32⟩
  | 88 => ⟨S4194304x4, .f32⟩
  | 89 => ⟨S_, .f32⟩
  | 90 => ⟨S4194304x4, .f32⟩
  | 91 => ⟨S4194304x4, .i1⟩
  | 92 => ⟨S_, .f32⟩
  | 93 => ⟨S4194304x4, .f32⟩
  | 94 => ⟨S4194304x4, .f32⟩
  | 95 => ⟨S4194304x4, .f32⟩
  | 96 => ⟨S4194304x4, .f32⟩
  | 97 => ⟨S1x4, .f32⟩
  | 98 => ⟨S4194304x4, .f32⟩
  | 99 => ⟨S4194304x4, .f32⟩
  | 100 => ⟨S_, .f32⟩
  | 101 => ⟨S4194304x4, .f32⟩
  | 102 => ⟨S4194304x4, .i1⟩
  | 103 => ⟨S_, .f32⟩
  | 104 => ⟨S4194304x4, .f32⟩
  | 105 => ⟨S4194304x4, .f32⟩
  | 106 => ⟨S4194304x4, .f32⟩
  | 107 => ⟨S4194304x4, .f32⟩
  | 108 => ⟨S1x4, .f32⟩
  | 109 => ⟨S4194304x4, .f32⟩
  | 110 => ⟨S4194304x4, .f32⟩
  | 111 => ⟨S4194304x4, .f32⟩
  | 112 => ⟨S4194304x4, .f32⟩
  | 113 => ⟨S1x4, .f32⟩
  | 114 => ⟨S4194304x4, .f32⟩
  | 115 => ⟨S4194304x4, .f32⟩
  | 116 => ⟨S_, .f32⟩
  | 117 => ⟨S4194304x4, .f32⟩
  | 118 => ⟨S4194304x4, .i1⟩
  | 119 => ⟨S_, .f32⟩
  | 120 => ⟨S4194304x4, .f32⟩
  | 121 => ⟨S4194304x4, .f32⟩
  | 122 => ⟨S4194304x4, .f32⟩
  | 123 => ⟨S4194304x4, .f32⟩
  | 124 => ⟨S1x4, .f32⟩
  | 125 => ⟨S4194304x4, .f32⟩
  | 126 => ⟨S4194304x4, .f32⟩
  | 127 => ⟨S4194304x4, .f32⟩
  | _ => ⟨S4194304x8, .f32⟩

abbrev hbmTy0_1 (i : Nat) : BufTy := match i % 128 with
  | 0 => ⟨S4194304x8, .f32⟩
  | 1 => ⟨S1x8, .f32⟩
  | 2 => ⟨S4194304x8, .f32⟩
  | 3 => ⟨S4194304x8, .f32⟩
  | 4 => ⟨S_, .f32⟩
  | 5 => ⟨S4194304x8, .f32⟩
  | 6 => ⟨S4194304x8, .i1⟩
  | 7 => ⟨S_, .f32⟩
  | 8 => ⟨S4194304x8, .f32⟩
  | 9 => ⟨S4194304x8, .f32⟩
  | 10 => ⟨S4194304x8, .f32⟩
  | _ => ⟨S4194304x8, .f32⟩

abbrev hbmTy (i : Nat) : BufTy := match i / 128 with
  | 0 => hbmTy0_0 i
  | 1 => hbmTy0_1 i
  | _ => ⟨S4194304x8, .f32⟩

abbrev bufTy : (tb : Table) → Fin (tcTables nBuf tb) → BufTy
  | .hbm, ⟨i, _⟩ => hbmTy i
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_v5 : Ref sig .tc := ⟨.hbm, 33, rfl⟩
abbrev main_cst_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_1 : Ref sig .tc := ⟨.hbm, 46, rfl⟩
abbrev main_v17 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_3 : Ref sig .tc := ⟨.hbm, 62, rfl⟩
abbrev main_v31 : Ref sig .tc := ⟨.hbm, 63, rfl⟩
abbrev main_v32 : Ref sig .tc := ⟨.hbm, 64, rfl⟩
abbrev main_cst_4 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_5 : Ref sig .tc := ⟨.hbm, 78, rfl⟩
abbrev main_v45 : Ref sig .tc := ⟨.hbm, 79, rfl⟩
abbrev main_v46 : Ref sig .tc := ⟨.hbm, 80, rfl⟩
abbrev main_cst_6 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_7 : Ref sig .tc := ⟨.hbm, 89, rfl⟩
abbrev main_v54 : Ref sig .tc := ⟨.hbm, 90, rfl⟩
abbrev main_v55 : Ref sig .tc := ⟨.hbm, 91, rfl⟩
abbrev main_cst_8 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_9 : Ref sig .tc := ⟨.hbm, 100, rfl⟩
abbrev main_v63 : Ref sig .tc := ⟨.hbm, 101, rfl⟩
abbrev main_v64 : Ref sig .tc := ⟨.hbm, 102, rfl⟩
abbrev main_cst_10 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_11 : Ref sig .tc := ⟨.hbm, 116, rfl⟩
abbrev main_v77 : Ref sig .tc := ⟨.hbm, 117, rfl⟩
abbrev main_v78 : Ref sig .tc := ⟨.hbm, 118, rfl⟩
abbrev main_cst_12 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_13 : Ref sig .tc := ⟨.hbm, 132, rfl⟩
abbrev main_v91 : Ref sig .tc := ⟨.hbm, 133, rfl⟩
abbrev main_v92 : Ref sig .tc := ⟨.hbm, 134, rfl⟩
abbrev main_cst_14 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S4194304x8_0_1 : S1x8.BroadcastsInDim S4194304x8 (![0, 1] : Fin 2 → Fin S4194304x8.rank)
  bcast_S_S4194304x8 : S_.BroadcastsInDim S4194304x8 (![] : Fin 0 → Fin S4194304x8.rank)
  bcast_S4_S1x4_1 : S4.BroadcastsInDim S1x4 (![1] : Fin 1 → Fin S1x4.rank)
  bcast_S1x4_S4194304x4_0_1 : S1x4.BroadcastsInDim S4194304x4 (![0, 1] : Fin 2 → Fin S4194304x4.rank)
  bcast_S_S4194304x4 : S_.BroadcastsInDim S4194304x4 (![] : Fin 0 → Fin S4194304x4.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  bcast_S_S4194304x1 : S_.BroadcastsInDim S4194304x1 (![] : Fin 0 → Fin S4194304x1.rank)
  dot_S4194304x8_S8x8_S4194304x8_1_0_0_1_n_n_wf : DotDims.WF S4194304x8 S8x8 S4194304x8 [1] [0] [0] [1] [] []
  dot_S4194304x8_S8x4_S4194304x4_1_0_0_1_n_n_wf : DotDims.WF S4194304x8 S8x4 S4194304x4 [1] [0] [0] [1] [] []
  dot_S4194304x4_S4x4_S4194304x4_1_0_0_1_n_n_wf : DotDims.WF S4194304x4 S4x4 S4194304x4 [1] [0] [0] [1] [] []
  dot_S4194304x4_S4x1_S4194304x1_1_0_0_1_n_n_wf : DotDims.WF S4194304x4 S4x1 S4194304x1 [1] [0] [0] [1] [] []
  dot_S4194304x1_S1x4_S4194304x4_1_0_0_1_n_n_wf : DotDims.WF S4194304x1 S1x4 S4194304x4 [1] [0] [0] [1] [] []
  dot_S4194304x4_S4x8_S4194304x8_1_0_0_1_n_n_wf : DotDims.WF S4194304x4 S4x8 S4194304x8 [1] [0] [0] [1] [] []

variable [Facts₀]

def dot_S4194304x8_S8x8_S4194304x8_1_0_0_1_n_n : DotDims S4194304x8 S8x8 S4194304x8 where
  lhsContracting := [1]
  rhsContracting := [0]
  lhsNonContracting := [0]
  rhsNonContracting := [1]
  lhsBatch := []
  rhsBatch := []
  wf := dot_S4194304x8_S8x8_S4194304x8_1_0_0_1_n_n_wf
def dot_S4194304x8_S8x4_S4194304x4_1_0_0_1_n_n : DotDims S4194304x8 S8x4 S4194304x4 where
  lhsContracting := [1]
  rhsContracting := [0]
  lhsNonContracting := [0]
  rhsNonContracting := [1]
  lhsBatch := []
  rhsBatch := []
  wf := dot_S4194304x8_S8x4_S4194304x4_1_0_0_1_n_n_wf
def dot_S4194304x4_S4x4_S4194304x4_1_0_0_1_n_n : DotDims S4194304x4 S4x4 S4194304x4 where
  lhsContracting := [1]
  rhsContracting := [0]
  lhsNonContracting := [0]
  rhsNonContracting := [1]
  lhsBatch := []
  rhsBatch := []
  wf := dot_S4194304x4_S4x4_S4194304x4_1_0_0_1_n_n_wf
def dot_S4194304x4_S4x1_S4194304x1_1_0_0_1_n_n : DotDims S4194304x4 S4x1 S4194304x1 where
  lhsContracting := [1]
  rhsContracting := [0]
  lhsNonContracting := [0]
  rhsNonContracting := [1]
  lhsBatch := []
  rhsBatch := []
  wf := dot_S4194304x4_S4x1_S4194304x1_1_0_0_1_n_n_wf
def dot_S4194304x1_S1x4_S4194304x4_1_0_0_1_n_n : DotDims S4194304x1 S1x4 S4194304x4 where
  lhsContracting := [1]
  rhsContracting := [0]
  lhsNonContracting := [0]
  rhsNonContracting := [1]
  lhsBatch := []
  rhsBatch := []
  wf := dot_S4194304x1_S1x4_S4194304x4_1_0_0_1_n_n_wf
def dot_S4194304x4_S4x8_S4194304x8_1_0_0_1_n_n : DotDims S4194304x4 S4x8 S4194304x8 where
  lhsContracting := [1]
  rhsContracting := [0]
  lhsNonContracting := [0]
  rhsNonContracting := [1]
  lhsBatch := []
  rhsBatch := []
  wf := dot_S4194304x4_S4x8_S4194304x8_1_0_0_1_n_n_wf

class Facts : Prop extends Facts₀ where

variable [Facts]
-- ==== Proof.LibPlainMatmul.lean ====
/-
  A plain matrix product and the one-axis reductions of a matrix, read at an index written by coordinates, at the
  ideal values, for any extents.

  The product of an `[m, k]` matrix by a `[k, n]` matrix accumulated into the zero matrix is, at `(a, b)`, the sum over
  the contracted coordinate `c` of the products of the entries `(a, c)` and `(c, b)`.  A sum over the rows of an
  `[a, b]` matrix (axis 0 dropped) is, at column `j`, the sum over `i` of the entries `(i, j)`; a sum along the rows
  (axis 1 dropped) is, at row `i`, the sum over `j` of the entries `(i, j)`; and a maximum over the rows is, at column
  `j`, the fold of `max` from the accumulator's value over the entries `(i, j)`.  Each sum runs over a finite index
  type, so no order of the additions is part of the statement.
-/
import Idealize.ShloMosaic.Lib.ValueIdx
import Idealize.ShloMosaic.PureOps.Ideal.Laws
import Idealize.ShloMosaic.PureOps.Reduce

open scoped BigOperators

namespace PlainMatmul

open Idealize.ShloMosaic Idealize.ShloMosaic.ValueIdx

/-! ## The plain product -/

/-- The dimension numbers of a plain product: the left operand's columns contracted with the right operand's rows. -/
abbrev dims {m k n : ℕ}
    (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- THE PLAIN PRODUCT AT `(a, b)`, accumulated into zero: the sum over the contracted coordinate. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (dims w) k rfl rfl).symm]
  refine Finset.sum_congr rfl fun c _ => ?_
  have hc := contrEquiv1_symm_val (dims w) k rfl rfl c
  have l0 : ∀ q : (dims w).contr.Idx, ((dims w).lhsIdx (ix2 a b) q (0 : Fin 2)).val = a.val := fun q => by
    unfold DotDims.lhsIdx
    rw [dif_neg (show ¬(0 : Fin 2) ∈ (dims w).lhsBatch from List.not_mem_nil),
      dif_pos (show (0 : Fin 2) ∈ (dims w).lhsNonContracting from List.mem_singleton.mpr rfl)]
    rfl
  have r1 : ∀ q : (dims w).contr.Idx, ((dims w).rhsIdx (ix2 a b) q (1 : Fin 2)).val = b.val := fun q => by
    unfold DotDims.rhsIdx
    rw [dif_neg (show ¬(1 : Fin 2) ∈ (dims w).rhsBatch from List.not_mem_nil),
      dif_pos (show (1 : Fin 2) ∈ (dims w).rhsNonContracting from List.mem_singleton.mpr rfl)]
    rfl
  have el : (dims w).lhsIdx (ix2 a b) ((contrEquiv1 (dims w) k rfl rfl).symm c) = ix2 a c := by
    funext ax; apply Fin.ext
    match ax with
    | ⟨0, _⟩ => exact l0 _
    | ⟨1, _⟩ => exact ((dims w).lhsIdx_val_of_single (cl := (1 : Fin 2)) rfl _ _).trans hc
  have er : (dims w).rhsIdx (ix2 a b) ((contrEquiv1 (dims w) k rfl rfl).symm c) = ix2 c b := by
    funext ax; apply Fin.ext
    match ax with
    | ⟨0, _⟩ => exact ((dims w).rhsIdx_val_of_single (cr := (0 : Fin 2)) rfl _ _).trans hc
    | ⟨1, _⟩ => exact r1 _
  rw [el, er]

/-! ## The index a reduced index and a coordinate on the dropped axis name -/

/-- Dropping the FIRST axis of `[a, b]`: the index over `j` whose first coordinate is `k` is `(k, j)`. -/
theorem lift_first {a b : ℕ} (h : (⟨2, ![a, b]⟩ : Shape).Reduces [0] (⟨1, ![b]⟩ : Shape)) (j : Fin b)
    (k : Fin ((⟨2, ![a, b]⟩ : Shape).size 0)) :
    h.lift (ix1 j) k = ix2 (⟨k.val, k.isLt⟩ : Fin a) j := by
  funext ax; apply Fin.ext
  fin_cases ax <;> rfl

/-- Dropping the LAST axis of `[a, b]`: the index over `i` whose last coordinate is `k` is `(i, k)`. -/
theorem lift_last {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

/-! ## Sums and a maximum over one axis of a matrix -/

variable {φ : FTy}

/-- A sum over the rows (axis 0 dropped), at column `j`. -/
theorem sum_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  exact Finset.sum_congr rfl fun k _ => congrArg src (lift_first h j k)

/-- A sum along the rows (axis 1 dropped), at row `i`. -/
theorem sum_axis1_apply {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ j : Fin b, src (ix2 i j) := by
  refine (Ideal.multiReduction_add_single src acc h hφ hacc (ix1 i)).trans ?_
  exact Finset.sum_congr rfl fun k _ => congrArg src (lift_last h i k)

/-- A maximum over the rows (axis 0 dropped), at column `j`: the fold of `max` from the accumulator's value. -/
theorem max_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) (fun i => src (ix2 i j)) := by
  refine (Ideal.multiReduction_maximumf_single src acc h hφ hacc (ix1 j)).trans ?_
  have hf : (src ∘ h.lift (ix1 j)) = fun i : Fin a => src (ix2 i j) :=
    funext fun k => congrArg src (lift_first h j k)
  exact congrArg (fun f => Finset.fold max (Ideal.ofBits φ acc) f (Finset.univ : Finset (Fin a))) hf

end PlainMatmul
-- ==== Proof.LibMatRead.lean ====
/-
  Matrices read at natural coordinates.

  `rd x i j` is the entry `(i, j)` of a matrix when both coordinates lie inside its extents and `0` outside, so a
  statement about entries can be written with plain arithmetic on the coordinates and no proof of a bound inside the
  term.  Read this way: `w` columns taken from column `o` give the entry `(i, o + j)`; rows taken from row `o` give the
  entry `(o + i, j)`; pieces of one width `K` placed side by side give, at column `c`, piece `c / K` at column
  `c % K`; a plain product accumulated into zero gives the sum over the contracted coordinate of the products of the
  entries; a row broadcast down the rows gives the row's entry; a change of float format and the elementwise
  operations act entry by entry at the ideal values.  All for any extents.
-/
import Idealize.ShloMosaic.Lib.ValueIdx
import Idealize.ShloMosaic.Lib.Pipeline.Value
import Idealize.ShloMosaic.PureOps.Ideal.Laws
import proofs.«104812_j146028888292_2_alg».proof.Proof.LibPlainMatmul

open scoped BigOperators

noncomputable section

namespace MatRead

open Idealize.ShloMosaic Idealize.ShloMosaic.ValueIdx

/-- The entry `(i, j)` inside the extents, `0` outside. -/
def rd {m n : ℕ} (x : (⟨2, ![m, n]⟩ : Shape).Idx → EReal) (i j : ℕ) : EReal :=
  if h : i < m ∧ j < n then x (ix2 ⟨i, h.1⟩ ⟨j, h.2⟩) else 0

theorem rd_of_lt {m n : ℕ} (x : (⟨2, ![m, n]⟩ : Shape).Idx → EReal) {i j : ℕ} (hi : i < m) (hj : j < n) :
    rd x i j = x (ix2 ⟨i, hi⟩ ⟨j, hj⟩) := dif_pos ⟨hi, hj⟩

/-- An entry at an index is the read at the index's coordinates. -/
theorem apply_eq_rd {m n : ℕ} (x : (⟨2, ![m, n]⟩ : Shape).Idx → EReal) (y : (⟨2, ![m, n]⟩ : Shape).Idx) :
    x y = rd x (y 0).val (y 1).val := by
  rw [rd_of_lt x (idx2_lt0 y) (idx2_lt1 y)]
  exact congrArg x (eq_ix2 y)

/-- Two matrices with the same reads inside the extents are equal. -/
theorem ext_rd {m n : ℕ} (x y : (⟨2, ![m, n]⟩ : Shape).Idx → EReal)
    (h : ∀ i j, i < m → j < n → rd x i j = rd y i j) : x = y := by
  funext z
  rw [apply_eq_rd x z, apply_eq_rd y z]
  exact h _ _ (idx2_lt0 z) (idx2_lt1 z)

/-! ## Slices -/

/-- `w` columns from column `o`. -/
theorem rd_slice_cols {m n w o : ℕ} (x : (⟨2, ![m, n]⟩ : Shape).Idx → EReal)
    (h : (⟨2, ![m, n]⟩ : Shape).Slices ![0, o] ⟨2, ![m, w]⟩) (hw : o + w ≤ n) {i j : ℕ} (hi : i < m) (hj : j < w) :
    rd (extractStridedSlice ⟨2, ![m, w]⟩ ![0, o] x h) i j = rd x i (o + j) := by
  rw [rd_of_lt _ hi hj, rd_of_lt x hi (show o + j < n by omega)]
  refine extractStridedSlice_apply _ x h _ _ fun a => ?_
  match a with
  | ⟨0, _⟩ => exact (Nat.zero_add i).symm
  | ⟨1, _⟩ => rfl

/-- `r` rows from row `o`. -/
theorem rd_slice_rows {m n r o : ℕ} (x : (⟨2, ![m, n]⟩ : Shape).Idx → EReal)
    (h : (⟨2, ![m, n]⟩ : Shape).Slices ![o, 0] ⟨2, ![r, n]⟩) (hr : o + r ≤ m) {i j : ℕ} (hi : i < r) (hj : j < n) :
    rd (extractStridedSlice ⟨2, ![r, n]⟩ ![o, 0] x h) i j = rd x (o + i) j := by
  rw [rd_of_lt _ hi hj, rd_of_lt x (show o + i < m by omega) hj]
  refine extractStridedSlice_apply _ x h _ _ fun a => ?_
  match a with
  | ⟨0, _⟩ => rfl
  | ⟨1, _⟩ => exact (Nat.zero_add j).symm

/-! ## Pieces side by side -/

/-- Pieces of one width `K` side by side (piece `q` is `G q`), read at column `c`: piece `c / K` at column `c % K`. -/
theorem rd_concat_ofFn {m K T N : ℕ} (G : Fin N → ((⟨2, ![m, K]⟩ : Shape).Idx → EReal))
    (h : Shape.Concatenates ((List.ofFn fun q : Fin N => (⟨⟨2, ![m, K]⟩, G q⟩ : (s : Shape) × (s.Idx → EReal))).map (·.1))
      ⟨2, ![m, T]⟩ 1)
    (hK : 0 < K) {i c : ℕ} (hi : i < m) (hc : c < T) (hq : c / K < N) :
    rd (concatenate ⟨2, ![m, T]⟩ 1
        (List.ofFn fun q : Fin N => (⟨⟨2, ![m, K]⟩, G q⟩ : (s : Shape) × (s.Idx → EReal))) h) i c
      = rd (G ⟨c / K, hq⟩) i (c % K) := by
  rw [rd_of_lt _ hi hc, rd_of_lt _ hi (Nat.mod_lt _ hK)]
  exact concatenate_ofFn_apply (t := ⟨2, ![m, T]⟩) (s₁ := ⟨2, ![m, K]⟩) (1 : Fin 2) G h rfl K rfl
    (ix2 (n0 := m) (n1 := T) ⟨i, hi⟩ ⟨c, hc⟩) ⟨c / K, hq⟩ rfl
    (ix2 (n0 := m) (n1 := K) ⟨i, hi⟩ ⟨c % K, Nat.mod_lt _ hK⟩) rfl
    (fun b hb => by
      match b with
      | ⟨0, _⟩ => rfl
      | ⟨1, _⟩ => exact absurd rfl hb)

/-! ## The plain product, a broadcast row, and the entrywise operations -/

/-- A plain product accumulated into zero: the sum over the contracted coordinate. -/
theorem rd_matmul_zero {m k n : ℕ} {φ₁ φ₂ : FTy} (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = PlainMatmul.dims w)
    (prec : Option ContractPrecision) (A : FVec Ideal ⟨2, ![m, k]⟩ φ₁) (B : FVec Ideal ⟨2, ![k, n]⟩ φ₂)
    {i j : ℕ} (hi : i < m) (hj : j < n) :
    rd (FloatOps.matmul d prec A B (constant (F := Ideal) ⟨2, ![m, n]⟩ .f32 0x00000000#32)) i j
      = ∑ c : Fin k, rd A i c.val * rd B c.val j := by
  subst hd
  rw [rd_of_lt _ hi hj, PlainMatmul.matmul_zero_apply]
  exact Finset.sum_congr rfl fun c _ => by rw [rd_of_lt A hi c.isLt, rd_of_lt B c.isLt hj]

/-- A row broadcast down `m` rows. -/
theorem rd_broadcast_row {m n : ℕ} (b : (⟨2, ![1, n]⟩ : Shape).Idx → EReal)
    (h : (⟨2, ![1, n]⟩ : Shape).Broadcasts ⟨2, ![m, n]⟩) {i j : ℕ} (hi : i < m) (hj : j < n) :
    rd (broadcastTo ⟨2, ![m, n]⟩ b h) i j = rd b 0 j := by
  rw [rd_of_lt _ hi hj, rd_of_lt b Nat.zero_lt_one hj]
  refine broadcastTo_apply b h _ _ fun a => ?_
  match a with
  | ⟨0, _⟩ => rfl
  | ⟨1, _⟩ =>
    show j = if n = 1 then 0 else j
    split
    · omega
    · rfl

/-- A sum of two matrices, entry by entry. -/
theorem rd_addf {m n : ℕ} {φ : FTy} (a b : FVec Ideal ⟨2, ![m, n]⟩ φ) (i j : ℕ) :
    rd (addf a b) i j = rd a i j + rd b i j := by
  unfold rd
  split
  · rfl
  · exact (add_zero 0).symm

/-- A change to a narrower float format is the identity at the ideal values. -/
theorem rd_truncf {m n : ℕ} {φ ψ : FTy} (a : FVec Ideal ⟨2, ![m, n]⟩ φ) (h : ψ.bits < φ.bits) (i j : ℕ) :
    rd (truncf ψ a h : FVec Ideal ⟨2, ![m, n]⟩ ψ) i j = rd a i j := rfl

/-- A shape cast to the same shape changes nothing. -/
theorem rd_shapeCast_self {m n : ℕ} (x : (⟨2, ![m, n]⟩ : Shape).Idx → EReal)
    (h : (⟨2, ![m, n]⟩ : Shape).ShapeCasts ⟨2, ![m, n]⟩) (i j : ℕ) : rd (shapeCast ⟨2, ![m, n]⟩ x h) i j = rd x i j := by
  rw [shapeCast_self]

/-- The product of `k` columns of `X`, from column `o`, with `B`. -/
theorem rd_matmul_slice_cols {m N k n o : ℕ} {φ₁ φ₂ : FTy} (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = PlainMatmul.dims w)
    (prec : Option ContractPrecision) (X : FVec Ideal ⟨2, ![m, N]⟩ φ₁)
    (h : (⟨2, ![m, N]⟩ : Shape).Slices ![0, o] ⟨2, ![m, k]⟩) (hw : o + k ≤ N) (B : FVec Ideal ⟨2, ![k, n]⟩ φ₂)
    {i j : ℕ} (hi : i < m) (hj : j < n) :
    rd (FloatOps.matmul d prec (extractStridedSlice ⟨2, ![m, k]⟩ ![0, o] X h) B
        (constant (F := Ideal) ⟨2, ![m, n]⟩ .f32 0x00000000#32)) i j
      = ∑ c : Fin k, rd X i (o + c.val) * rd B c.val j := by
  rw [rd_matmul_zero d w hd prec _ B hi hj]
  exact Finset.sum_congr rfl fun c _ => by rw [rd_slice_cols X h hw hi c.isLt]

/-- The product with `B` of `N` pieces of `R` rows of `a`, piece `q` from row `s q`, side by side. -/
theorem rd_matmul_row_pieces {M R Kc T N n s : ℕ} {φ₂ : FTy} (d : DotDims ⟨2, ![R, T]⟩ ⟨2, ![T, n]⟩ ⟨2, ![R, n]⟩)
    (w : DotDims.WF ⟨2, ![R, T]⟩ ⟨2, ![T, n]⟩ ⟨2, ![R, n]⟩ [1] [0] [0] [1] [] []) (hd : d = PlainMatmul.dims w)
    (prec : Option ContractPrecision) (a : FVec Ideal ⟨2, ![M, Kc]⟩ .f32)
    (hs : ∀ q : Fin N, (⟨2, ![M, Kc]⟩ : Shape).Slices ![s * q.val, 0] ⟨2, ![R, Kc]⟩) (hb : ∀ q : Fin N, s * q.val + R ≤ M)
    (hc : Shape.Concatenates ((List.ofFn fun q : Fin N =>
      (⟨⟨2, ![R, Kc]⟩, extractStridedSlice ⟨2, ![R, Kc]⟩ ![s * q.val, 0] a (hs q)⟩ : (s : Shape) × (s.Idx → EReal))).map (·.1))
      ⟨2, ![R, T]⟩ 1)
    (hT : T = N * Kc) (hK : 0 < Kc) (ht : FTy.bits .bf16 < FTy.bits .f32) (B : FVec Ideal ⟨2, ![T, n]⟩ φ₂)
    {i j : ℕ} (hi : i < R) (hj : j < n) :
    rd (FloatOps.matmul d prec (truncf .bf16 (concatenate ⟨2, ![R, T]⟩ 1 (List.ofFn fun q : Fin N =>
        (⟨⟨2, ![R, Kc]⟩, extractStridedSlice ⟨2, ![R, Kc]⟩ ![s * q.val, 0] a (hs q)⟩ : (s : Shape) × (s.Idx → EReal))) hc) ht)
        B (constant (F := Ideal) ⟨2, ![R, n]⟩ .f32 0x00000000#32)) i j
      = ∑ c : Fin T, rd a (s * (c.val / Kc) + i) (c.val % Kc) * rd B c.val j := by
  rw [rd_matmul_zero d w hd prec _ B hi hj]
  refine Finset.sum_congr rfl fun c _ => ?_
  have hq : c.val / Kc < N := Nat.div_lt_of_lt_mul (by rw [Nat.mul_comm, ← hT]; exact c.isLt)
  rw [rd_truncf, rd_concat_ofFn _ hc hK hi c.isLt hq, rd_slice_rows a (hs ⟨c.val / Kc, hq⟩) (hb ⟨c.val / Kc, hq⟩) hi (Nat.mod_lt _ hK)]

/-! ## Arrays of four axes -/

/-- The entry `(i, j, k, l)` of an array of four axes inside the extents, `0` outside. -/
def rd4 {a b c d : ℕ} (x : (⟨4, ![a, b, c, d]⟩ : Shape).Idx → EReal) (i j k l : ℕ) : EReal :=
  if h : i < a ∧ j < b ∧ k < c ∧ l < d then x (ix4 ⟨i, h.1⟩ ⟨j, h.2.1⟩ ⟨k, h.2.2.1⟩ ⟨l, h.2.2.2⟩) else 0

theorem rd4_of_lt {a b c d : ℕ} (x : (⟨4, ![a, b, c, d]⟩ : Shape).Idx → EReal) {i j k l : ℕ}
    (hi : i < a) (hj : j < b) (hk : k < c) (hl : l < d) :
    rd4 x i j k l = x (ix4 ⟨i, hi⟩ ⟨j, hj⟩ ⟨k, hk⟩ ⟨l, hl⟩) := dif_pos ⟨hi, hj, hk, hl⟩

/-- A `[1, 1, m, n]` block seen as an `[m, n]` matrix. -/
theorem rd_shapeCast_11mn {m n : ℕ} (x : (⟨4, ![1, 1, m, n]⟩ : Shape).Idx → EReal)
    (h : (⟨4, ![1, 1, m, n]⟩ : Shape).ShapeCasts ⟨2, ![m, n]⟩) {i j : ℕ} (hi : i < m) (hj : j < n) :
    rd (shapeCast ⟨2, ![m, n]⟩ x h) i j = rd4 x 0 0 i j := by
  rw [rd_of_lt _ hi hj, rd4_of_lt x Nat.one_pos Nat.one_pos hi hj]
  refine shapeCast_apply x h _ _ ?_
  rw [Shape.rowMajor_val_four, Shape.rowMajor_val_two]
  show ((0 * 1 + 0) * m + i) * n + j = i * n + j
  simp only [Nat.zero_mul, Nat.zero_add]

/-- An `[m, n]` matrix seen as a `[1, 1, m, n]` block, at an index of the block. -/
theorem shapeCast_mn_11mn_apply {m n : ℕ} (x : (⟨2, ![m, n]⟩ : Shape).Idx → EReal)
    (h : (⟨2, ![m, n]⟩ : Shape).ShapeCasts ⟨4, ![1, 1, m, n]⟩) (y : (⟨4, ![1, 1, m, n]⟩ : Shape).Idx) :
    shapeCast ⟨4, ![1, 1, m, n]⟩ x h y = rd x (y 2).val (y 3).val := by
  have h2 : (y 2).val < m := (y 2).isLt
  have h3 : (y 3).val < n := (y 3).isLt
  have h0 : (y 0).val < 1 := (y 0).isLt
  have h1 : (y 1).val < 1 := (y 1).isLt
  rw [rd_of_lt x h2 h3]
  refine shapeCast_apply x h y _ ?_
  rw [Shape.rowMajor_val_two, Shape.rowMajor_val_four]
  show (y 2).val * n + (y 3).val = (((y 0).val * 1 + (y 1).val) * m + (y 2).val) * n + (y 3).val
  have e0 : (y 0).val = 0 := by omega
  have e1 : (y 1).val = 0 := by omega
  rw [e0, e1]
  simp only [Nat.zero_mul, Nat.zero_add]

/-- An `[m, n]` matrix seen as a `[1, m, n]` block, at an index of the block. -/
theorem shapeCast_mn_1mn_apply {m n : ℕ} (x : (⟨2, ![m, n]⟩ : Shape).Idx → EReal)
    (h : (⟨2, ![m, n]⟩ : Shape).ShapeCasts ⟨3, ![1, m, n]⟩) (y : (⟨3, ![1, m, n]⟩ : Shape).Idx) :
    shapeCast ⟨3, ![1, m, n]⟩ x h y = rd x (y 1).val (y 2).val := by
  have h1 : (y 1).val < m := (y 1).isLt
  have h2 : (y 2).val < n := (y 2).isLt
  have h0 : (y 0).val < 1 := (y 0).isLt
  rw [rd_of_lt x h1 h2]
  refine shapeCast_apply x h y _ ?_
  rw [Shape.rowMajor_val_two, Shape.rowMajor_val_three]
  show (y 1).val * n + (y 2).val = ((y 0).val * m + (y 1).val) * n + (y 2).val
  have e0 : (y 0).val = 0 := by omega
  rw [e0]
  simp only [Nat.zero_mul, Nat.zero_add]

/-- The activation of one entry: a positive entry is kept, any other is multiplied by the single-precision constant
    nearest 1/100. -/
def lrelu (v : EReal) : EReal :=
  Scalar.select (FloatOps.cmpf (F := Ideal) (φ := .f32) .ogt v (Scalar.ofBits (F := Ideal) .f32 0x00000000#32)) v
    (FloatOps.mulf (F := Ideal) (φ := .f32) (Scalar.ofBits (F := Ideal) .f32 0x3C23D70A#32) v)

/-- The activation of a matrix, entry by entry. -/
theorem rd_lrelu {m n : ℕ} (v : FVec Ideal ⟨2, ![m, n]⟩ .f32) {i j : ℕ} (hi : i < m) (hj : j < n) :
    rd (select (cmpf .ogt v (broadcast ⟨2, ![m, n]⟩ (Scalar.ofBits (F := Ideal) .f32 0x00000000#32))) v
      (mulf (broadcast ⟨2, ![m, n]⟩ (Scalar.ofBits (F := Ideal) .f32 0x3C23D70A#32)) v)) i j = lrelu (rd v i j) := by
  rw [rd_of_lt _ hi hj, rd_of_lt v hi hj]
  rfl

end MatRead

end
-- ==== Proof.Spec.lean ====
/-
  The network both programs compute, written once over matrices read at natural coordinates.

  A matrix is a function of a row and a column, both natural numbers.  One linear layer of input width `fi` sends the
  matrix `X` to the matrix whose entry `(n, o)` is the sum over `k < fi` of `X n k * W k o`, plus `b o`: row `n` of
  the result depends on row `n` of `X` only.  The activation keeps an entry that is at least zero and multiplies any
  other by the single-precision constant nearest 1/400.  The network is thirteen such layers with five activations
  inside each half and three residual sums; its first half ends in the one-column matrix `enc`, its second half
  continues from `enc` to the eight-column matrix `dec`.
-/
import Idealize.ShloMosaic.Lib.ValueIdx
import Idealize.ShloMosaic.PureOps.Ideal.Laws
import proofs.«104812_j146028888292_2_alg».proof.Proof.LibMatRead

open scoped BigOperators

noncomputable section

namespace Cert.Mlp

open Idealize.ShloMosaic Idealize.ShloMosaic.ValueIdx MatRead

/-- Entry `j` of a vector inside its extent, `0` outside. -/
def rd1 {n : ℕ} (b : (⟨1, ![n]⟩ : Shape).Idx → EReal) (j : ℕ) : EReal :=
  if h : j < n then b (ix1 ⟨j, h⟩) else 0

theorem rd1_of_lt {n : ℕ} (b : (⟨1, ![n]⟩ : Shape).Idx → EReal) {j : ℕ} (hj : j < n) : rd1 b j = b (ix1 ⟨j, hj⟩) :=
  dif_pos hj

/-- The activation of one entry: an entry that is at least zero is kept, any other is multiplied by the
    single-precision constant nearest 1/400. -/
def act (v : EReal) : EReal :=
  Scalar.select (FloatOps.cmpf (F := Ideal) (φ := .f32) .oge v (Scalar.ofBits (F := Ideal) .f32 0x00000000#32)) v
    (FloatOps.mulf (F := Ideal) (φ := .f32) (Scalar.ofBits (F := Ideal) .f32 0x3B23D70A#32) v)

/-- One linear layer of input width `fi`. -/
def lin (fi : ℕ) (X W : ℕ → ℕ → EReal) (b : ℕ → EReal) : ℕ → ℕ → EReal :=
  fun n o => (∑ k : Fin fi, X n k.val * W k.val o) + b o

/-- The activation, entry by entry. -/
def actM (X : ℕ → ℕ → EReal) : ℕ → ℕ → EReal := fun n o => act (X n o)

/-- The sum of two matrices, entry by entry. -/
def addM (X Y : ℕ → ℕ → EReal) : ℕ → ℕ → EReal := fun n o => X n o + Y n o

/-- A linear layer reads only the first `fi` columns of its input, row by row. -/
theorem lin_congr {fi : ℕ} {X X' : ℕ → ℕ → EReal} (W : ℕ → ℕ → EReal) (b : ℕ → EReal) {n : ℕ}
    (h : ∀ k, k < fi → X n k = X' n k) (o : ℕ) : lin fi X W b n o = lin fi X' W b n o := by
  unfold lin
  rw [Finset.sum_congr rfl fun k _ => by rw [h k.val k.isLt]]

/-- The thirteen weight matrices and bias vectors, read at natural coordinates. -/
structure Params where
  W0 : ℕ → ℕ → EReal
  b0 : ℕ → EReal
  W1 : ℕ → ℕ → EReal
  b1 : ℕ → EReal
  W2 : ℕ → ℕ → EReal
  b2 : ℕ → EReal
  W3 : ℕ → ℕ → EReal
  b3 : ℕ → EReal
  W4 : ℕ → ℕ → EReal
  b4 : ℕ → EReal
  W5 : ℕ → ℕ → EReal
  b5 : ℕ → EReal
  W6 : ℕ → ℕ → EReal
  b6 : ℕ → EReal
  W7 : ℕ → ℕ → EReal
  b7 : ℕ → EReal
  W8 : ℕ → ℕ → EReal
  b8 : ℕ → EReal
  W9 : ℕ → ℕ → EReal
  b9 : ℕ → EReal
  W10 : ℕ → ℕ → EReal
  b10 : ℕ → EReal
  W11 : ℕ → ℕ → EReal
  b11 : ℕ → EReal
  W12 : ℕ → ℕ → EReal
  b12 : ℕ → EReal

/-- The intermediate matrices of the first half, in order. -/
def s1 (p : Params) (x : ℕ → ℕ → EReal) : ℕ → ℕ → EReal := lin 8 (actM (lin 8 x p.W0 p.b0)) p.W1 p.b1
def s3 (p : Params) (x : ℕ → ℕ → EReal) : ℕ → ℕ → EReal :=
  addM (s1 p x) (lin 4 (actM (lin 4 (s1 p x) p.W2 p.b2)) p.W3 p.b3)
def s5 (p : Params) (x : ℕ → ℕ → EReal) : ℕ → ℕ → EReal :=
  addM (s3 p x) (lin 4 (actM (lin 4 (s3 p x) p.W4 p.b4)) p.W5 p.b5)
/-- The first half's result: one column. -/
def enc (p : Params) (x : ℕ → ℕ → EReal) : ℕ → ℕ → EReal := actM (lin 4 (s5 p x) p.W6 p.b6)

/-- The intermediate matrices of the second half, in order. -/
def s6 (p : Params) (x : ℕ → ℕ → EReal) : ℕ → ℕ → EReal := actM (lin 1 (enc p x) p.W7 p.b7)
def s8 (p : Params) (x : ℕ → ℕ → EReal) : ℕ → ℕ → EReal :=
  addM (s6 p x) (lin 4 (actM (lin 4 (s6 p x) p.W8 p.b8)) p.W9 p.b9)
def s10 (p : Params) (x : ℕ → ℕ → EReal) : ℕ → ℕ → EReal :=
  addM (s8 p x) (lin 4 (actM (lin 4 (s8 p x) p.W10 p.b10)) p.W11 p.b11)
/-- The second half's result: eight columns. -/
def dec (p : Params) (x : ℕ → ℕ → EReal) : ℕ → ℕ → EReal := actM (lin 4 (s10 p x) p.W12 p.b12)

/-- The parameters read off the twenty-six parameter arrays, in the programs' argument order. -/
def mkParams
    (a1 : (⟨2, ![8, 8]⟩ : Shape).Idx → EReal) (a2 : (⟨1, ![8]⟩ : Shape).Idx → EReal)
    (a3 : (⟨2, ![8, 4]⟩ : Shape).Idx → EReal) (a4 : (⟨1, ![4]⟩ : Shape).Idx → EReal)
    (a5 : (⟨2, ![4, 4]⟩ : Shape).Idx → EReal) (a6 : (⟨1, ![4]⟩ : Shape).Idx → EReal)
    (a7 : (⟨2, ![4, 4]⟩ : Shape).Idx → EReal) (a8 : (⟨1, ![4]⟩ : Shape).Idx → EReal)
    (a9 : (⟨2, ![4, 4]⟩ : Shape).Idx → EReal) (a10 : (⟨1, ![4]⟩ : Shape).Idx → EReal)
    (a11 : (⟨2, ![4, 4]⟩ : Shape).Idx → EReal) (a12 : (⟨1, ![4]⟩ : Shape).Idx → EReal)
    (a13 : (⟨2, ![4, 1]⟩ : Shape).Idx → EReal) (a14 : (⟨1, ![1]⟩ : Shape).Idx → EReal)
    (a15 : (⟨2, ![1, 4]⟩ : Shape).Idx → EReal) (a16 : (⟨1, ![4]⟩ : Shape).Idx → EReal)
    (a17 : (⟨2, ![4, 4]⟩ : Shape).Idx → EReal) (a18 : (⟨1, ![4]⟩ : Shape).Idx → EReal)
    (a19 : (⟨2, ![4, 4]⟩ : Shape).Idx → EReal) (a20 : (⟨1, ![4]⟩ : Shape).Idx → EReal)
    (a21 : (⟨2, ![4, 4]⟩ : Shape).Idx → EReal) (a22 : (⟨1, ![4]⟩ : Shape).Idx → EReal)
    (a23 : (⟨2, ![4, 4]⟩ : Shape).Idx → EReal) (a24 : (⟨1, ![4]⟩ : Shape).Idx → EReal)
    (a25 : (⟨2, ![4, 8]⟩ : Shape).Idx → EReal) (a26 : (⟨1, ![8]⟩ : Shape).Idx → EReal) : Params :=
  ⟨rd a1, rd1 a2, rd a3, rd1 a4, rd a5, rd1 a6, rd a7, rd1 a8, rd a9, rd1 a10, rd a11, rd1 a12, rd a13, rd1 a14,
   rd a15, rd1 a16, rd a17, rd1 a18, rd a19, rd1 a20, rd a21, rd1 a22, rd a23, rd1 a24, rd a25, rd1 a26⟩

/-! ## Sixteen rows side by side

  The kernel works on blocks whose every row holds sixteen consecutive rows of a matrix of width `d`, side by side:
  column `c` of block row `r` is column `c % d` of row `16 * (base + r) + c / d`.  Its weights are block-diagonal —
  entry `(r, c)` is the weight's entry `(r % fi, c % fo)` when `r / fi = c / fo` and `0` times it otherwise — and its
  biases are the bias vector repeated sixteen times. -/

/-- The block `Y` of `R` rows and `K` columns, whose first row is packed row `base`, holds the rows of `Z`, of width
    `d`, sixteen to a row. -/
def Packs (R K d base : ℕ) (Y : (⟨2, ![R, K]⟩ : Shape).Idx → EReal) (Z : ℕ → ℕ → EReal) : Prop :=
  ∀ r c, r < R → c < K → rd Y r c = Z (16 * (base + r) + c / d) (c % d)

/-- `Wb` is the block-diagonal matrix with the `fi` by `fo` matrix `W` in every diagonal block: off the diagonal
    blocks its entry is `0` times an entry of `W`. -/
def IsKron (fi fo Kin Kout : ℕ) (Wb : (⟨2, ![Kin, Kout]⟩ : Shape).Idx → EReal) (W : ℕ → ℕ → EReal) : Prop :=
  ∀ r c, r < Kin → c < Kout → rd Wb r c = (if r / fi = c / fo then (1 : EReal) else 0) * W (r % fi) (c % fo)

/-- `bb` is the one-row matrix holding the vector `b`, of length `fo`, repeated along its row. -/
def IsTile (fo Kout : ℕ) (bb : (⟨2, ![1, Kout]⟩ : Shape).Idx → EReal) (b : ℕ → EReal) : Prop :=
  ∀ c, c < Kout → rd bb 0 c = b (c % fo)

/-- The first result array: entry `(n, 0)` is `enc` of the input's rows at `(n, 0)`. -/
def Genc (p : Params) (x : (⟨2, ![4194304, 8]⟩ : Shape).Idx → EReal) : (⟨2, ![4194304, 1]⟩ : Shape).Idx → EReal :=
  fun i => enc p (rd x) (i 0).val (i 1).val

/-- The second result array: entry `(n, j)` is `dec` of the input's rows at `(n, j)`. -/
def Gdec (p : Params) (x : (⟨2, ![4194304, 8]⟩ : Shape).Idx → EReal) : (⟨2, ![4194304, 8]⟩ : Shape).Idx → EReal :=
  fun i => dec p (rd x) (i 0).val (i 1).val

end Cert.Mlp

end
-- ==== Proof.PackAlg.lean ====
/-
  The packed layers.

  A block holds sixteen consecutive rows of a matrix of width `d` side by side in each of its rows (`Packs`).  This
  layout is kept by every step of the network:

  * a product with a block-diagonal weight plus a repeated bias is the linear layer applied to each of the sixteen
    rows.  In the sum over the `16 * fi` contracted columns, write a column as `k = fi * i + a`: the weight's entry is
    `0` times something unless `i` is the block the result column lies in, and `x * (0 * w) = 0` for every extended
    real, the infinities included; what is left is the sum over `a < fi` of the layer itself;
  * the activation, a sum of two blocks, a change of float format and a cast to the same shape act entry by entry.
-/
import proofs.«104812_j146028888292_2_alg».proof.Proof.Spec

open scoped BigOperators

noncomputable section

namespace Cert.Mlp

open Idealize.ShloMosaic Idealize.ShloMosaic.ValueIdx MatRead

/-- The sum over the `16 * fi` columns `k = fi * i + a` of a term that vanishes unless `i = q` is the sum over `a` of
    block `q`'s terms. -/
theorem sum_blockdiag (fi : ℕ) (hfi : 0 < fi) (q : ℕ) (hq : q < 16) (u : ℕ → ℕ → EReal) (v : ℕ → EReal) :
    ∑ k : Fin (16 * fi), u (k.val / fi) (k.val % fi) * ((if k.val / fi = q then (1 : EReal) else 0) * v (k.val % fi))
      = ∑ a : Fin fi, u q a.val * v a.val := by
  refine (Equiv.sum_comp (finProdFinEquiv (m := 16) (n := fi)) _).symm.trans ?_
  rw [Fintype.sum_prod_type]
  have hv : ∀ (i : Fin 16) (a : Fin fi), ((finProdFinEquiv (i, a) : Fin (16 * fi)) : ℕ) = a.val + fi * i.val :=
    fun _ _ => rfl
  have hd : ∀ (i : Fin 16) (a : Fin fi), (a.val + fi * i.val) / fi = i.val := fun i a => by
    rw [Nat.add_mul_div_left _ _ hfi, Nat.div_eq_of_lt a.isLt, Nat.zero_add]
  have hm : ∀ (i : Fin 16) (a : Fin fi), (a.val + fi * i.val) % fi = a.val := fun i a => by
    rw [Nat.add_mul_mod_self_left, Nat.mod_eq_of_lt a.isLt]
  simp only [hv, hd, hm]
  rw [Finset.sum_eq_single (⟨q, hq⟩ : Fin 16)]
  · exact Finset.sum_congr rfl fun a _ => by rw [if_pos rfl, one_mul]
  · intro i _ hi
    refine Finset.sum_eq_zero fun a _ => ?_
    rw [if_neg (fun e => hi (Fin.ext e)), zero_mul, mul_zero]
  · intro h
    exact absurd (Finset.mem_univ _) h

/-- A PACKED LINEAR LAYER: the product of a packed block with a block-diagonal weight, accumulated into zero, plus
    the repeated bias, is the packed block of the linear layer's result. -/
theorem packs_lin {R fi fo Kin Kout base : ℕ} {φ₁ φ₂ : FTy} (hKin : Kin = 16 * fi) (hKout : Kout = 16 * fo)
    (hfi : 0 < fi) (hfo : 0 < fo)
    (d : DotDims ⟨2, ![R, Kin]⟩ ⟨2, ![Kin, Kout]⟩ ⟨2, ![R, Kout]⟩)
    (w : DotDims.WF ⟨2, ![R, Kin]⟩ ⟨2, ![Kin, Kout]⟩ ⟨2, ![R, Kout]⟩ [1] [0] [0] [1] [] [])
    (hd : d = PlainMatmul.dims w) (prec : Option ContractPrecision)
    (Y : FVec Ideal ⟨2, ![R, Kin]⟩ φ₁) (Wb : FVec Ideal ⟨2, ![Kin, Kout]⟩ φ₂)
    (bb : (⟨2, ![1, Kout]⟩ : Shape).Idx → EReal) (hbc : (⟨2, ![1, Kout]⟩ : Shape).Broadcasts ⟨2, ![R, Kout]⟩)
    {Z W : ℕ → ℕ → EReal} {b : ℕ → EReal}
    (hY : Packs R Kin fi base Y Z) (hW : IsKron fi fo Kin Kout Wb W) (hb : IsTile fo Kout bb b) :
    Packs R Kout fo base
      (addf (FloatOps.matmul d prec Y Wb (constant (F := Ideal) ⟨2, ![R, Kout]⟩ .f32 0x00000000#32))
        (broadcastTo ⟨2, ![R, Kout]⟩ bb hbc : FVec Ideal ⟨2, ![R, Kout]⟩ .f32)) (lin fi Z W b) := by
  subst hKin hKout
  intro r c hr hc
  rw [rd_addf, rd_matmul_zero d w hd prec Y Wb hr hc, rd_broadcast_row bb hbc hr hc, hb c hc]
  unfold lin
  congr 1
  have hq : c / fo < 16 := Nat.div_lt_of_lt_mul (by rw [Nat.mul_comm]; exact hc)
  rw [← sum_blockdiag fi hfi (c / fo) hq (fun i a => Z (16 * (base + r) + i) a) (fun a => W a (c % fo))]
  exact Finset.sum_congr rfl fun k _ => by rw [hY r k.val hr k.isLt, hW k.val c k.isLt hc]

/-- The activation of a packed block is the packed block of the activation. -/
theorem packs_act {R K d base : ℕ} {Y : FVec Ideal ⟨2, ![R, K]⟩ .f32} {Z : ℕ → ℕ → EReal}
    (hY : Packs R K d base Y Z) :
    Packs R K d base
      (select (cmpf .oge Y (broadcast ⟨2, ![R, K]⟩ (Scalar.ofBits (F := Ideal) .f32 0x00000000#32))) Y
        (mulf (broadcast ⟨2, ![R, K]⟩ (Scalar.ofBits (F := Ideal) .f32 0x3B23D70A#32)) Y)) (actM Z) := by
  intro r c hr hc
  have h := hY r c hr hc
  rw [rd_of_lt _ hr hc] at h
  rw [rd_of_lt _ hr hc]
  unfold actM
  rw [← h]
  rfl

/-- The sum of two packed blocks is the packed block of the sum. -/
theorem packs_add {R K d base : ℕ} {φ : FTy} {Y1 Y2 : FVec Ideal ⟨2, ![R, K]⟩ φ} {Z1 Z2 : ℕ → ℕ → EReal}
    (h1 : Packs R K d base Y1 Z1) (h2 : Packs R K d base Y2 Z2) : Packs R K d base (addf Y1 Y2) (addM Z1 Z2) := by
  intro r c hr hc
  rw [rd_addf, h1 r c hr hc, h2 r c hr hc]
  rfl

/-- A change to a narrower float format changes nothing at the ideal values. -/
theorem packs_truncf {R K d base : ℕ} {φ : FTy} (ψ : FTy) {Y : FVec Ideal ⟨2, ![R, K]⟩ φ} (h : ψ.bits < φ.bits)
    {Z : ℕ → ℕ → EReal} (hY : Packs R K d base Y Z) :
    Packs R K d base (truncf ψ Y h : FVec Ideal ⟨2, ![R, K]⟩ ψ) Z :=
  fun r c hr hc => (rd_truncf Y h r c).trans (hY r c hr hc)

/-- A cast to the same shape changes nothing. -/
theorem packs_cast_self {R K d base : ℕ} {Y : (⟨2, ![R, K]⟩ : Shape).Idx → EReal}
    (h : (⟨2, ![R, K]⟩ : Shape).ShapeCasts ⟨2, ![R, K]⟩) {Z : ℕ → ℕ → EReal} (hY : Packs R K d base Y Z) :
    Packs R K d base (shapeCast ⟨2, ![R, K]⟩ Y h) Z :=
  fun r c hr hc => (rd_shapeCast_self Y h r c).trans (hY r c hr hc)

/-- A block-diagonal weight cast to its own shape and changed to a narrower float format is the same weight. -/
theorem isKron_cast_truncf {fi fo Kin Kout : ℕ} {Wb : FVec Ideal ⟨2, ![Kin, Kout]⟩ .f32} {W : ℕ → ℕ → EReal}
    (hs : (⟨2, ![Kin, Kout]⟩ : Shape).ShapeCasts ⟨2, ![Kin, Kout]⟩) (ψ : FTy) (ht : ψ.bits < FTy.bits .f32)
    (h : IsKron fi fo Kin Kout Wb W) :
    IsKron fi fo Kin Kout (truncf ψ (shapeCast ⟨2, ![Kin, Kout]⟩ Wb hs : FVec Ideal ⟨2, ![Kin, Kout]⟩ .f32) ht :
      FVec Ideal ⟨2, ![Kin, Kout]⟩ ψ) W :=
  fun r c hr hc => ((rd_truncf _ ht r c).trans (rd_shapeCast_self Wb hs r c)).trans (h r c hr hc)

/-- A repeated bias cast to its own shape is the same bias. -/
theorem isTile_cast {fo Kout : ℕ} {bb : (⟨2, ![1, Kout]⟩ : Shape).Idx → EReal} {b : ℕ → EReal}
    (hs : (⟨2, ![1, Kout]⟩ : Shape).ShapeCasts ⟨2, ![1, Kout]⟩) (h : IsTile fo Kout bb b) :
    IsTile fo Kout (shapeCast ⟨2, ![1, Kout]⟩ bb hs) b :=
  fun c hc => (rd_shapeCast_self bb hs 0 c).trans (h c hc)

end Cert.Mlp

end
-- ==== Proof.KBody.lean ====
/-
  One grid point's block, through the kernel's arithmetic.

  The kernel's body is a chain of packed layers.  Its input block holds sixteen rows of the input side by side in each
  row; every weight is block-diagonal and every bias is repeated sixteen times.  Layer by layer the packed-layer lemmas
  carry the layout through, so the first stored block holds, sixteen to a row, the rows of `enc` and the second those
  of `dec`, at the rows of the input the block's rows hold.
-/
import proofs.«104812_j146028888292_2_alg».proof.Proof.PackAlg
import proofs.«104812_j146028888292_2_alg».proof.Proof.Gen.KernelIdeal.Skeleton

noncomputable section

namespace Cert.KernelIdeal.Body

open Cert.KernelIdeal Cert.KernelIdeal.Gen Idealize.ShloMosaic MatRead Cert.Mlp

variable (p : Params) (X : ℕ → ℕ → EReal) (base : ℕ)

/-- The first half before its last activation: the block of `lin 4 (s5 p X) p.W6 p.b6`. -/
theorem pre_enc_block (x0 : FVec Ideal S4096x128 .f32) (w0 : FVec Ideal S128x128 .f32) (c0 : FVec Ideal S1x128 .f32) (w1 : FVec Ideal S128x64 .f32) (c1 : FVec Ideal S1x64 .f32) (w2 : FVec Ideal S64x64 .f32) (c2 : FVec Ideal S1x64 .f32) (w3 : FVec Ideal S64x64 .f32) (c3 : FVec Ideal S1x64 .f32) (w4 : FVec Ideal S64x64 .f32) (c4 : FVec Ideal S1x64 .f32) (w5 : FVec Ideal S64x64 .f32) (c5 : FVec Ideal S1x64 .f32) (w6 : FVec Ideal S64x16 .f32) (c6 : FVec Ideal S1x16 .f32)
    (hX : Packs 4096 128 8 base x0 X) (hW0 : IsKron 8 8 128 128 w0 p.W0) (hb0 : IsTile 8 128 c0 p.b0)
    (hW1 : IsKron 8 4 128 64 w1 p.W1) (hb1 : IsTile 4 64 c1 p.b1)
    (hW2 : IsKron 4 4 64 64 w2 p.W2) (hb2 : IsTile 4 64 c2 p.b2)
    (hW3 : IsKron 4 4 64 64 w3 p.W3) (hb3 : IsTile 4 64 c3 p.b3)
    (hW4 : IsKron 4 4 64 64 w4 p.W4) (hb4 : IsTile 4 64 c4 p.b4)
    (hW5 : IsKron 4 4 64 64 w5 p.W5) (hb5 : IsTile 4 64 c5 p.b5)
    (hW6 : IsKron 4 1 64 16 w6 p.W6) (hb6 : IsTile 1 16 c6 p.b6) :
    Packs 4096 16 1 base (k0_pay28 (F := Ideal) (k0_pay2 w0) (k0_pay3 c0) (k0_pay4 w1) (k0_pay5 c1) (k0_pay6 w2) (k0_pay7 c2) (k0_pay8 w3) (k0_pay9 c3) (k0_pay10 w4) (k0_pay11 c4) (k0_pay12 w5) (k0_pay13 c5) (k0_pay14 w6) (k0_pay15 c6) x0) (lin 4 (s5 p X) p.W6 p.b6) := by
  have t0 := packs_cast_self shapeCasts_S4096x128_S4096x128 hX
  have l0 := packs_lin (fi := 8) (fo := 8) (by decide) (by decide) (by decide) (by decide) dot_S4096x128_S128x128_S4096x128_1_0_0_1_n_n _ rfl none _ _ _
    broadcasts_S1x128_S4096x128 (packs_truncf .bf16 bitsLt_bf16_f32 t0)
    (isKron_cast_truncf shapeCasts_S128x128_S128x128 .bf16 bitsLt_bf16_f32 hW0) (isTile_cast shapeCasts_S1x128_S1x128 hb0)
  have a0 := packs_act l0
  have l1 := packs_lin (fi := 8) (fo := 4) (by decide) (by decide) (by decide) (by decide) dot_S4096x128_S128x64_S4096x64_1_0_0_1_n_n _ rfl none _ _ _
    broadcasts_S1x64_S4096x64 (packs_truncf .bf16 bitsLt_bf16_f32 a0)
    (isKron_cast_truncf shapeCasts_S128x64_S128x64 .bf16 bitsLt_bf16_f32 hW1) (isTile_cast shapeCasts_S1x64_S1x64 hb1)
  have l2 := packs_lin (fi := 4) (fo := 4) (by decide) (by decide) (by decide) (by decide) dot_S4096x64_S64x64_S4096x64_1_0_0_1_n_n _ rfl none _ _ _
    broadcasts_S1x64_S4096x64 (packs_truncf .bf16 bitsLt_bf16_f32 l1)
    (isKron_cast_truncf shapeCasts_S64x64_S64x64 .bf16 bitsLt_bf16_f32 hW2) (isTile_cast shapeCasts_S1x64_S1x64 hb2)
  have a2 := packs_act l2
  have l3 := packs_lin (fi := 4) (fo := 4) (by decide) (by decide) (by decide) (by decide) dot_S4096x64_S64x64_S4096x64_1_0_0_1_n_n _ rfl none _ _ _
    broadcasts_S1x64_S4096x64 (packs_truncf .bf16 bitsLt_bf16_f32 a2)
    (isKron_cast_truncf shapeCasts_S64x64_S64x64 .bf16 bitsLt_bf16_f32 hW3) (isTile_cast shapeCasts_S1x64_S1x64 hb3)
  have r3 := packs_add l1 l3
  have l4 := packs_lin (fi := 4) (fo := 4) (by decide) (by decide) (by decide) (by decide) dot_S4096x64_S64x64_S4096x64_1_0_0_1_n_n _ rfl none _ _ _
    broadcasts_S1x64_S4096x64 (packs_truncf .bf16 bitsLt_bf16_f32 r3)
    (isKron_cast_truncf shapeCasts_S64x64_S64x64 .bf16 bitsLt_bf16_f32 hW4) (isTile_cast shapeCasts_S1x64_S1x64 hb4)
  have a4 := packs_act l4
  have l5 := packs_lin (fi := 4) (fo := 4) (by decide) (by decide) (by decide) (by decide) dot_S4096x64_S64x64_S4096x64_1_0_0_1_n_n _ rfl none _ _ _
    broadcasts_S1x64_S4096x64 (packs_truncf .bf16 bitsLt_bf16_f32 a4)
    (isKron_cast_truncf shapeCasts_S64x64_S64x64 .bf16 bitsLt_bf16_f32 hW5) (isTile_cast shapeCasts_S1x64_S1x64 hb5)
  have r5 := packs_add r3 l5
  have l6 := packs_lin (fi := 4) (fo := 1) (by decide) (by decide) (by decide) (by decide) dot_S4096x64_S64x16_S4096x16_1_0_0_1_n_n _ rfl none _ _ _
    broadcasts_S1x16_S4096x16 (packs_truncf .bf16 bitsLt_bf16_f32 r5)
    (isKron_cast_truncf shapeCasts_S64x16_S64x16 .bf16 bitsLt_bf16_f32 hW6) (isTile_cast shapeCasts_S1x16_S1x16 hb6)
  exact l6

/-- The first stored block: the rows of `enc`. -/
theorem enc_block (x0 : FVec Ideal S4096x128 .f32) (w0 : FVec Ideal S128x128 .f32) (c0 : FVec Ideal S1x128 .f32) (w1 : FVec Ideal S128x64 .f32) (c1 : FVec Ideal S1x64 .f32) (w2 : FVec Ideal S64x64 .f32) (c2 : FVec Ideal S1x64 .f32) (w3 : FVec Ideal S64x64 .f32) (c3 : FVec Ideal S1x64 .f32) (w4 : FVec Ideal S64x64 .f32) (c4 : FVec Ideal S1x64 .f32) (w5 : FVec Ideal S64x64 .f32) (c5 : FVec Ideal S1x64 .f32) (w6 : FVec Ideal S64x16 .f32) (c6 : FVec Ideal S1x16 .f32)
    (hX : Packs 4096 128 8 base x0 X) (hW0 : IsKron 8 8 128 128 w0 p.W0) (hb0 : IsTile 8 128 c0 p.b0)
    (hW1 : IsKron 8 4 128 64 w1 p.W1) (hb1 : IsTile 4 64 c1 p.b1)
    (hW2 : IsKron 4 4 64 64 w2 p.W2) (hb2 : IsTile 4 64 c2 p.b2)
    (hW3 : IsKron 4 4 64 64 w3 p.W3) (hb3 : IsTile 4 64 c3 p.b3)
    (hW4 : IsKron 4 4 64 64 w4 p.W4) (hb4 : IsTile 4 64 c4 p.b4)
    (hW5 : IsKron 4 4 64 64 w5 p.W5) (hb5 : IsTile 4 64 c5 p.b5)
    (hW6 : IsKron 4 1 64 16 w6 p.W6) (hb6 : IsTile 1 16 c6 p.b6) :
    Packs 4096 16 1 base (k0_pay29 (F := Ideal) (k0_pay28 (F := Ideal) (k0_pay2 w0) (k0_pay3 c0) (k0_pay4 w1) (k0_pay5 c1) (k0_pay6 w2) (k0_pay7 c2) (k0_pay8 w3) (k0_pay9 c3) (k0_pay10 w4) (k0_pay11 c4) (k0_pay12 w5) (k0_pay13 c5) (k0_pay14 w6) (k0_pay15 c6) x0)) (enc p X) :=
  packs_act (pre_enc_block p X base x0 w0 c0 w1 c1 w2 c2 w3 c3 w4 c4 w5 c5 w6 c6 hX hW0 hb0 hW1 hb1 hW2 hb2 hW3 hb3 hW4 hb4 hW5 hb5 hW6 hb6)

/-- The second stored block, from any block `e` holding the rows of `enc`: the rows of `dec`. -/
theorem dec_block (v111 : FVec Ideal S4096x16 .f32) (w7 : FVec Ideal S16x64 .f32) (c7 : FVec Ideal S1x64 .f32) (w8 : FVec Ideal S64x64 .f32) (c8 : FVec Ideal S1x64 .f32) (w9 : FVec Ideal S64x64 .f32) (c9 : FVec Ideal S1x64 .f32) (w10 : FVec Ideal S64x64 .f32) (c10 : FVec Ideal S1x64 .f32) (w11 : FVec Ideal S64x64 .f32) (c11 : FVec Ideal S1x64 .f32) (w12 : FVec Ideal S64x128 .f32) (c12 : FVec Ideal S1x128 .f32)
    (hE : Packs 4096 16 1 base (k0_pay29 (F := Ideal) v111) (enc p X)) (hW7 : IsKron 1 4 16 64 w7 p.W7) (hb7 : IsTile 4 64 c7 p.b7)
    (hW8 : IsKron 4 4 64 64 w8 p.W8) (hb8 : IsTile 4 64 c8 p.b8)
    (hW9 : IsKron 4 4 64 64 w9 p.W9) (hb9 : IsTile 4 64 c9 p.b9)
    (hW10 : IsKron 4 4 64 64 w10 p.W10) (hb10 : IsTile 4 64 c10 p.b10)
    (hW11 : IsKron 4 4 64 64 w11 p.W11) (hb11 : IsTile 4 64 c11 p.b11)
    (hW12 : IsKron 4 8 64 128 w12 p.W12) (hb12 : IsTile 8 128 c12 p.b12) :
    Packs 4096 128 8 base (k0_pay1 (F := Ideal) (k0_pay30 (F := Ideal) (k0_pay16 w7) (k0_pay17 c7) (k0_pay18 w8) (k0_pay19 c8) (k0_pay20 w9) (k0_pay21 c9) (k0_pay22 w10) (k0_pay23 c10) (k0_pay24 w11) (k0_pay25 c11) (k0_pay26 w12) (k0_pay27 c12) v111)) (dec p X) := by
  have l7 := packs_lin (fi := 1) (fo := 4) (by decide) (by decide) (by decide) (by decide) dot_S4096x16_S16x64_S4096x64_1_0_0_1_n_n _ rfl none _ _ _
    broadcasts_S1x64_S4096x64 (packs_truncf .bf16 bitsLt_bf16_f32 hE)
    (isKron_cast_truncf shapeCasts_S16x64_S16x64 .bf16 bitsLt_bf16_f32 hW7) (isTile_cast shapeCasts_S1x64_S1x64 hb7)
  have a7 := packs_act l7
  have l8 := packs_lin (fi := 4) (fo := 4) (by decide) (by decide) (by decide) (by decide) dot_S4096x64_S64x64_S4096x64_1_0_0_1_n_n _ rfl none _ _ _
    broadcasts_S1x64_S4096x64 (packs_truncf .bf16 bitsLt_bf16_f32 a7)
    (isKron_cast_truncf shapeCasts_S64x64_S64x64 .bf16 bitsLt_bf16_f32 hW8) (isTile_cast shapeCasts_S1x64_S1x64 hb8)
  have a8 := packs_act l8
  have l9 := packs_lin (fi := 4) (fo := 4) (by decide) (by decide) (by decide) (by decide) dot_S4096x64_S64x64_S4096x64_1_0_0_1_n_n _ rfl none _ _ _
    broadcasts_S1x64_S4096x64 (packs_truncf .bf16 bitsLt_bf16_f32 a8)
    (isKron_cast_truncf shapeCasts_S64x64_S64x64 .bf16 bitsLt_bf16_f32 hW9) (isTile_cast shapeCasts_S1x64_S1x64 hb9)
  have r9 := packs_add a7 l9
  have l10 := packs_lin (fi := 4) (fo := 4) (by decide) (by decide) (by decide) (by decide) dot_S4096x64_S64x64_S4096x64_1_0_0_1_n_n _ rfl none _ _ _
    broadcasts_S1x64_S4096x64 (packs_truncf .bf16 bitsLt_bf16_f32 r9)
    (isKron_cast_truncf shapeCasts_S64x64_S64x64 .bf16 bitsLt_bf16_f32 hW10) (isTile_cast shapeCasts_S1x64_S1x64 hb10)
  have a10 := packs_act l10
  have l11 := packs_lin (fi := 4) (fo := 4) (by decide) (by decide) (by decide) (by decide) dot_S4096x64_S64x64_S4096x64_1_0_0_1_n_n _ rfl none _ _ _
    broadcasts_S1x64_S4096x64 (packs_truncf .bf16 bitsLt_bf16_f32 a10)
    (isKron_cast_truncf shapeCasts_S64x64_S64x64 .bf16 bitsLt_bf16_f32 hW11) (isTile_cast shapeCasts_S1x64_S1x64 hb11)
  have r11 := packs_add r9 l11
  have l12 := packs_lin (fi := 4) (fo := 8) (by decide) (by decide) (by decide) (by decide) dot_S4096x64_S64x128_S4096x128_1_0_0_1_n_n _ rfl none _ _ _
    broadcasts_S1x128_S4096x128 (packs_truncf .bf16 bitsLt_bf16_f32 r11)
    (isKron_cast_truncf shapeCasts_S64x128_S64x128 .bf16 bitsLt_bf16_f32 hW12) (isTile_cast shapeCasts_S1x128_S1x128 hb12)
  exact packs_act l12

end Cert.KernelIdeal.Body

end
-- ==== Proof.KBlocks.lean ====
/-
  From the blocks to the two output arrays.

  The grid has 64 points.  Point `t` reads rows `4096 t … 4096 t + 4095` of the packed input (each holding sixteen
  rows of the input side by side) and every parameter array whole, and writes the same rows of the two packed outputs.
  By the packed layers the block it writes holds, sixteen to a row, the rows of `enc` (or `dec`) at the input rows
  its own rows hold; the 64 blocks tile each output array; so each output array ends holding `enc` (or `dec`) in
  packed form: entry `(R, c)` is entry `(16 R + c / d, c % d)` of the matrix of width `d`.
-/
import proofs.«104812_j146028888292_2_alg».proof.Proof.FrameKernelIdealP
import proofs.«104812_j146028888292_2_alg».proof.Proof.KBody

set_option maxRecDepth 16384

noncomputable section

namespace Cert.KernelIdeal.Blocks

open Cert.KernelIdeal Cert.KernelIdeal.Gen Cert.KernelIdeal.GenP Idealize.ShloMosaic Idealize.ShloMosaic.TcCoe
open Idealize.SL.Sem Idealize.ShloMosaic.ValueIdx MatRead Cert.Mlp
open Idealize.ShloMosaic.Pipeline (Dat)

variable (m : (ℓ : Loc nD τ sig) → Buf (Elt Ideal) ℓ) (c : Dev nD) (p : Params) (X : ℕ → ℕ → EReal)

/-- What the region finds in its input arrays: the packed input holds sixteen rows of `X` to a row, every weight
    array is block-diagonal, every bias array is the bias repeated. -/
structure Entry : Prop where
  x : ∀ r col, r < 262144 → col < 128 →
    rd (V (F := Ideal) m c main_v71 : S262144x128.Idx → EReal) r col = X (16 * r + col / 8) (col % 8)
  W0 : IsKron 8 8 128 128 (V (F := Ideal) m c main_v6 : S128x128.Idx → EReal) p.W0
  b0 : IsTile 8 128 (V (F := Ideal) m c main_v22 : S1x128.Idx → EReal) p.b0
  W1 : IsKron 8 4 128 64 (V (F := Ideal) m c main_v7 : S128x64.Idx → EReal) p.W1
  b1 : IsTile 4 64 (V (F := Ideal) m c main_v26 : S1x64.Idx → EReal) p.b1
  W2 : IsKron 4 4 64 64 (V (F := Ideal) m c main_v8 : S64x64.Idx → EReal) p.W2
  b2 : IsTile 4 64 (V (F := Ideal) m c main_v30 : S1x64.Idx → EReal) p.b2
  W3 : IsKron 4 4 64 64 (V (F := Ideal) m c main_v9 : S64x64.Idx → EReal) p.W3
  b3 : IsTile 4 64 (V (F := Ideal) m c main_v34 : S1x64.Idx → EReal) p.b3
  W4 : IsKron 4 4 64 64 (V (F := Ideal) m c main_v10 : S64x64.Idx → EReal) p.W4
  b4 : IsTile 4 64 (V (F := Ideal) m c main_v38 : S1x64.Idx → EReal) p.b4
  W5 : IsKron 4 4 64 64 (V (F := Ideal) m c main_v11 : S64x64.Idx → EReal) p.W5
  b5 : IsTile 4 64 (V (F := Ideal) m c main_v42 : S1x64.Idx → EReal) p.b5
  W6 : IsKron 4 1 64 16 (V (F := Ideal) m c main_v12 : S64x16.Idx → EReal) p.W6
  b6 : IsTile 1 16 (V (F := Ideal) m c main_v46 : S1x16.Idx → EReal) p.b6
  W7 : IsKron 1 4 16 64 (V (F := Ideal) m c main_v13 : S16x64.Idx → EReal) p.W7
  b7 : IsTile 4 64 (V (F := Ideal) m c main_v50 : S1x64.Idx → EReal) p.b7
  W8 : IsKron 4 4 64 64 (V (F := Ideal) m c main_v14 : S64x64.Idx → EReal) p.W8
  b8 : IsTile 4 64 (V (F := Ideal) m c main_v54 : S1x64.Idx → EReal) p.b8
  W9 : IsKron 4 4 64 64 (V (F := Ideal) m c main_v15 : S64x64.Idx → EReal) p.W9
  b9 : IsTile 4 64 (V (F := Ideal) m c main_v58 : S1x64.Idx → EReal) p.b9
  W10 : IsKron 4 4 64 64 (V (F := Ideal) m c main_v16 : S64x64.Idx → EReal) p.W10
  b10 : IsTile 4 64 (V (F := Ideal) m c main_v62 : S1x64.Idx → EReal) p.b10
  W11 : IsKron 4 4 64 64 (V (F := Ideal) m c main_v17 : S64x64.Idx → EReal) p.W11
  b11 : IsTile 4 64 (V (F := Ideal) m c main_v66 : S1x64.Idx → EReal) p.b11
  W12 : IsKron 4 8 64 128 (V (F := Ideal) m c main_v18 : S64x128.Idx → EReal) p.W12
  b12 : IsTile 8 128 (V (F := Ideal) m c main_v70 : S1x128.Idx → EReal) p.b12

theorem hz : (![0, 0] : Fin 2 → Nat) = fun _ => 0 := funext fun a => by fin_cases a <;> rfl

/-- A matrix of width `d` in packed form: entry `(R, c)` is its entry `(16 R + c / d, c % d)`. -/
def Gp (d : ℕ) (Z : ℕ → ℕ → EReal) {R K : ℕ} : (⟨2, ![R, K]⟩ : Shape).Idx → EReal :=
  fun i => Z (16 * (i 0).val + (i 1).val / d) ((i 1).val % d)

/-- The block indices of the input and of the two outputs at point `t`: row block `t`, column block `0`. -/
theorem idx_facts : ∀ t : Fin cfg0.N, win0_0.index t (0 : Fin 2) = t.val ∧ win0_0.index t (1 : Fin 2) = 0
    ∧ win0_27.index t (0 : Fin 2) = t.val ∧ win0_27.index t (1 : Fin 2) = 0
    ∧ win0_28.index t (0 : Fin 2) = t.val ∧ win0_28.index t (1 : Fin 2) = 0 :=
  (by decide +kernel : ∀ t : Fin grid0.N, _)

/-- The input block at point `t` holds the rows of `X` from packed row `4096 t` on. -/
theorem x_block (hx : ∀ r col, r < 262144 → col < 128 →
      rd (V (F := Ideal) m c main_v71 : S262144x128.Idx → EReal) r col = X (16 * r + col / 8) (col % 8))
    (t : Fin cfg0.N) : Packs 4096 128 8 (4096 * t.val) (iblk (F := Ideal) m c 0 t : S4096x128.Idx → EReal) X := by
  intro r col hr hcol
  obtain ⟨e0, e1, -⟩ := idx_facts t
  have ht : t.val < 64 := t.isLt
  have hR : 4096 * t.val + r < 262144 := by omega
  rw [rd_of_lt _ hr hcol, ← hx (4096 * t.val + r) col hR hcol, rd_of_lt _ hR hcol]
  show V (F := Ideal) m c main_v71 (((cfg0.win 0).blk t).view.emb (ix2 ⟨r, hr⟩ ⟨col, hcol⟩))
    = V (F := Ideal) m c main_v71 (ix2 ⟨4096 * t.val + r, hR⟩ ⟨col, hcol⟩)
  refine congrArg _ (funext fun a => Fin.ext ?_)
  match a with
  | ⟨0, _⟩ => show win0_0.index t (0 : Fin 2) * 4096 + 1 * r = 4096 * t.val + r; omega
  | ⟨1, _⟩ => show win0_0.index t (1 : Fin 2) * 128 + 1 * col = col; omega

/-! ## Every parameter window's block is its whole array -/

theorem iblk1 (t : Fin cfg0.N) : (iblk (F := Ideal) m c 1 t : S128x128.Idx → EReal) = V (F := Ideal) m c main_v6 := by
  funext y
  show V (F := Ideal) m c main_v6 (((cfg0.win 1).blk t).view.emb y) = V (F := Ideal) m c main_v6 y
  refine congrArg _ (funext fun a => Fin.ext ?_)
  match a with
  | ⟨0, _⟩ => show 0 * 128 + 1 * (y 0).val = (y 0).val; omega
  | ⟨1, _⟩ => show 0 * 128 + 1 * (y 1).val = (y 1).val; omega

theorem iblk2 (t : Fin cfg0.N) : (iblk (F := Ideal) m c 2 t : S1x128.Idx → EReal) = V (F := Ideal) m c main_v22 := by
  funext y
  show V (F := Ideal) m c main_v22 (((cfg0.win 2).blk t).view.emb y) = V (F := Ideal) m c main_v22 y
  refine congrArg _ (funext fun a => Fin.ext ?_)
  match a with
  | ⟨0, _⟩ => show 0 * 1 + 1 * (y 0).val = (y 0).val; omega
  | ⟨1, _⟩ => show 0 * 128 + 1 * (y 1).val = (y 1).val; omega

theorem iblk3 (t : Fin cfg0.N) : (iblk (F := Ideal) m c 3 t : S128x64.Idx → EReal) = V (F := Ideal) m c main_v7 := by
  funext y
  show V (F := Ideal) m c main_v7 (((cfg0.win 3).blk t).view.emb y) = V (F := Ideal) m c main_v7 y
  refine congrArg _ (funext fun a => Fin.ext ?_)
  match a with
  | ⟨0, _⟩ => show 0 * 128 + 1 * (y 0).val = (y 0).val; omega
  | ⟨1, _⟩ => show 0 * 64 + 1 * (y 1).val = (y 1).val; omega

theorem iblk4 (t : Fin cfg0.N) : (iblk (F := Ideal) m c 4 t : S1x64.Idx → EReal) = V (F := Ideal) m c main_v26 := by
  funext y
  show V (F := Ideal) m c main_v26 (((cfg0.win 4).blk t).view.emb y) = V (F := Ideal) m c main_v26 y
  refine congrArg _ (funext fun a => Fin.ext ?_)
  match a with
  | ⟨0, _⟩ => show 0 * 1 + 1 * (y 0).val = (y 0).val; omega
  | ⟨1, _⟩ => show 0 * 64 + 1 * (y 1).val = (y 1).val; omega

theorem iblk5 (t : Fin cfg0.N) : (iblk (F := Ideal) m c 5 t : S64x64.Idx → EReal) = V (F := Ideal) m c main_v8 := by
  funext y
  show V (F := Ideal) m c main_v8 (((cfg0.win 5).blk t).view.emb y) = V (F := Ideal) m c main_v8 y
  refine congrArg _ (funext fun a => Fin.ext ?_)
  match a with
  | ⟨0, _⟩ => show 0 * 64 + 1 * (y 0).val = (y 0).val; omega
  | ⟨1, _⟩ => show 0 * 64 + 1 * (y 1).val = (y 1).val; omega

theorem iblk6 (t : Fin cfg0.N) : (iblk (F := Ideal) m c 6 t : S1x64.Idx → EReal) = V (F := Ideal) m c main_v30 := by
  funext y
  show V (F := Ideal) m c main_v30 (((cfg0.win 6).blk t).view.emb y) = V (F := Ideal) m c main_v30 y
  refine congrArg _ (funext fun a => Fin.ext ?_)
  match a with
  | ⟨0, _⟩ => show 0 * 1 + 1 * (y 0).val = (y 0).val; omega
  | ⟨1, _⟩ => show 0 * 64 + 1 * (y 1).val = (y 1).val; omega

theorem iblk7 (t : Fin cfg0.N) : (iblk (F := Ideal) m c 7 t : S64x64.Idx → EReal) = V (F := Ideal) m c main_v9 := by
  funext y
  show V (F := Ideal) m c main_v9 (((cfg0.win 7).blk t).view.emb y) = V (F := Ideal) m c main_v9 y
  refine congrArg _ (funext fun a => Fin.ext ?_)
  match a with
  | ⟨0, _⟩ => show 0 * 64 + 1 * (y 0).val = (y 0).val; omega
  | ⟨1, _⟩ => show 0 * 64 + 1 * (y 1).val = (y 1).val; omega

theorem iblk8 (t : Fin cfg0.N) : (iblk (F := Ideal) m c 8 t : S1x64.Idx → EReal) = V (F := Ideal) m c main_v34 := by
  funext y
  show V (F := Ideal) m c main_v34 (((cfg0.win 8).blk t).view.emb y) = V (F := Ideal) m c main_v34 y
  refine congrArg _ (funext fun a => Fin.ext ?_)
  match a with
  | ⟨0, _⟩ => show 0 * 1 + 1 * (y 0).val = (y 0).val; omega
  | ⟨1, _⟩ => show 0 * 64 + 1 * (y 1).val = (y 1).val; omega

theorem iblk9 (t : Fin cfg0.N) : (iblk (F := Ideal) m c 9 t : S64x64.Idx → EReal) = V (F := Ideal) m c main_v10 := by
  funext y
  show V (F := Ideal) m c main_v10 (((cfg0.win 9).blk t).view.emb y) = V (F := Ideal) m c main_v10 y
  refine congrArg _ (funext fun a => Fin.ext ?_)
  match a with
  | ⟨0, _⟩ => show 0 * 64 + 1 * (y 0).val = (y 0).val; omega
  | ⟨1, _⟩ => show 0 * 64 + 1 * (y 1).val = (y 1).val; omega

theorem iblk10 (t : Fin cfg0.N) : (iblk (F := Ideal) m c 10 t : S1x64.Idx → EReal) = V (F := Ideal) m c main_v38 := by
  funext y
  show V (F := Ideal) m c main_v38 (((cfg0.win 10).blk t).view.emb y) = V (F := Ideal) m c main_v38 y
  refine congrArg _ (funext fun a => Fin.ext ?_)
  match a with
  | ⟨0, _⟩ => show 0 * 1 + 1 * (y 0).val = (y 0).val; omega
  | ⟨1, _⟩ => show 0 * 64 + 1 * (y 1).val = (y 1).val; omega

theorem iblk11 (t : Fin cfg0.N) : (iblk (F := Ideal) m c 11 t : S64x64.Idx → EReal) = V (F := Ideal) m c main_v11 := by
  funext y
  show V (F := Ideal) m c main_v11 (((cfg0.win 11).blk t).view.emb y) = V (F := Ideal) m c main_v11 y
  refine congrArg _ (funext fun a => Fin.ext ?_)
  match a with
  | ⟨0, _⟩ => show 0 * 64 + 1 * (y 0).val = (y 0).val; omega
  | ⟨1, _⟩ => show 0 * 64 + 1 * (y 1).val = (y 1).val; omega

theorem iblk12 (t : Fin cfg0.N) : (iblk (F := Ideal) m c 12 t : S1x64.Idx → EReal) = V (F := Ideal) m c main_v42 := by
  funext y
  show V (F := Ideal) m c main_v42 (((cfg0.win 12).blk t).view.emb y) = V (F := Ideal) m c main_v42 y
  refine congrArg _ (funext fun a => Fin.ext ?_)
  match a with
  | ⟨0, _⟩ => show 0 * 1 + 1 * (y 0).val = (y 0).val; omega
  | ⟨1, _⟩ => show 0 * 64 + 1 * (y 1).val = (y 1).val; omega

theorem iblk13 (t : Fin cfg0.N) : (iblk (F := Ideal) m c 13 t : S64x16.Idx → EReal) = V (F := Ideal) m c main_v12 := by
  funext y
  show V (F := Ideal) m c main_v12 (((cfg0.win 13).blk t).view.emb y) = V (F := Ideal) m c main_v12 y
  refine congrArg _ (funext fun a => Fin.ext ?_)
  match a with
  | ⟨0, _⟩ => show 0 * 64 + 1 * (y 0).val = (y 0).val; omega
  | ⟨1, _⟩ => show 0 * 16 + 1 * (y 1).val = (y 1).val; omega

theorem iblk14 (t : Fin cfg0.N) : (iblk (F := Ideal) m c 14 t : S1x16.Idx → EReal) = V (F := Ideal) m c main_v46 := by
  funext y
  show V (F := Ideal) m c main_v46 (((cfg0.win 14).blk t).view.emb y) = V (F := Ideal) m c main_v46 y
  refine congrArg _ (funext fun a => Fin.ext ?_)
  match a with
  | ⟨0, _⟩ => show 0 * 1 + 1 * (y 0).val = (y 0).val; omega
  | ⟨1, _⟩ => show 0 * 16 + 1 * (y 1).val = (y 1).val; omega

theorem iblk15 (t : Fin cfg0.N) : (iblk (F := Ideal) m c 15 t : S16x64.Idx → EReal) = V (F := Ideal) m c main_v13 := by
  funext y
  show V (F := Ideal) m c main_v13 (((cfg0.win 15).blk t).view.emb y) = V (F := Ideal) m c main_v13 y
  refine congrArg _ (funext fun a => Fin.ext ?_)
  match a with
  | ⟨0, _⟩ => show 0 * 16 + 1 * (y 0).val = (y 0).val; omega
  | ⟨1, _⟩ => show 0 * 64 + 1 * (y 1).val = (y 1).val; omega

theorem iblk16 (t : Fin cfg0.N) : (iblk (F := Ideal) m c 16 t : S1x64.Idx → EReal) = V (F := Ideal) m c main_v50 := by
  funext y
  show V (F := Ideal) m c main_v50 (((cfg0.win 16).blk t).view.emb y) = V (F := Ideal) m c main_v50 y
  refine congrArg _ (funext fun a => Fin.ext ?_)
  match a with
  | ⟨0, _⟩ => show 0 * 1 + 1 * (y 0).val = (y 0).val; omega
  | ⟨1, _⟩ => show 0 * 64 + 1 * (y 1).val = (y 1).val; omega

theorem iblk17 (t : Fin cfg0.N) : (iblk (F := Ideal) m c 17 t : S64x64.Idx → EReal) = V (F := Ideal) m c main_v14 := by
  funext y
  show V (F := Ideal) m c main_v14 (((cfg0.win 17).blk t).view.emb y) = V (F := Ideal) m c main_v14 y
  refine congrArg _ (funext fun a => Fin.ext ?_)
  match a with
  | ⟨0, _⟩ => show 0 * 64 + 1 * (y 0).val = (y 0).val; omega
  | ⟨1, _⟩ => show 0 * 64 + 1 * (y 1).val = (y 1).val; omega

theorem iblk18 (t : Fin cfg0.N) : (iblk (F := Ideal) m c 18 t : S1x64.Idx → EReal) = V (F := Ideal) m c main_v54 := by
  funext y
  show V (F := Ideal) m c main_v54 (((cfg0.win 18).blk t).view.emb y) = V (F := Ideal) m c main_v54 y
  refine congrArg _ (funext fun a => Fin.ext ?_)
  match a with
  | ⟨0, _⟩ => show 0 * 1 + 1 * (y 0).val = (y 0).val; omega
  | ⟨1, _⟩ => show 0 * 64 + 1 * (y 1).val = (y 1).val; omega

theorem iblk19 (t : Fin cfg0.N) : (iblk (F := Ideal) m c 19 t : S64x64.Idx → EReal) = V (F := Ideal) m c main_v15 := by
  funext y
  show V (F := Ideal) m c main_v15 (((cfg0.win 19).blk t).view.emb y) = V (F := Ideal) m c main_v15 y
  refine congrArg _ (funext fun a => Fin.ext ?_)
  match a with
  | ⟨0, _⟩ => show 0 * 64 + 1 * (y 0).val = (y 0).val; omega
  | ⟨1, _⟩ => show 0 * 64 + 1 * (y 1).val = (y 1).val; omega

theorem iblk20 (t : Fin cfg0.N) : (iblk (F := Ideal) m c 20 t : S1x64.Idx → EReal) = V (F := Ideal) m c main_v58 := by
  funext y
  show V (F := Ideal) m c main_v58 (((cfg0.win 20).blk t).view.emb y) = V (F := Ideal) m c main_v58 y
  refine congrArg _ (funext fun a => Fin.ext ?_)
  match a with
  | ⟨0, _⟩ => show 0 * 1 + 1 * (y 0).val = (y 0).val; omega
  | ⟨1, _⟩ => show 0 * 64 + 1 * (y 1).val = (y 1).val; omega

theorem iblk21 (t : Fin cfg0.N) : (iblk (F := Ideal) m c 21 t : S64x64.Idx → EReal) = V (F := Ideal) m c main_v16 := by
  funext y
  show V (F := Ideal) m c main_v16 (((cfg0.win 21).blk t).view.emb y) = V (F := Ideal) m c main_v16 y
  refine congrArg _ (funext fun a => Fin.ext ?_)
  match a with
  | ⟨0, _⟩ => show 0 * 64 + 1 * (y 0).val = (y 0).val; omega
  | ⟨1, _⟩ => show 0 * 64 + 1 * (y 1).val = (y 1).val; omega

theorem iblk22 (t : Fin cfg0.N) : (iblk (F := Ideal) m c 22 t : S1x64.Idx → EReal) = V (F := Ideal) m c main_v62 := by
  funext y
  show V (F := Ideal) m c main_v62 (((cfg0.win 22).blk t).view.emb y) = V (F := Ideal) m c main_v62 y
  refine congrArg _ (funext fun a => Fin.ext ?_)
  match a with
  | ⟨0, _⟩ => show 0 * 1 + 1 * (y 0).val = (y 0).val; omega
  | ⟨1, _⟩ => show 0 * 64 + 1 * (y 1).val = (y 1).val; omega

theorem iblk23 (t : Fin cfg0.N) : (iblk (F := Ideal) m c 23 t : S64x64.Idx → EReal) = V (F := Ideal) m c main_v17 := by
  funext y
  show V (F := Ideal) m c main_v17 (((cfg0.win 23).blk t).view.emb y) = V (F := Ideal) m c main_v17 y
  refine congrArg _ (funext fun a => Fin.ext ?_)
  match a with
  | ⟨0, _⟩ => show 0 * 64 + 1 * (y 0).val = (y 0).val; omega
  | ⟨1, _⟩ => show 0 * 64 + 1 * (y 1).val = (y 1).val; omega

theorem iblk24 (t : Fin cfg0.N) : (iblk (F := Ideal) m c 24 t : S1x64.Idx → EReal) = V (F := Ideal) m c main_v66 := by
  funext y
  show V (F := Ideal) m c main_v66 (((cfg0.win 24).blk t).view.emb y) = V (F := Ideal) m c main_v66 y
  refine congrArg _ (funext fun a => Fin.ext ?_)
  match a with
  | ⟨0, _⟩ => show 0 * 1 + 1 * (y 0).val = (y 0).val; omega
  | ⟨1, _⟩ => show 0 * 64 + 1 * (y 1).val = (y 1).val; omega

theorem iblk25 (t : Fin cfg0.N) : (iblk (F := Ideal) m c 25 t : S64x128.Idx → EReal) = V (F := Ideal) m c main_v18 := by
  funext y
  show V (F := Ideal) m c main_v18 (((cfg0.win 25).blk t).view.emb y) = V (F := Ideal) m c main_v18 y
  refine congrArg _ (funext fun a => Fin.ext ?_)
  match a with
  | ⟨0, _⟩ => show 0 * 64 + 1 * (y 0).val = (y 0).val; omega
  | ⟨1, _⟩ => show 0 * 128 + 1 * (y 1).val = (y 1).val; omega

theorem iblk26 (t : Fin cfg0.N) : (iblk (F := Ideal) m c 26 t : S1x128.Idx → EReal) = V (F := Ideal) m c main_v70 := by
  funext y
  show V (F := Ideal) m c main_v70 (((cfg0.win 26).blk t).view.emb y) = V (F := Ideal) m c main_v70 y
  refine congrArg _ (funext fun a => Fin.ext ?_)
  match a with
  | ⟨0, _⟩ => show 0 * 1 + 1 * (y 0).val = (y 0).val; omega
  | ⟨1, _⟩ => show 0 * 128 + 1 * (y 1).val = (y 1).val; omega

/-! ## What each point writes back -/

/-- Point `t` writes back block `t` of `enc` in packed form. -/
theorem flushed27_eq (E : Entry m c p X) (t : Fin cfg0.N) :
    (dats (F := Ideal) m 0 c).flushed 27 t = ((cfg0.win 27).blk t).view.read (Elt Ideal) (Gp 1 (enc p X)) := by
  show (cfg0.win 27).cut (grid0.coords t) ((dats (F := Ideal) m 0 c).after 27 t) = _
  rw [after0_27]
  unfold out0_27
  rw [View.canon_unit_zero hz]
  simp only [View.ld_unit_zero (S := S128x128) hz, View.ld_unit_zero (S := S1x128) hz, View.ld_unit_zero (S := S128x64) hz, View.ld_unit_zero (S := S1x64) hz, View.ld_unit_zero (S := S64x64) hz, View.ld_unit_zero (S := S64x16) hz, View.ld_unit_zero (S := S1x16) hz, View.ld_unit_zero (S := S16x64) hz, View.ld_unit_zero (S := S64x128) hz, View.ld_unit_zero (S := S4096x128) hz]
  have hP := Body.enc_block p X (4096 * t.val) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) (iblk (F := Ideal) m c 14 t)
    (x_block m c X E.x t) (by rw [iblk1]; exact E.W0) (by rw [iblk2]; exact E.b0) (by rw [iblk3]; exact E.W1) (by rw [iblk4]; exact E.b1) (by rw [iblk5]; exact E.W2) (by rw [iblk6]; exact E.b2) (by rw [iblk7]; exact E.W3) (by rw [iblk8]; exact E.b3) (by rw [iblk9]; exact E.W4) (by rw [iblk10]; exact E.b4) (by rw [iblk11]; exact E.W5) (by rw [iblk12]; exact E.b5) (by rw [iblk13]; exact E.W6) (by rw [iblk14]; exact E.b6)
  obtain ⟨-, -, e2, e3, -, -⟩ := idx_facts t
  funext j
  have h := hP (j 0).val (j 1).val (idx2_lt0 j) (idx2_lt1 j)
  rw [← apply_eq_rd] at h
  refine h.trans ?_
  show _ = Gp 1 (enc p X) (((cfg0.win 27).blk t).view.emb j)
  have a0 : ((((cfg0.win 27).blk t).view.emb j) 0).val = 4096 * t.val + (j 0).val := by
    show win0_27.index t (0 : Fin 2) * 4096 + 1 * (j 0).val = _; omega
  have a1 : ((((cfg0.win 27).blk t).view.emb j) 1).val = (j 1).val := by
    show win0_27.index t (1 : Fin 2) * 16 + 1 * (j 1).val = _; omega
  unfold Gp
  rw [a0, a1]

/-- Point `t` writes back block `t` of `dec` in packed form. -/
theorem flushed28_eq (E : Entry m c p X) (t : Fin cfg0.N) :
    (dats (F := Ideal) m 0 c).flushed 28 t = ((cfg0.win 28).blk t).view.read (Elt Ideal) (Gp 8 (dec p X)) := by
  show (cfg0.win 28).cut (grid0.coords t) ((dats (F := Ideal) m 0 c).after 28 t) = _
  rw [after0_28]
  unfold out0_28
  rw [View.canon_unit_zero hz]
  simp only [View.ld_unit_zero (S := S128x128) hz, View.ld_unit_zero (S := S1x128) hz, View.ld_unit_zero (S := S128x64) hz, View.ld_unit_zero (S := S1x64) hz, View.ld_unit_zero (S := S64x64) hz, View.ld_unit_zero (S := S64x16) hz, View.ld_unit_zero (S := S1x16) hz, View.ld_unit_zero (S := S16x64) hz, View.ld_unit_zero (S := S64x128) hz, View.ld_unit_zero (S := S4096x128) hz]
  have hE := Body.enc_block p X (4096 * t.val) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) (iblk (F := Ideal) m c 12 t) (iblk (F := Ideal) m c 13 t) (iblk (F := Ideal) m c 14 t)
    (x_block m c X E.x t) (by rw [iblk1]; exact E.W0) (by rw [iblk2]; exact E.b0) (by rw [iblk3]; exact E.W1) (by rw [iblk4]; exact E.b1) (by rw [iblk5]; exact E.W2) (by rw [iblk6]; exact E.b2) (by rw [iblk7]; exact E.W3) (by rw [iblk8]; exact E.b3) (by rw [iblk9]; exact E.W4) (by rw [iblk10]; exact E.b4) (by rw [iblk11]; exact E.W5) (by rw [iblk12]; exact E.b5) (by rw [iblk13]; exact E.W6) (by rw [iblk14]; exact E.b6)
  have hP := Body.dec_block p X (4096 * t.val) _ (iblk (F := Ideal) m c 15 t) (iblk (F := Ideal) m c 16 t) (iblk (F := Ideal) m c 17 t) (iblk (F := Ideal) m c 18 t) (iblk (F := Ideal) m c 19 t) (iblk (F := Ideal) m c 20 t) (iblk (F := Ideal) m c 21 t) (iblk (F := Ideal) m c 22 t) (iblk (F := Ideal) m c 23 t) (iblk (F := Ideal) m c 24 t) (iblk (F := Ideal) m c 25 t) (iblk (F := Ideal) m c 26 t) hE (by rw [iblk15]; exact E.W7) (by rw [iblk16]; exact E.b7) (by rw [iblk17]; exact E.W8) (by rw [iblk18]; exact E.b8) (by rw [iblk19]; exact E.W9) (by rw [iblk20]; exact E.b9) (by rw [iblk21]; exact E.W10) (by rw [iblk22]; exact E.b10) (by rw [iblk23]; exact E.W11) (by rw [iblk24]; exact E.b11) (by rw [iblk25]; exact E.W12) (by rw [iblk26]; exact E.b12)
  obtain ⟨-, -, -, -, e4, e5⟩ := idx_facts t
  funext j
  have h := hP (j 0).val (j 1).val (idx2_lt0 j) (idx2_lt1 j)
  rw [← apply_eq_rd] at h
  refine h.trans ?_
  show _ = Gp 8 (dec p X) (((cfg0.win 28).blk t).view.emb j)
  have a0 : ((((cfg0.win 28).blk t).view.emb j) 0).val = 4096 * t.val + (j 0).val := by
    show win0_28.index t (0 : Fin 2) * 4096 + 1 * (j 0).val = _; omega
  have a1 : ((((cfg0.win 28).blk t).view.emb j) 1).val = (j 1).val := by
    show win0_28.index t (1 : Fin 2) * 128 + 1 * (j 1).val = _; omega
  unfold Gp
  rw [a0, a1]

/-! ## The blocks tile each output array -/

theorem mem_blk27 (t : Fin cfg0.N) (i : S262144x16.Idx) :
    i ∈ ((cfg0.win 27).blk t).view.set ↔ ∀ a : Fin 2, win0_27.index t a * S4096x16.size a ≤ (i a).val
      ∧ (i a).val < win0_27.index t a * S4096x16.size a + S4096x16.size a := by
  show i ∈ ((View.whole main_v72_0).slice (win0_27.rect t)).set ↔ _
  rw [View.set_slice_whole, Rect.mem_set_unit]
  exact Iff.rfl

theorem mem_blk28 (t : Fin cfg0.N) (i : S262144x128.Idx) :
    i ∈ ((cfg0.win 28).blk t).view.set ↔ ∀ a : Fin 2, win0_28.index t a * S4096x128.size a ≤ (i a).val
      ∧ (i a).val < win0_28.index t a * S4096x128.size a + S4096x128.size a := by
  show i ∈ ((View.whole main_v72_1).slice (win0_28.rect t)).set ↔ _
  rw [View.set_slice_whole, Rect.mem_set_unit]
  exact Iff.rfl

/-- Row `R` of the first output lies in the block of point `R / 4096`. -/
theorem cover27 (i : S262144x16.Idx) :
    ∃ t : Fin cfg0.N, (cfg0.win 27).flush t = true ∧ i ∈ ((cfg0.win 27).blk t).view.set := by
  have hi0 : (i 0).val < 262144 := (i 0).isLt
  have hi1 : (i 1).val < 16 := (i 1).isLt
  obtain ⟨t, ht⟩ : ∃ t : Fin cfg0.N, t.val = (i 0).val / 4096 :=
    ⟨⟨(i 0).val / 4096, by show _ < 64; omega⟩, rfl⟩
  obtain ⟨-, -, e2, e3, -, -⟩ := idx_facts t
  refine ⟨t, flush0_27 t, ?_⟩
  rw [mem_blk27]
  intro a
  match a with
  | ⟨0, _⟩ =>
    show win0_27.index t (0 : Fin 2) * 4096 ≤ (i 0).val ∧ (i 0).val < win0_27.index t (0 : Fin 2) * 4096 + 4096
    omega
  | ⟨1, _⟩ =>
    show win0_27.index t (1 : Fin 2) * 16 ≤ (i 1).val ∧ (i 1).val < win0_27.index t (1 : Fin 2) * 16 + 16
    omega

/-- Row `R` of the second output lies in the block of point `R / 4096`. -/
theorem cover28 (i : S262144x128.Idx) :
    ∃ t : Fin cfg0.N, (cfg0.win 28).flush t = true ∧ i ∈ ((cfg0.win 28).blk t).view.set := by
  have hi0 : (i 0).val < 262144 := (i 0).isLt
  have hi1 : (i 1).val < 128 := (i 1).isLt
  obtain ⟨t, ht⟩ : ∃ t : Fin cfg0.N, t.val = (i 0).val / 4096 :=
    ⟨⟨(i 0).val / 4096, by show _ < 64; omega⟩, rfl⟩
  obtain ⟨-, -, -, -, e4, e5⟩ := idx_facts t
  refine ⟨t, flush0_28 t, ?_⟩
  rw [mem_blk28]
  intro a
  match a with
  | ⟨0, _⟩ =>
    show win0_28.index t (0 : Fin 2) * 4096 ≤ (i 0).val ∧ (i 0).val < win0_28.index t (0 : Fin 2) * 4096 + 4096
    omega
  | ⟨1, _⟩ =>
    show win0_28.index t (1 : Fin 2) * 128 ≤ (i 1).val ∧ (i 1).val < win0_28.index t (1 : Fin 2) * 128 + 128
    omega

/-! ## The two output arrays after the region -/

/-- The first output array ends holding `enc` in packed form. -/
theorem final27 (E : Entry m c p X) : (dats (F := Ideal) m 0 c).arrAt 27 cfg0.N = Gp 1 (enc p X) :=
  (dats (F := Ideal) m 0 c).arrAt_eq_of_cover 27 (Gp 1 (enc p X)) (fun t _ => flushed27_eq m c p X E t) cover27

/-- The second output array ends holding `dec` in packed form. -/
theorem final28 (E : Entry m c p X) : (dats (F := Ideal) m 0 c).arrAt 28 cfg0.N = Gp 8 (dec p X) :=
  (dats (F := Ideal) m 0 c).arrAt_eq_of_cover 28 (Gp 8 (dec p X)) (fun t _ => flushed28_eq m c p X E t) cover28

end Cert.KernelIdeal.Blocks

end
-- ==== Proof.KRun.lean ====
/-
  The kernel program's run, with its two results named.

  After the region the program reshapes the two packed output arrays back: `[262144, 16]` to `[4194304, 1]` and
  `[262144, 128]` to `[4194304, 8]`.  Row-major order is kept, so entry `(n, j)` of a reshaped array is the packed
  array's entry `(n / 16, (n % 16) * d + j)`, which for a matrix of width `d` in packed form is its entry `(n, j)`.
  Hence the first result is `enc` and the second `dec`, entry by entry, and the arguments are left as they were.
-/
import proofs.«104812_j146028888292_2_alg».proof.Proof.KBlocks

set_option maxRecDepth 16384

noncomputable section

namespace Cert.KernelIdeal.Run

open Cert.KernelIdeal Cert.KernelIdeal.Gen Cert.KernelIdeal.GenP Idealize.ShloMosaic Idealize.ShloMosaic.TcCoe
open Idealize.SL.Sem Idealize.ShloMosaic.ValueIdx MatRead Cert.Mlp Cert.KernelIdeal.Blocks Idealize.ShloMosaic.StableHlo

/-- The one-column matrix `Z` in packed form, reshaped to `[4194304, 1]`, is `Z`. -/
theorem tail_enc (Z : ℕ → ℕ → EReal) (i : S4194304x1.Idx) :
    shapeCast S4194304x1 (Gp 1 Z : S262144x16.Idx → EReal) shapeCasts_S262144x16_S4194304x1 i = Z (i 0).val (i 1).val := by
  have h0 : (i 0).val < 4194304 := (i 0).isLt
  have h1 : (i 1).val < 1 := (i 1).isLt
  rw [shapeCast_apply _ _ i (ix2 ⟨(i 0).val / 16, by omega⟩ ⟨(i 0).val % 16, by omega⟩) (by
    rw [Shape.rowMajor_val_two, Shape.rowMajor_val_two]
    show (i 0).val / 16 * 16 + (i 0).val % 16 = (i 0).val * 1 + (i 1).val
    omega)]
  show Z (16 * ((i 0).val / 16) + (i 0).val % 16 / 1) ((i 0).val % 16 % 1) = Z (i 0).val (i 1).val
  have e1 : 16 * ((i 0).val / 16) + (i 0).val % 16 / 1 = (i 0).val := by omega
  have e2 : (i 0).val % 16 % 1 = (i 1).val := by omega
  rw [e1, e2]

/-- The eight-column matrix `Z` in packed form, reshaped to `[4194304, 8]`, is `Z`. -/
theorem tail_dec (Z : ℕ → ℕ → EReal) (i : S4194304x8.Idx) :
    shapeCast S4194304x8 (Gp 8 Z : S262144x128.Idx → EReal) shapeCasts_S262144x128_S4194304x8 i = Z (i 0).val (i 1).val := by
  have h0 : (i 0).val < 4194304 := (i 0).isLt
  have h1 : (i 1).val < 8 := (i 1).isLt
  rw [shapeCast_apply _ _ i (ix2 ⟨(i 0).val / 16, by omega⟩ ⟨(i 0).val % 16 * 8 + (i 1).val, by omega⟩) (by
    rw [Shape.rowMajor_val_two, Shape.rowMajor_val_two]
    show (i 0).val / 16 * 128 + ((i 0).val % 16 * 8 + (i 1).val) = (i 0).val * 8 + (i 1).val
    omega)]
  show Z (16 * ((i 0).val / 16) + ((i 0).val % 16 * 8 + (i 1).val) / 8) (((i 0).val % 16 * 8 + (i 1).val) % 8) = Z (i 0).val (i 1).val
  have e1 : 16 * ((i 0).val / 16) + ((i 0).val % 16 * 8 + (i 1).val) / 8 = (i 0).val := by omega
  have e2 : ((i 0).val % 16 * 8 + (i 1).val) % 8 = (i 1).val := by omega
  rw [e1, e2]

variable (m : (ℓ : Loc nD τ sig) → Buf (Elt Ideal) ℓ) (ρ : Dev nD → PrngReg) (c : Dev nD)

/-- The first result buffer after the lines that follow the region. -/
theorem tail73 (p : Params) (X : ℕ → ℕ → EReal) (E : Entry m c p X) :
    Pipeline.afterTail₀ cfgs (dats (F := Ideal) m) 0 (V0 (F := Ideal) m) [hostOps1] c main_v73
      = (fun i : S4194304x1.Idx => enc p X (i 0).val (i 1).val) := by
  unfold Pipeline.afterTail₀
  show StableHlo.after hostOps1 _ (Proc.devRef .tc main_v73) = _
  after_results
  have hw : Pipeline.withArrays (cfgs 0).spec c (V0 (F := Ideal) m c)
      (fun w => (dats (F := Ideal) m 0 c).arrAt w (cfgs 0).N) (Proc.devRef .tc main_v72_0)
        = (Gp 1 (enc p X) : S262144x16.Idx → EReal) :=
    (Pipeline.withArrays_arr spec0 launch0.win.arr_inj c _ _ 27).trans (final27 m c p X E)
  funext i
  exact (congrArg (fun A => shapeCast S4194304x1 A shapeCasts_S262144x16_S4194304x1 i) hw).trans (tail_enc _ i)

/-- The second result buffer after the lines that follow the region. -/
theorem tail74 (p : Params) (X : ℕ → ℕ → EReal) (E : Entry m c p X) :
    Pipeline.afterTail₀ cfgs (dats (F := Ideal) m) 0 (V0 (F := Ideal) m) [hostOps1] c main_v74
      = (fun i : S4194304x8.Idx => dec p X (i 0).val (i 1).val) := by
  unfold Pipeline.afterTail₀
  show StableHlo.after hostOps1 _ (Proc.devRef .tc main_v74) = _
  after_results
  have hw : Pipeline.withArrays (cfgs 0).spec c (V0 (F := Ideal) m c)
      (fun w => (dats (F := Ideal) m 0 c).arrAt w (cfgs 0).N) (Proc.devRef .tc main_v72_1)
        = (Gp 8 (dec p X) : S262144x128.Idx → EReal) :=
    (Pipeline.withArrays_arr spec0 launch0.win.arr_inj c _ _ 28).trans (final28 m c p X E)
  funext i
  exact (congrArg (fun A => shapeCast S4194304x8 A shapeCasts_S262144x128_S4194304x8 i) hw).trans (tail_dec _ i)

/-- THE RUN: every weakly fair execution of the kernel program terminates with the first result at `enc`, the second
    at `dec`, entry by entry, and every argument array unchanged. -/
theorem run (p : Dev nD → Params) (X : Dev nD → ℕ → ℕ → EReal) (E : ∀ c : Dev nD, Entry m c (p c) (X c)) :
    θ_run defs (onTc (τ := τ) (main (F := Ideal))) ⟨m, fun _ => 0, ρ⟩ (fun r => ∀ c : Dev nD,
      r.2.mem ((c.tc : Thread nD τ).loc main_v73) = (fun i : S4194304x1.Idx => enc (p c) (X c) (i 0).val (i 1).val)
      ∧ r.2.mem ((c.tc : Thread nD τ).loc main_v74) = (fun i : S4194304x8.Idx => dec (p c) (X c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨((h c).2 main_v73 (Pipeline.mem_restRefs_of main_v73 (by decide) (by decide))).trans (tail73 m c (p c) (X c) (E c)),
      ((h c).2 main_v74 (Pipeline.mem_restRefs_of main_v74 (by decide) (by decide))).trans (tail74 m c (p c) (X c) (E c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c)),
      (((h c).2 main_arg24 (Pipeline.mem_restRefs_of main_arg24 (by decide) (by decide))).trans (W_main_arg24 m (dats m) c)),
      (((h c).2 main_arg25 (Pipeline.mem_restRefs_of main_arg25 (by decide) (by decide))).trans (W_main_arg25 m (dats m) c)),
      (((h c).2 main_arg26 (Pipeline.mem_restRefs_of main_arg26 (by decide) (by decide))).trans (W_main_arg26 m (dats m) c))⟩)
    (run_main m ρ)

end Cert.KernelIdeal.Run

end
-- ==== Proof.KHostLayout.lean ====
/-
  Three host-side layouts, read entry by entry, for any extents.

  * The block-diagonal weight.  A sixteen by sixteen array `E` is stretched to `[16, fi, 16, fo]` (entry
    `(i, a, j, b)` is `E (i, j)`), an `fi` by `fo` array `W` to the same extents (entry `(i, a, j, b)` is `W (a, b)`),
    the two are multiplied entry by entry, and the product is laid out row-major as a matrix of `16 * fi` rows and
    `16 * fo` columns.  Row `r` of the matrix is the pair `(r / fi, r % fi)` and column `c` the pair
    `(c / fo, c % fo)`, so its entry `(r, c)` is `E (r / fi, c / fo) * W (r % fi, c % fo)`.
  * The repeated bias.  A vector `b` of length `fo` is seen as one row, the row is repeated sixteen times, and the
    sixteen rows are laid out one after the other in a single row of length `16 * fo`: its entry `c` is `b (c % fo)`.
  * Sixteen rows side by side.  A matrix of `16 * R` rows of width eight laid out row-major as `R` rows of width
    `128`: entry `(r, c)` is the entry `(16 * r + c / 8, c % 8)` of the matrix.

  And the sixteen by sixteen array the weights are built from: "row number plus zero equals column number", as a
  number, is `1` on the diagonal and `0` off it.

  The last section turns the three into the statements the kernel's proof uses: a matrix equal to the first layout
  of the diagonal array and `W` is block-diagonal with `W` in every diagonal block; a row equal to the second layout
  of `b` is `b` repeated; a matrix equal to the third layout of `x` holds the rows of `x` sixteen to a row.
-/
import Idealize.ShloMosaic.Lib.ValueIdx
import Idealize.ShloMosaic.Lib.Pipeline.Value
import Idealize.ShloMosaic.PureOps.Ideal.Laws
import proofs.«104812_j146028888292_2_alg».proof.Proof.Spec

noncomputable section

namespace HostLayout

open Idealize.ShloMosaic Idealize.ShloMosaic.ValueIdx MatRead Cert.Mlp

/-! ## Stretching along new axes -/

/-- `E` stretched to `[16, 1, 16, 1]` and then to `[16, fi, 16, fo]`, at `(i, a, j, b)`: `E (i, j)`. -/
theorem stretch_outer {fi fo : ℕ} (E : (⟨2, ![16, 16]⟩ : Shape).Idx → EReal)
    (h1 : (⟨2, ![16, 16]⟩ : Shape).BroadcastsInDim ⟨4, ![16, 1, 16, 1]⟩ ![0, 2])
    (h3 : (⟨4, ![16, 1, 16, 1]⟩ : Shape).BroadcastsInDim ⟨4, ![16, fi, 16, fo]⟩ ![0, 1, 2, 3])
    (i : Fin 16) (a : Fin fi) (j : Fin 16) (b : Fin fo) :
    broadcastInDim ⟨4, ![16, fi, 16, fo]⟩ ![0, 1, 2, 3] h3 (broadcastInDim ⟨4, ![16, 1, 16, 1]⟩ ![0, 2] h1 E) (ix4 i a j b)
      = E (ix2 i j) := by
  rw [broadcastInDim_apply ![0, 1, 2, 3] h3 _ (ix4 i a j b) (ix4 i (0 : Fin 1) j (0 : Fin 1)) (fun d => by
    match d with
    | ⟨0, _⟩ => rfl
    | ⟨1, _⟩ => rfl
    | ⟨2, _⟩ => rfl
    | ⟨3, _⟩ => rfl)]
  exact broadcastInDim_apply ![0, 2] h1 E (ix4 i (0 : Fin 1) j (0 : Fin 1)) (ix2 i j) (fun d => by
    match d with
    | ⟨0, _⟩ => rfl
    | ⟨1, _⟩ => rfl)

/-- `W` stretched to `[1, fi, 1, fo]` and then to `[16, fi, 16, fo]`, at `(i, a, j, b)`: `W (a, b)`. -/
theorem stretch_inner {fi fo : ℕ} (W : (⟨2, ![fi, fo]⟩ : Shape).Idx → EReal)
    (h2 : (⟨2, ![fi, fo]⟩ : Shape).BroadcastsInDim ⟨4, ![1, fi, 1, fo]⟩ ![1, 3])
    (h4 : (⟨4, ![1, fi, 1, fo]⟩ : Shape).BroadcastsInDim ⟨4, ![16, fi, 16, fo]⟩ ![0, 1, 2, 3])
    (i : Fin 16) (a : Fin fi) (j : Fin 16) (b : Fin fo) :
    broadcastInDim ⟨4, ![16, fi, 16, fo]⟩ ![0, 1, 2, 3] h4 (broadcastInDim ⟨4, ![1, fi, 1, fo]⟩ ![1, 3] h2 W) (ix4 i a j b)
      = W (ix2 a b) := by
  have ha : a.val = if fi = 1 then 0 else a.val := by
    split
    · have := a.isLt; omega
    · rfl
  have hb : b.val = if fo = 1 then 0 else b.val := by
    split
    · have := b.isLt; omega
    · rfl
  rw [broadcastInDim_apply ![0, 1, 2, 3] h4 _ (ix4 i a j b) (ix4 (0 : Fin 1) a (0 : Fin 1) b) (fun d => by
    match d with
    | ⟨0, _⟩ => rfl
    | ⟨1, _⟩ => exact ha
    | ⟨2, _⟩ => rfl
    | ⟨3, _⟩ => exact hb)]
  exact broadcastInDim_apply ![1, 3] h2 W (ix4 (0 : Fin 1) a (0 : Fin 1) b) (ix2 a b) (fun d => by
    match d with
    | ⟨0, _⟩ => exact ha
    | ⟨1, _⟩ => exact hb)

/-! ## The block-diagonal weight -/

/-- Entry `(r, c)` of the product of the two stretched arrays laid out as a matrix. -/
theorem kron_apply {fi fo R C : ℕ} (hR : R = 16 * fi) (hC : C = 16 * fo)
    (E : (⟨2, ![16, 16]⟩ : Shape).Idx → EReal) (W : (⟨2, ![fi, fo]⟩ : Shape).Idx → EReal)
    (h1 : (⟨2, ![16, 16]⟩ : Shape).BroadcastsInDim ⟨4, ![16, 1, 16, 1]⟩ ![0, 2])
    (h2 : (⟨2, ![fi, fo]⟩ : Shape).BroadcastsInDim ⟨4, ![1, fi, 1, fo]⟩ ![1, 3])
    (h3 : (⟨4, ![16, 1, 16, 1]⟩ : Shape).BroadcastsInDim ⟨4, ![16, fi, 16, fo]⟩ ![0, 1, 2, 3])
    (h4 : (⟨4, ![1, fi, 1, fo]⟩ : Shape).BroadcastsInDim ⟨4, ![16, fi, 16, fo]⟩ ![0, 1, 2, 3])
    (h5 : (⟨4, ![16, fi, 16, fo]⟩ : Shape).ShapeCasts ⟨2, ![R, C]⟩)
    {r c : ℕ} (hr : r < R) (hc : c < C) (hfi : 0 < fi) (hfo : 0 < fo)
    (hq : r / fi < 16) (hp : c / fo < 16) :
    shapeCast ⟨2, ![R, C]⟩
        (mulf (F := Ideal) (φ := .f32)
          (broadcastInDim ⟨4, ![16, fi, 16, fo]⟩ ![0, 1, 2, 3] h3 (broadcastInDim ⟨4, ![16, 1, 16, 1]⟩ ![0, 2] h1 E))
          (broadcastInDim ⟨4, ![16, fi, 16, fo]⟩ ![0, 1, 2, 3] h4 (broadcastInDim ⟨4, ![1, fi, 1, fo]⟩ ![1, 3] h2 W)))
        h5 (ix2 ⟨r, hr⟩ ⟨c, hc⟩)
      = E (ix2 ⟨r / fi, hq⟩ ⟨c / fo, hp⟩) * W (ix2 ⟨r % fi, Nat.mod_lt _ hfi⟩ ⟨c % fo, Nat.mod_lt _ hfo⟩) := by
  rw [shapeCast_apply _ h5 (ix2 ⟨r, hr⟩ ⟨c, hc⟩)
    (ix4 ⟨r / fi, hq⟩ ⟨r % fi, Nat.mod_lt _ hfi⟩ ⟨c / fo, hp⟩ ⟨c % fo, Nat.mod_lt _ hfo⟩) (by
      rw [Shape.rowMajor_val_four, Shape.rowMajor_val_two]
      show ((r / fi * fi + r % fi) * 16 + c / fo) * fo + c % fo = r * C + c
      have e1 : r / fi * fi + r % fi = r := by rw [Nat.mul_comm]; exact Nat.div_add_mod r fi
      have e2 : c / fo * fo + c % fo = c := by rw [Nat.mul_comm]; exact Nat.div_add_mod c fo
      rw [e1, Nat.add_mul, Nat.add_assoc, e2, Nat.mul_assoc, hC])]
  rw [mulf_apply, stretch_outer E h1 h3, stretch_inner W h2 h4]

/-! ## The repeated bias -/

/-- Entry `(0, c)` of the vector seen as a row, repeated sixteen times, and laid out in one row. -/
theorem tile_apply {fo K : ℕ} (hK : K = 16 * fo) (b : (⟨1, ![fo]⟩ : Shape).Idx → EReal)
    (h0 : (⟨1, ![fo]⟩ : Shape).ShapeCasts ⟨2, ![1, fo]⟩)
    (h1 : (⟨2, ![1, fo]⟩ : Shape).BroadcastsInDim ⟨2, ![16, fo]⟩ ![0, 1])
    (h2 : (⟨2, ![16, fo]⟩ : Shape).ShapeCasts ⟨1, ![K]⟩)
    (h3 : (⟨1, ![K]⟩ : Shape).ShapeCasts ⟨2, ![1, K]⟩)
    {c : ℕ} (hc : c < K) (hfo : 0 < fo) (hq : c / fo < 16) :
    shapeCast ⟨2, ![1, K]⟩
        (shapeCast ⟨1, ![K]⟩ (broadcastInDim ⟨2, ![16, fo]⟩ ![0, 1] h1 (shapeCast ⟨2, ![1, fo]⟩ b h0)) h2) h3
        (ix2 (0 : Fin 1) ⟨c, hc⟩)
      = b (ix1 ⟨c % fo, Nat.mod_lt _ hfo⟩) := by
  rw [shapeCast_apply _ h3 (ix2 (0 : Fin 1) ⟨c, hc⟩) (ix1 ⟨c, hc⟩) (by
    rw [Shape.rowMajor_val_one, Shape.rowMajor_val_two]
    show c = 0 * K + c
    rw [Nat.zero_mul, Nat.zero_add])]
  rw [shapeCast_apply _ h2 (ix1 ⟨c, hc⟩) (ix2 ⟨c / fo, hq⟩ ⟨c % fo, Nat.mod_lt _ hfo⟩) (by
    rw [Shape.rowMajor_val_one, Shape.rowMajor_val_two]
    show c / fo * fo + c % fo = c
    rw [Nat.mul_comm]; exact Nat.div_add_mod c fo)]
  rw [broadcastInDim_apply ![0, 1] h1 _ (ix2 ⟨c / fo, hq⟩ ⟨c % fo, Nat.mod_lt _ hfo⟩)
    (ix2 (0 : Fin 1) ⟨c % fo, Nat.mod_lt _ hfo⟩) (fun d => by
      match d with
      | ⟨0, _⟩ => rfl
      | ⟨1, _⟩ =>
        show c % fo = if fo = 1 then 0 else c % fo
        split
        · have := Nat.mod_lt c hfo; omega
        · rfl)]
  exact shapeCast_apply b h0 (ix2 (0 : Fin 1) ⟨c % fo, Nat.mod_lt _ hfo⟩) (ix1 ⟨c % fo, Nat.mod_lt _ hfo⟩) (by
    rw [Shape.rowMajor_val_one, Shape.rowMajor_val_two]
    show c % fo = 0 * fo + c % fo
    rw [Nat.zero_mul, Nat.zero_add])

/-! ## Sixteen rows side by side -/

/-- Entry `(r, c)` of a matrix of width eight laid out with sixteen rows to a row of width `128`. -/
theorem pack_apply {M R : ℕ} (x : (⟨2, ![M, 8]⟩ : Shape).Idx → EReal)
    (h : (⟨2, ![M, 8]⟩ : Shape).ShapeCasts ⟨2, ![R, 128]⟩)
    {r c : ℕ} (hr : r < R) (hc : c < 128) (hi : 16 * r + c / 8 < M) :
    shapeCast ⟨2, ![R, 128]⟩ x h (ix2 ⟨r, hr⟩ ⟨c, hc⟩) = x (ix2 ⟨16 * r + c / 8, hi⟩ ⟨c % 8, Nat.mod_lt _ (by decide)⟩) := by
  refine shapeCast_apply x h _ _ ?_
  rw [Shape.rowMajor_val_two, Shape.rowMajor_val_two]
  show (16 * r + c / 8) * 8 + c % 8 = r * 128 + c
  omega

/-! ## The diagonal -/

/-- "Row number plus zero equals column number", as a number: `1` on the diagonal, `0` off it. -/
theorem diag_entry (i j : Fin 16) :
    FloatOps.uitofp (F := Ideal) .f32 (IntOp.cmpi .eq (IntOp.addi (BitVec.ofNat 32 i.val) 0#32) (BitVec.ofNat 32 j.val))
      = if i.val = j.val then (1 : EReal) else 0 := by
  have hi := i.isLt
  have hj := j.isLt
  show (((BitVec.ofBool (BitVec.ofNat 32 i.val + 0#32 == BitVec.ofNat 32 j.val)).toNat : ℝ) : EReal) = _
  rw [BitVec.add_zero]
  by_cases h : i.val = j.val
  · rw [if_pos h, h]
    simp
  · rw [if_neg h]
    have hne : (BitVec.ofNat 32 i.val == BitVec.ofNat 32 j.val) = false := by
      rw [beq_eq_false_iff_ne]
      intro e
      have := congrArg BitVec.toNat e
      rw [BitVec.toNat_ofNat, BitVec.toNat_ofNat, Nat.mod_eq_of_lt (by omega), Nat.mod_eq_of_lt (by omega)] at this
      exact h this
    rw [hne]
    simp

/-- The sixteen by sixteen array holding "row number plus zero equals column number", as a number. -/
def eye16 (h : (⟨0, ![]⟩ : Shape).BroadcastsInDim ⟨2, ![16, 16]⟩ ![]) : (⟨2, ![16, 16]⟩ : Shape).Idx → EReal :=
  uitofp (F := Ideal) .f32
    (cmpi .eq (addi (iotaInDim ⟨2, ![16, 16]⟩ 32 0) (broadcastInDim ⟨2, ![16, 16]⟩ ![] h (constantI ⟨0, ![]⟩ 32 0#32)))
      (iotaInDim ⟨2, ![16, 16]⟩ 32 1))

/-- Its entry `(i, j)`: `1` when `i = j`, `0` otherwise. -/
theorem eye16_apply (h : (⟨0, ![]⟩ : Shape).BroadcastsInDim ⟨2, ![16, 16]⟩ ![]) (i j : Fin 16) :
    eye16 h (ix2 i j) = if i.val = j.val then (1 : EReal) else 0 := diag_entry i j

/-! ## The three layouts as statements about reads -/

/-- A matrix that is the first layout of the diagonal array and `W` has `W` in every diagonal block, and `0` times
    an entry of `W` elsewhere. -/
theorem isKron_of_eq {fi fo R C : ℕ} (hR : R = 16 * fi) (hC : C = 16 * fo) (hfi : 0 < fi) (hfo : 0 < fo)
    (Wb : (⟨2, ![R, C]⟩ : Shape).Idx → EReal) (W : (⟨2, ![fi, fo]⟩ : Shape).Idx → EReal)
    (h0 : (⟨0, ![]⟩ : Shape).BroadcastsInDim ⟨2, ![16, 16]⟩ ![])
    (h1 : (⟨2, ![16, 16]⟩ : Shape).BroadcastsInDim ⟨4, ![16, 1, 16, 1]⟩ ![0, 2])
    (h2 : (⟨2, ![fi, fo]⟩ : Shape).BroadcastsInDim ⟨4, ![1, fi, 1, fo]⟩ ![1, 3])
    (h3 : (⟨4, ![16, 1, 16, 1]⟩ : Shape).BroadcastsInDim ⟨4, ![16, fi, 16, fo]⟩ ![0, 1, 2, 3])
    (h4 : (⟨4, ![1, fi, 1, fo]⟩ : Shape).BroadcastsInDim ⟨4, ![16, fi, 16, fo]⟩ ![0, 1, 2, 3])
    (h5 : (⟨4, ![16, fi, 16, fo]⟩ : Shape).ShapeCasts ⟨2, ![R, C]⟩)
    (e : Wb = shapeCast ⟨2, ![R, C]⟩
        (mulf (F := Ideal) (φ := .f32)
          (broadcastInDim ⟨4, ![16, fi, 16, fo]⟩ ![0, 1, 2, 3] h3 (broadcastInDim ⟨4, ![16, 1, 16, 1]⟩ ![0, 2] h1 (eye16 h0)))
          (broadcastInDim ⟨4, ![16, fi, 16, fo]⟩ ![0, 1, 2, 3] h4 (broadcastInDim ⟨4, ![1, fi, 1, fo]⟩ ![1, 3] h2 W)))
        h5) :
    IsKron fi fo R C Wb (rd W) := by
  intro r c hr hc
  have hq : r / fi < 16 := Nat.div_lt_of_lt_mul (by omega)
  have hp : c / fo < 16 := Nat.div_lt_of_lt_mul (by omega)
  rw [rd_of_lt Wb hr hc, rd_of_lt W (Nat.mod_lt _ hfi) (Nat.mod_lt _ hfo), e,
    kron_apply hR hC (eye16 h0) W h1 h2 h3 h4 h5 hr hc hfi hfo hq hp, eye16_apply]

/-- A row that is the second layout of `b` is `b` repeated. -/
theorem isTile_of_eq {fo K : ℕ} (hK : K = 16 * fo) (hfo : 0 < fo)
    (bb : (⟨2, ![1, K]⟩ : Shape).Idx → EReal) (b : (⟨1, ![fo]⟩ : Shape).Idx → EReal)
    (h0 : (⟨1, ![fo]⟩ : Shape).ShapeCasts ⟨2, ![1, fo]⟩)
    (h1 : (⟨2, ![1, fo]⟩ : Shape).BroadcastsInDim ⟨2, ![16, fo]⟩ ![0, 1])
    (h2 : (⟨2, ![16, fo]⟩ : Shape).ShapeCasts ⟨1, ![K]⟩)
    (h3 : (⟨1, ![K]⟩ : Shape).ShapeCasts ⟨2, ![1, K]⟩)
    (e : bb = shapeCast ⟨2, ![1, K]⟩
        (shapeCast ⟨1, ![K]⟩ (broadcastInDim ⟨2, ![16, fo]⟩ ![0, 1] h1 (shapeCast ⟨2, ![1, fo]⟩ b h0)) h2) h3) :
    IsTile fo K bb (rd1 b) := by
  intro c hc
  have hq : c / fo < 16 := Nat.div_lt_of_lt_mul (by omega)
  rw [rd_of_lt bb Nat.one_pos hc, rd1_of_lt b (Nat.mod_lt _ hfo), e]
  exact tile_apply hK b h0 h1 h2 h3 hc hfo hq

/-- A matrix that is the third layout of `x` holds the rows of `x` sixteen to a row. -/
theorem rd_pack_of_eq {M R : ℕ} (hM : M = 16 * R) (xp : (⟨2, ![R, 128]⟩ : Shape).Idx → EReal)
    (x : (⟨2, ![M, 8]⟩ : Shape).Idx → EReal) (h : (⟨2, ![M, 8]⟩ : Shape).ShapeCasts ⟨2, ![R, 128]⟩)
    (e : xp = shapeCast ⟨2, ![R, 128]⟩ x h) {r c : ℕ} (hr : r < R) (hc : c < 128) :
    rd xp r c = rd x (16 * r + c / 8) (c % 8) := by
  have hi : 16 * r + c / 8 < M := by omega
  rw [rd_of_lt xp hr hc, rd_of_lt x hi (Nat.mod_lt _ (by decide)), e]
  exact pack_apply x h hr hc hi

end HostLayout

end
-- ==== Proof.KHostDefs.lean ====
/-
  The contents of the kernel's windows when its one region is entered.

  Before the region the program computes, from its twenty-seven argument arrays: the sixteen by sixteen diagonal array;
  for each of the thirteen layers the block-diagonal weight and the repeated bias; and the input laid out with sixteen
  rows to a row.  `HV m c b` is what buffer `b` of core `c` holds after those operations, run in order from the
  launch contents `m`.  Each operation writes its own result buffer only, so a buffer's contents are the term of the
  few operations that lead to it, over the argument arrays as launched.
-/
import proofs.«104812_j146028888292_2_alg».proof.Proof.Gen.KernelIdeal.Launch
import Idealize.ShloMosaic.Lib.StableHlo.Run
import proofs.«104812_j146028888292_2_alg».proof.Proof.KHostLayout

noncomputable section

namespace Cert.KernelIdeal.HostValue

open Cert.KernelIdeal Cert.KernelIdeal.Gen Idealize.ShloMosaic Idealize.ShloMosaic.TcCoe Idealize.SL.Sem

/-- What buffer `b` of core `c` holds when the region is entered: the launch contents after the operations before
    the region, in order. -/
abbrev HV (m : (ℓ : Loc nD τ sig) → Buf (Elt Ideal) ℓ) (c : Dev nD) (b : Ref sig .tc) :
    Buf (Elt Ideal) ((c : Thread nD τ).loc b) :=
  StableHlo.after (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14])
    (fun b => m (c, b)) (Proc.devRef .tc b)

/-- Closes `HV m c b = t` when `t` is the term of the operations that lead to `b`: the operations are listed, each
    one's result is read at its own buffer and passed over at every other, and what is left is `t` itself. -/
macro "host_value" : tactic =>
  `(tactic| (dsimp only [HV]
             simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
             after_results_simp
             rfl))

end Cert.KernelIdeal.HostValue

end
-- ==== Proof.KHostW.lean ====
/-
  The thirteen weight windows at the region's entry.

  Window by window, the buffer holds the product, entry by entry, of the diagonal array stretched to
  `[16, fi, 16, fo]` and the layer's weight stretched to the same extents, laid out as a matrix of `16 * fi` rows and
  `16 * fo` columns: the block-diagonal matrix with the weight in each of its sixteen diagonal blocks.
-/
import proofs.«104812_j146028888292_2_alg».proof.Proof.KHostDefs

noncomputable section

namespace Cert.KernelIdeal.HostValue

open Cert.KernelIdeal Cert.KernelIdeal.Gen Idealize.ShloMosaic Idealize.ShloMosaic.TcCoe Idealize.SL.Sem MatRead Cert.Mlp

variable (m : (ℓ : Loc nD τ sig) → Buf (Elt Ideal) ℓ) (c : Dev nD)

/-- Layer 0's weight window: the block-diagonal matrix of the `8` by `8` weight. -/
theorem V_W0 : IsKron 8 8 128 128 (HV m c main_v6)
    (rd (m ((c : Thread nD τ).loc main_arg1) : S8x8.Idx → EReal)) :=
  HostLayout.isKron_of_eq (fi := 8) (fo := 8) rfl rfl (by decide) (by decide) _ _ bcast_S_S16x16 bcast_S16x16_S16x1x16x1_0_2
    bcast_S8x8_S1x8x1x8_1_3 bcast_S16x1x16x1_S16x8x16x8_0_1_2_3
    bcast_S1x8x1x8_S16x8x16x8_0_1_2_3 shapeCasts_S16x8x16x8_S128x128 (by host_value)

/-- Layer 1's weight window: the block-diagonal matrix of the `8` by `4` weight. -/
theorem V_W1 : IsKron 8 4 128 64 (HV m c main_v7)
    (rd (m ((c : Thread nD τ).loc main_arg3) : S8x4.Idx → EReal)) :=
  HostLayout.isKron_of_eq (fi := 8) (fo := 4) rfl rfl (by decide) (by decide) _ _ bcast_S_S16x16 bcast_S16x16_S16x1x16x1_0_2
    bcast_S8x4_S1x8x1x4_1_3 bcast_S16x1x16x1_S16x8x16x4_0_1_2_3
    bcast_S1x8x1x4_S16x8x16x4_0_1_2_3 shapeCasts_S16x8x16x4_S128x64 (by host_value)

/-- Layer 2's weight window: the block-diagonal matrix of the `4` by `4` weight. -/
theorem V_W2 : IsKron 4 4 64 64 (HV m c main_v8)
    (rd (m ((c : Thread nD τ).loc main_arg5) : S4x4.Idx → EReal)) :=
  HostLayout.isKron_of_eq (fi := 4) (fo := 4) rfl rfl (by decide) (by decide) _ _ bcast_S_S16x16 bcast_S16x16_S16x1x16x1_0_2
    bcast_S4x4_S1x4x1x4_1_3 bcast_S16x1x16x1_S16x4x16x4_0_1_2_3
    bcast_S1x4x1x4_S16x4x16x4_0_1_2_3 shapeCasts_S16x4x16x4_S64x64 (by host_value)

/-- Layer 3's weight window: the block-diagonal matrix of the `4` by `4` weight. -/
theorem V_W3 : IsKron 4 4 64 64 (HV m c main_v9)
    (rd (m ((c : Thread nD τ).loc main_arg7) : S4x4.Idx → EReal)) :=
  HostLayout.isKron_of_eq (fi := 4) (fo := 4) rfl rfl (by decide) (by decide) _ _ bcast_S_S16x16 bcast_S16x16_S16x1x16x1_0_2
    bcast_S4x4_S1x4x1x4_1_3 bcast_S16x1x16x1_S16x4x16x4_0_1_2_3
    bcast_S1x4x1x4_S16x4x16x4_0_1_2_3 shapeCasts_S16x4x16x4_S64x64 (by host_value)

/-- Layer 4's weight window: the block-diagonal matrix of the `4` by `4` weight. -/
theorem V_W4 : IsKron 4 4 64 64 (HV m c main_v10)
    (rd (m ((c : Thread nD τ).loc main_arg9) : S4x4.Idx → EReal)) :=
  HostLayout.isKron_of_eq (fi := 4) (fo := 4) rfl rfl (by decide) (by decide) _ _ bcast_S_S16x16 bcast_S16x16_S16x1x16x1_0_2
    bcast_S4x4_S1x4x1x4_1_3 bcast_S16x1x16x1_S16x4x16x4_0_1_2_3
    bcast_S1x4x1x4_S16x4x16x4_0_1_2_3 shapeCasts_S16x4x16x4_S64x64 (by host_value)

/-- Layer 5's weight window: the block-diagonal matrix of the `4` by `4` weight. -/
theorem V_W5 : IsKron 4 4 64 64 (HV m c main_v11)
    (rd (m ((c : Thread nD τ).loc main_arg11) : S4x4.Idx → EReal)) :=
  HostLayout.isKron_of_eq (fi := 4) (fo := 4) rfl rfl (by decide) (by decide) _ _ bcast_S_S16x16 bcast_S16x16_S16x1x16x1_0_2
    bcast_S4x4_S1x4x1x4_1_3 bcast_S16x1x16x1_S16x4x16x4_0_1_2_3
    bcast_S1x4x1x4_S16x4x16x4_0_1_2_3 shapeCasts_S16x4x16x4_S64x64 (by host_value)

/-- Layer 6's weight window: the block-diagonal matrix of the `4` by `1` weight. -/
theorem V_W6 : IsKron 4 1 64 16 (HV m c main_v12)
    (rd (m ((c : Thread nD τ).loc main_arg13) : S4x1.Idx → EReal)) :=
  HostLayout.isKron_of_eq (fi := 4) (fo := 1) rfl rfl (by decide) (by decide) _ _ bcast_S_S16x16 bcast_S16x16_S16x1x16x1_0_2
    bcast_S4x1_S1x4x1x1_1_3 bcast_S16x1x16x1_S16x4x16x1_0_1_2_3
    bcast_S1x4x1x1_S16x4x16x1_0_1_2_3 shapeCasts_S16x4x16x1_S64x16 (by host_value)

/-- Layer 7's weight window: the block-diagonal matrix of the `1` by `4` weight. -/
theorem V_W7 : IsKron 1 4 16 64 (HV m c main_v13)
    (rd (m ((c : Thread nD τ).loc main_arg15) : S1x4.Idx → EReal)) :=
  HostLayout.isKron_of_eq (fi := 1) (fo := 4) rfl rfl (by decide) (by decide) _ _ bcast_S_S16x16 bcast_S16x16_S16x1x16x1_0_2
    bcast_S1x4_S1x1x1x4_1_3 bcast_S16x1x16x1_S16x1x16x4_0_1_2_3
    bcast_S1x1x1x4_S16x1x16x4_0_1_2_3 shapeCasts_S16x1x16x4_S16x64 (by host_value)

/-- Layer 8's weight window: the block-diagonal matrix of the `4` by `4` weight. -/
theorem V_W8 : IsKron 4 4 64 64 (HV m c main_v14)
    (rd (m ((c : Thread nD τ).loc main_arg17) : S4x4.Idx → EReal)) :=
  HostLayout.isKron_of_eq (fi := 4) (fo := 4) rfl rfl (by decide) (by decide) _ _ bcast_S_S16x16 bcast_S16x16_S16x1x16x1_0_2
    bcast_S4x4_S1x4x1x4_1_3 bcast_S16x1x16x1_S16x4x16x4_0_1_2_3
    bcast_S1x4x1x4_S16x4x16x4_0_1_2_3 shapeCasts_S16x4x16x4_S64x64 (by host_value)

/-- Layer 9's weight window: the block-diagonal matrix of the `4` by `4` weight. -/
theorem V_W9 : IsKron 4 4 64 64 (HV m c main_v15)
    (rd (m ((c : Thread nD τ).loc main_arg19) : S4x4.Idx → EReal)) :=
  HostLayout.isKron_of_eq (fi := 4) (fo := 4) rfl rfl (by decide) (by decide) _ _ bcast_S_S16x16 bcast_S16x16_S16x1x16x1_0_2
    bcast_S4x4_S1x4x1x4_1_3 bcast_S16x1x16x1_S16x4x16x4_0_1_2_3
    bcast_S1x4x1x4_S16x4x16x4_0_1_2_3 shapeCasts_S16x4x16x4_S64x64 (by host_value)

/-- Layer 10's weight window: the block-diagonal matrix of the `4` by `4` weight. -/
theorem V_W10 : IsKron 4 4 64 64 (HV m c main_v16)
    (rd (m ((c : Thread nD τ).loc main_arg21) : S4x4.Idx → EReal)) :=
  HostLayout.isKron_of_eq (fi := 4) (fo := 4) rfl rfl (by decide) (by decide) _ _ bcast_S_S16x16 bcast_S16x16_S16x1x16x1_0_2
    bcast_S4x4_S1x4x1x4_1_3 bcast_S16x1x16x1_S16x4x16x4_0_1_2_3
    bcast_S1x4x1x4_S16x4x16x4_0_1_2_3 shapeCasts_S16x4x16x4_S64x64 (by host_value)

/-- Layer 11's weight window: the block-diagonal matrix of the `4` by `4` weight. -/
theorem V_W11 : IsKron 4 4 64 64 (HV m c main_v17)
    (rd (m ((c : Thread nD τ).loc main_arg23) : S4x4.Idx → EReal)) :=
  HostLayout.isKron_of_eq (fi := 4) (fo := 4) rfl rfl (by decide) (by decide) _ _ bcast_S_S16x16 bcast_S16x16_S16x1x16x1_0_2
    bcast_S4x4_S1x4x1x4_1_3 bcast_S16x1x16x1_S16x4x16x4_0_1_2_3
    bcast_S1x4x1x4_S16x4x16x4_0_1_2_3 shapeCasts_S16x4x16x4_S64x64 (by host_value)

/-- Layer 12's weight window: the block-diagonal matrix of the `4` by `8` weight. -/
theorem V_W12 : IsKron 4 8 64 128 (HV m c main_v18)
    (rd (m ((c : Thread nD τ).loc main_arg25) : S4x8.Idx → EReal)) :=
  HostLayout.isKron_of_eq (fi := 4) (fo := 8) rfl rfl (by decide) (by decide) _ _ bcast_S_S16x16 bcast_S16x16_S16x1x16x1_0_2
    bcast_S4x8_S1x4x1x8_1_3 bcast_S16x1x16x1_S16x4x16x8_0_1_2_3
    bcast_S1x4x1x8_S16x4x16x8_0_1_2_3 shapeCasts_S16x4x16x8_S64x128 (by host_value)

end Cert.KernelIdeal.HostValue

end
-- ==== Proof.KHostB.lean ====
/-
  The thirteen bias windows and the input window at the region's entry.

  A bias window holds the layer's bias vector seen as one row, repeated sixteen times, the sixteen rows laid out one
  after the other in a single row: the vector repeated along the row.  The input window holds the input matrix, of
  width eight, laid out row-major with `128` entries to a row: sixteen consecutive rows side by side.
-/
import proofs.«104812_j146028888292_2_alg».proof.Proof.KHostDefs

noncomputable section

namespace Cert.KernelIdeal.HostValue

open Cert.KernelIdeal Cert.KernelIdeal.Gen Idealize.ShloMosaic Idealize.ShloMosaic.TcCoe Idealize.SL.Sem MatRead Cert.Mlp

variable (m : (ℓ : Loc nD τ sig) → Buf (Elt Ideal) ℓ) (c : Dev nD)

/-- Layer 0's bias window: the bias vector, of length `8`, repeated along the row. -/
theorem V_b0 : IsTile 8 128 (HV m c main_v22)
    (rd1 (m ((c : Thread nD τ).loc main_arg2) : S8.Idx → EReal)) :=
  HostLayout.isTile_of_eq (fo := 8) rfl (by decide) _ _ shapeCasts_S8_S1x8 bcast_S1x8_S16x8_0_1 shapeCasts_S16x8_S128
    shapeCasts_S128_S1x128 (by host_value)

/-- Layer 1's bias window: the bias vector, of length `4`, repeated along the row. -/
theorem V_b1 : IsTile 4 64 (HV m c main_v26)
    (rd1 (m ((c : Thread nD τ).loc main_arg4) : S4.Idx → EReal)) :=
  HostLayout.isTile_of_eq (fo := 4) rfl (by decide) _ _ shapeCasts_S4_S1x4 bcast_S1x4_S16x4_0_1 shapeCasts_S16x4_S64
    shapeCasts_S64_S1x64 (by host_value)

/-- Layer 2's bias window: the bias vector, of length `4`, repeated along the row. -/
theorem V_b2 : IsTile 4 64 (HV m c main_v30)
    (rd1 (m ((c : Thread nD τ).loc main_arg6) : S4.Idx → EReal)) :=
  HostLayout.isTile_of_eq (fo := 4) rfl (by decide) _ _ shapeCasts_S4_S1x4 bcast_S1x4_S16x4_0_1 shapeCasts_S16x4_S64
    shapeCasts_S64_S1x64 (by host_value)

/-- Layer 3's bias window: the bias vector, of length `4`, repeated along the row. -/
theorem V_b3 : IsTile 4 64 (HV m c main_v34)
    (rd1 (m ((c : Thread nD τ).loc main_arg8) : S4.Idx → EReal)) :=
  HostLayout.isTile_of_eq (fo := 4) rfl (by decide) _ _ shapeCasts_S4_S1x4 bcast_S1x4_S16x4_0_1 shapeCasts_S16x4_S64
    shapeCasts_S64_S1x64 (by host_value)

/-- Layer 4's bias window: the bias vector, of length `4`, repeated along the row. -/
theorem V_b4 : IsTile 4 64 (HV m c main_v38)
    (rd1 (m ((c : Thread nD τ).loc main_arg10) : S4.Idx → EReal)) :=
  HostLayout.isTile_of_eq (fo := 4) rfl (by decide) _ _ shapeCasts_S4_S1x4 bcast_S1x4_S16x4_0_1 shapeCasts_S16x4_S64
    shapeCasts_S64_S1x64 (by host_value)

/-- Layer 5's bias window: the bias vector, of length `4`, repeated along the row. -/
theorem V_b5 : IsTile 4 64 (HV m c main_v42)
    (rd1 (m ((c : Thread nD τ).loc main_arg12) : S4.Idx → EReal)) :=
  HostLayout.isTile_of_eq (fo := 4) rfl (by decide) _ _ shapeCasts_S4_S1x4 bcast_S1x4_S16x4_0_1 shapeCasts_S16x4_S64
    shapeCasts_S64_S1x64 (by host_value)

/-- Layer 6's bias window: the bias vector, of length `1`, repeated along the row. -/
theorem V_b6 : IsTile 1 16 (HV m c main_v46)
    (rd1 (m ((c : Thread nD τ).loc main_arg14) : S1.Idx → EReal)) :=
  HostLayout.isTile_of_eq (fo := 1) rfl (by decide) _ _ shapeCasts_S1_S1x1 bcast_S1x1_S16x1_0_1 shapeCasts_S16x1_S16
    shapeCasts_S16_S1x16 (by host_value)

/-- Layer 7's bias window: the bias vector, of length `4`, repeated along the row. -/
theorem V_b7 : IsTile 4 64 (HV m c main_v50)
    (rd1 (m ((c : Thread nD τ).loc main_arg16) : S4.Idx → EReal)) :=
  HostLayout.isTile_of_eq (fo := 4) rfl (by decide) _ _ shapeCasts_S4_S1x4 bcast_S1x4_S16x4_0_1 shapeCasts_S16x4_S64
    shapeCasts_S64_S1x64 (by host_value)

/-- Layer 8's bias window: the bias vector, of length `4`, repeated along the row. -/
theorem V_b8 : IsTile 4 64 (HV m c main_v54)
    (rd1 (m ((c : Thread nD τ).loc main_arg18) : S4.Idx → EReal)) :=
  HostLayout.isTile_of_eq (fo := 4) rfl (by decide) _ _ shapeCasts_S4_S1x4 bcast_S1x4_S16x4_0_1 shapeCasts_S16x4_S64
    shapeCasts_S64_S1x64 (by host_value)

/-- Layer 9's bias window: the bias vector, of length `4`, repeated along the row. -/
theorem V_b9 : IsTile 4 64 (HV m c main_v58)
    (rd1 (m ((c : Thread nD τ).loc main_arg20) : S4.Idx → EReal)) :=
  HostLayout.isTile_of_eq (fo := 4) rfl (by decide) _ _ shapeCasts_S4_S1x4 bcast_S1x4_S16x4_0_1 shapeCasts_S16x4_S64
    shapeCasts_S64_S1x64 (by host_value)

/-- Layer 10's bias window: the bias vector, of length `4`, repeated along the row. -/
theorem V_b10 : IsTile 4 64 (HV m c main_v62)
    (rd1 (m ((c : Thread nD τ).loc main_arg22) : S4.Idx → EReal)) :=
  HostLayout.isTile_of_eq (fo := 4) rfl (by decide) _ _ shapeCasts_S4_S1x4 bcast_S1x4_S16x4_0_1 shapeCasts_S16x4_S64
    shapeCasts_S64_S1x64 (by host_value)

/-- Layer 11's bias window: the bias vector, of length `4`, repeated along the row. -/
theorem V_b11 : IsTile 4 64 (HV m c main_v66)
    (rd1 (m ((c : Thread nD τ).loc main_arg24) : S4.Idx → EReal)) :=
  HostLayout.isTile_of_eq (fo := 4) rfl (by decide) _ _ shapeCasts_S4_S1x4 bcast_S1x4_S16x4_0_1 shapeCasts_S16x4_S64
    shapeCasts_S64_S1x64 (by host_value)

/-- Layer 12's bias window: the bias vector, of length `8`, repeated along the row. -/
theorem V_b12 : IsTile 8 128 (HV m c main_v70)
    (rd1 (m ((c : Thread nD τ).loc main_arg26) : S8.Idx → EReal)) :=
  HostLayout.isTile_of_eq (fo := 8) rfl (by decide) _ _ shapeCasts_S8_S1x8 bcast_S1x8_S16x8_0_1 shapeCasts_S16x8_S128
    shapeCasts_S128_S1x128 (by host_value)

/-- The input window: entry `(r, col)` is the entry `(16 * r + col / 8, col % 8)` of the input matrix. -/
theorem V_x : ∀ r col, r < 262144 → col < 128 →
    rd (HV m c main_v71) r col
      = rd (m ((c : Thread nD τ).loc main_arg0) : S4194304x8.Idx → EReal) (16 * r + col / 8) (col % 8) :=
  fun r col hr hc =>
    HostLayout.rd_pack_of_eq (M := 4194304) (R := 262144) rfl _ _ shapeCasts_S4194304x8_S262144x128 (by host_value) hr hc

end Cert.KernelIdeal.HostValue

end
-- ==== Proof.KHost.lean ====
/-
  What the kernel's windows hold when its region is entered: the input window (`V_x`), the thirteen weight windows
  (`V_W0` … `V_W12`) and the thirteen bias windows (`V_b0` … `V_b12`), each as a statement about the reads of the
  argument arrays.
-/
import proofs.«104812_j146028888292_2_alg».proof.Proof.KHostW
import proofs.«104812_j146028888292_2_alg».proof.Proof.KHostB
-- ==== Proof.KEntry.lean ====
/-
  The region's input arrays, from the arguments.

  The parameters the kernel computes with are the argument arrays' entries; the packed input holds sixteen rows of the
  input to a row; every weight window is the block-diagonal matrix of its weight and every bias window its bias
  repeated.  These are the facts the blocks-to-arrays step starts from.
-/
import proofs.«104812_j146028888292_2_alg».proof.Proof.KBlocks
import proofs.«104812_j146028888292_2_alg».proof.Proof.KHost

noncomputable section

namespace Cert.KernelIdeal.Blocks

open Cert.KernelIdeal Cert.KernelIdeal.Gen Cert.KernelIdeal.GenP Idealize.ShloMosaic Idealize.ShloMosaic.TcCoe
open Idealize.SL.Sem MatRead Cert.Mlp

variable (m : (ℓ : Loc nD τ sig) → Buf (Elt Ideal) ℓ) (c : Dev nD)

/-- The parameters, read off core `c`'s argument arrays. -/
def kparams : Params :=
  mkParams (m ((c : Thread nD τ).loc main_arg1) : S8x8.Idx → EReal)
    (m ((c : Thread nD τ).loc main_arg2) : S8.Idx → EReal)
    (m ((c : Thread nD τ).loc main_arg3) : S8x4.Idx → EReal)
    (m ((c : Thread nD τ).loc main_arg4) : S4.Idx → EReal)
    (m ((c : Thread nD τ).loc main_arg5) : S4x4.Idx → EReal)
    (m ((c : Thread nD τ).loc main_arg6) : S4.Idx → EReal)
    (m ((c : Thread nD τ).loc main_arg7) : S4x4.Idx → EReal)
    (m ((c : Thread nD τ).loc main_arg8) : S4.Idx → EReal)
    (m ((c : Thread nD τ).loc main_arg9) : S4x4.Idx → EReal)
    (m ((c : Thread nD τ).loc main_arg10) : S4.Idx → EReal)
    (m ((c : Thread nD τ).loc main_arg11) : S4x4.Idx → EReal)
    (m ((c : Thread nD τ).loc main_arg12) : S4.Idx → EReal)
    (m ((c : Thread nD τ).loc main_arg13) : S4x1.Idx → EReal)
    (m ((c : Thread nD τ).loc main_arg14) : S1.Idx → EReal)
    (m ((c : Thread nD τ).loc main_arg15) : S1x4.Idx → EReal)
    (m ((c : Thread nD τ).loc main_arg16) : S4.Idx → EReal)
    (m ((c : Thread nD τ).loc main_arg17) : S4x4.Idx → EReal)
    (m ((c : Thread nD τ).loc main_arg18) : S4.Idx → EReal)
    (m ((c : Thread nD τ).loc main_arg19) : S4x4.Idx → EReal)
    (m ((c : Thread nD τ).loc main_arg20) : S4.Idx → EReal)
    (m ((c : Thread nD τ).loc main_arg21) : S4x4.Idx → EReal)
    (m ((c : Thread nD τ).loc main_arg22) : S4.Idx → EReal)
    (m ((c : Thread nD τ).loc main_arg23) : S4x4.Idx → EReal)
    (m ((c : Thread nD τ).loc main_arg24) : S4.Idx → EReal)
    (m ((c : Thread nD τ).loc main_arg25) : S4x8.Idx → EReal)
    (m ((c : Thread nD τ).loc main_arg26) : S8.Idx → EReal)

/-- The input matrix, read off core `c`'s first argument array. -/
def kX : ℕ → ℕ → EReal := rd (m ((c : Thread nD τ).loc main_arg0) : S4194304x8.Idx → EReal)

/-- What the region finds in its input arrays. -/
theorem entry : Entry m c (kparams m c) (kX m c) :=
  ⟨HostValue.V_x m c, HostValue.V_W0 m c, HostValue.V_b0 m c,
   HostValue.V_W1 m c, HostValue.V_b1 m c,
   HostValue.V_W2 m c, HostValue.V_b2 m c,
   HostValue.V_W3 m c, HostValue.V_b3 m c,
   HostValue.V_W4 m c, HostValue.V_b4 m c,
   HostValue.V_W5 m c, HostValue.V_b5 m c,
   HostValue.V_W6 m c, HostValue.V_b6 m c,
   HostValue.V_W7 m c, HostValue.V_b7 m c,
   HostValue.V_W8 m c, HostValue.V_b8 m c,
   HostValue.V_W9 m c, HostValue.V_b9 m c,
   HostValue.V_W10 m c, HostValue.V_b10 m c,
   HostValue.V_W11 m c, HostValue.V_b11 m c,
   HostValue.V_W12 m c, HostValue.V_b12 m c⟩

end Cert.KernelIdeal.Blocks

end
-- ==== Proof.RefLayer.lean ====
/-
  One layer of the network as a host program writes it, read at natural coordinates, for any extents.

  A host program writes a linear layer as the plain product of the input by the weight matrix, plus the bias vector
  laid first along a one-row matrix and then down every row.  Read at `(n, o)` inside the extents, the product is the
  sum over the contracted coordinate `k` of the input's entry `(n, k)` times the weight's entry `(k, o)`, and the
  laid-out bias is the vector's entry `o`: together, the layer `lin` of the specification.  Row `n` of the result
  reads row `n` of the input only, so the input may be replaced by any matrix with the same row `n`.

  The activation is written as a choice between an entry and a constant times it, by a comparison of the entry with
  zero, the two constants being scalars laid over the whole matrix: read at `(n, o)` it is `act` of the entry.
-/
import Idealize.ShloMosaic.Lib.KernelVsHost
import proofs.«104812_j146028888292_2_alg».proof.Proof.Spec

open scoped BigOperators

noncomputable section

namespace Cert.Mlp

open Idealize.ShloMosaic Idealize.ShloMosaic.ValueIdx MatRead

/-- The host's plain product at `(i, j)`: the sum over the contracted coordinate.  The host's product is the
    accumulating product started from the zero matrix. -/
theorem rd_hostDot {m k n : ℕ} {φ₁ φ₂ : FTy} (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = PlainMatmul.dims w)
    (prec : Option ContractPrecision) (A : FVec Ideal ⟨2, ![m, k]⟩ φ₁) (B : FVec Ideal ⟨2, ![k, n]⟩ φ₂)
    {i j : ℕ} (hi : i < m) (hj : j < n) :
    rd (Host.dotGeneral d prec A B) i j = ∑ c : Fin k, rd A i c.val * rd B c.val j := by
  have e := matmul_zero_eq_dotGeneral d prec A B
  rw [← e]
  exact rd_matmul_zero d w hd prec A B hi hj

/-- A vector laid along a one-row matrix and then down `N` rows, at `(n, o)`: the vector's entry `o`. -/
theorem rd_bias {N fo : ℕ} (h1 : (⟨1, ![fo]⟩ : Shape).BroadcastsInDim ⟨2, ![1, fo]⟩ ![1])
    (h2 : (⟨2, ![1, fo]⟩ : Shape).BroadcastsInDim ⟨2, ![N, fo]⟩ ![0, 1])
    (b : (⟨1, ![fo]⟩ : Shape).Idx → EReal) {n o : ℕ} (hn : n < N) (ho : o < fo) :
    rd (broadcastInDim ⟨2, ![N, fo]⟩ ![0, 1] h2 (broadcastInDim ⟨2, ![1, fo]⟩ ![1] h1 b)) n o = rd1 b o := by
  rw [rd_of_lt _ hn ho, rd1_of_lt b ho, broadcastInDim_oneRow_apply h2 _ ⟨n, hn⟩ ⟨o, ho⟩]
  refine broadcastInDim_apply ![1] h1 b _ _ fun a => ?_
  match a with
  | ⟨0, _⟩ =>
    show o = if fo = 1 then 0 else o
    split
    · omega
    · rfl

/-- THE LINEAR LAYER at `(n, o)`: `lin` of any matrix `Z` whose row `n` is the input's, of the weight matrix and of
    the bias vector. -/
theorem rd_host_lin {N fi fo : ℕ} (d : DotDims ⟨2, ![N, fi]⟩ ⟨2, ![fi, fo]⟩ ⟨2, ![N, fo]⟩)
    (w : DotDims.WF ⟨2, ![N, fi]⟩ ⟨2, ![fi, fo]⟩ ⟨2, ![N, fo]⟩ [1] [0] [0] [1] [] []) (hd : d = PlainMatmul.dims w)
    (prec : Option ContractPrecision)
    (h1 : (⟨1, ![fo]⟩ : Shape).BroadcastsInDim ⟨2, ![1, fo]⟩ ![1])
    (h2 : (⟨2, ![1, fo]⟩ : Shape).BroadcastsInDim ⟨2, ![N, fo]⟩ ![0, 1])
    (X : FVec Ideal ⟨2, ![N, fi]⟩ .f32) (W : FVec Ideal ⟨2, ![fi, fo]⟩ .f32) (b : FVec Ideal ⟨1, ![fo]⟩ .f32)
    (Z : ℕ → ℕ → EReal) {n o : ℕ} (hn : n < N) (ho : o < fo) (hZ : ∀ k, k < fi → rd X n k = Z n k) :
    rd (addf (Host.dotGeneral d prec X W)
        (broadcastInDim ⟨2, ![N, fo]⟩ ![0, 1] h2 (broadcastInDim ⟨2, ![1, fo]⟩ ![1] h1 b))) n o
      = lin fi Z (rd W) (rd1 b) n o := by
  rw [rd_addf, rd_hostDot d w hd prec X W hn ho, rd_bias h1 h2 b hn ho]
  unfold lin
  rw [Finset.sum_congr rfl fun k _ => by rw [hZ k.val k.isLt]]

/-- THE ACTIVATION at `(n, o)`: `act` of the entry. -/
theorem rd_host_act {N fo : ℕ} (h : (⟨0, ![]⟩ : Shape).BroadcastsInDim ⟨2, ![N, fo]⟩ ![])
    (Y : FVec Ideal ⟨2, ![N, fo]⟩ .f32) {n o : ℕ} (hn : n < N) (ho : o < fo) :
    rd (select (cmpf .oge Y (broadcastInDim ⟨2, ![N, fo]⟩ ![] h (constant (F := Ideal) ⟨0, ![]⟩ .f32 0x00000000#32))) Y
        (mulf (broadcastInDim ⟨2, ![N, fo]⟩ ![] h (constant (F := Ideal) ⟨0, ![]⟩ .f32 0x3B23D70A#32)) Y)) n o
      = act (rd Y n o) := by
  rw [rd_of_lt _ hn ho, rd_of_lt Y hn ho]
  rfl

end Cert.Mlp

end
-- ==== Proof.LibLine.lean ====
/- A straight line of host operations in single-assignment form: every operation writes one buffer, and a
   buffer read by an operation is never written at or after it. Then the contents a buffer holds after the whole
   line are what its own operation computes from the contents its operands hold after the whole line. -/
import Idealize.ShloMosaic.Lib.StableHlo.Run
import Idealize.ShloMosaic.Lib.Pipeline.Frame

namespace Cert.LibLine

open Idealize.ShloMosaic Idealize.ShloMosaic.TcCoe Idealize.ShloMosaic.StableHlo

variable {τ : Topo} {sig : RefSig} {Val : EltTy → Type}

/-- Operation by operation, the line `ops` writes exactly the references `outs`. -/
abbrev WritesAre (ops : List (HloOp τ sig Val)) (outs : List (Ref sig .tc)) : Prop :=
  List.Forall₂ (fun op y => op.writes = {Proc.devRef (τ := τ) .tc y}) ops outs

/-- A reference that is not among the written ones keeps its contents. -/
theorem after_of_writesAre {ops : List (HloOp τ sig Val)} {outs : List (Ref sig .tc)} (h : WritesAre ops outs)
    (V : Valuation τ sig Val) {r : Ref sig .tc} (hr : r ∉ outs) :
    after ops V (Proc.devRef .tc r) = V (Proc.devRef .tc r) := by
  induction h generalizing V with
  | nil => rfl
  | @cons op y ops' outs' hw _ ih =>
    rw [after_cons, ih _ (fun hm => hr (List.mem_cons_of_mem _ hm)), HloOp.result_of_not_mem]
    rw [hw, Finset.mem_singleton]
    exact devRef_ne_of_ne (fun e => hr (e ▸ List.mem_cons_self))

/-- A reference written by none of the operations from position `k` on holds, after the whole line, what it
    holds after the first `k` operations. -/
theorem after_eq_take {ops : List (HloOp τ sig Val)} {outs : List (Ref sig .tc)} (h : WritesAre ops outs) (k : Nat)
    (V : Valuation τ sig Val) {r : Ref sig .tc} (hr : r ∉ outs.drop k) :
    after ops V (Proc.devRef .tc r) = after (ops.take k) V (Proc.devRef .tc r) := by
  conv_lhs => rw [← List.take_append_drop k ops]
  rw [StableHlo.after_append]
  exact after_of_writesAre (List.forall₂_drop k h) _ hr

/-- The contents after the first `k + 1` operations, at the `k`-th operation. -/
theorem after_take_succ {ops : List (HloOp τ sig Val)} {k : Nat} {op : HloOp τ sig Val} (hk : ops[k]? = some op)
    (V : Valuation τ sig Val) : after (ops.take (k + 1)) V = op.result (after (ops.take k) V) := by
  rw [List.take_succ, hk, StableHlo.after_append]; rfl

section Stages

variable {ops : List (HloOp τ sig Val)} {outs : List (Ref sig .tc)} (h : WritesAre ops outs) (k : Nat)
include h

/-- The stage of a constant. -/
theorem stage_nullary (y : Ref sig .tc) (v : y.ty.Contents Val) {hy}
    (hk : ops[k]? = some (nullary y v hy)) (hy' : y ∉ outs.drop (k + 1)) (V : Valuation τ sig Val) :
    after ops V (Proc.devRef .tc y) = v := by
  rw [after_eq_take h (k + 1) V hy', after_take_succ hk]; exact nullary_result ..

/-- The stage of a one-operand operation. -/
theorem stage_unary (x y : Ref sig .tc) (f : x.ty.Contents Val → y.ty.Contents Val) {hx hy}
    (hk : ops[k]? = some (unary x y f hx hy)) (hy' : y ∉ outs.drop (k + 1)) (hx' : x ∉ outs.drop k)
    (V : Valuation τ sig Val) :
    after ops V (Proc.devRef .tc y) = f (after ops V (Proc.devRef .tc x)) := by
  rw [after_eq_take h (k + 1) V hy', after_eq_take h k V hx', after_take_succ hk]; exact unary_result ..

/-- The stage of a two-operand operation. -/
theorem stage_binary (a b y : Ref sig .tc) (f : a.ty.Contents Val → b.ty.Contents Val → y.ty.Contents Val) {ha hb hy}
    (hk : ops[k]? = some (binary a b y f ha hb hy)) (hy' : y ∉ outs.drop (k + 1)) (ha' : a ∉ outs.drop k)
    (hb' : b ∉ outs.drop k) (V : Valuation τ sig Val) :
    after ops V (Proc.devRef .tc y) = f (after ops V (Proc.devRef .tc a)) (after ops V (Proc.devRef .tc b)) := by
  rw [after_eq_take h (k + 1) V hy', after_eq_take h k V ha', after_eq_take h k V hb', after_take_succ hk]
  exact binary_result ..

/-- The stage of a reshape. -/
theorem stage_reshape (x y : Ref sig .tc) (he : x.ty.elt = y.ty.elt) (hn : x.ty.shape.ShapeCasts y.ty.shape) {hx hy}
    (hk : ops[k]? = some (reshape x y he hn hx hy)) (hy' : y ∉ outs.drop (k + 1)) (hx' : x ∉ outs.drop k)
    (V : Valuation τ sig Val) :
    after ops V (Proc.devRef .tc y) = fun i => he ▸ shapeCast y.ty.shape (after ops V (Proc.devRef .tc x)) hn i := by
  rw [after_eq_take h (k + 1) V hy', after_eq_take h k V hx', after_take_succ hk]; exact reshape_result ..

/-- The stage of an operation over a family of operands. -/
theorem stage_nary {n : Nat} (xs : Fin n → Ref sig .tc) (y : Ref sig .tc)
    (f : ((j : Fin n) → (xs j).ty.Contents Val) → y.ty.Contents Val) {hxs hy}
    (hk : ops[k]? = some (nary xs y f hxs hy)) (hy' : y ∉ outs.drop (k + 1)) (hxs' : ∀ j, xs j ∉ outs.drop k)
    (V : Valuation τ sig Val) :
    after ops V (Proc.devRef .tc y) = f (fun j => after ops V (Proc.devRef .tc (xs j))) := by
  rw [after_eq_take h (k + 1) V hy', after_take_succ hk, nary_result]
  exact congrArg f (funext fun j => (after_eq_take h k V (hxs' j)).symm)

end Stages

end Cert.LibLine
-- ==== Proof.LibLineTernary.lean ====
/- Two more stages for a straight line of host operations in single-assignment form (companions of the stages
   for constants, one- and two-operand operations and reshapes): a THREE-operand operation (a select, a scatter), and a
   two-operand operation of an inlined function, whose values are carried to and from its buffers along equations
   between types that are reflexivity for a literal buffer. In both, what the written buffer holds after the WHOLE line
   is the operation's function of what its operands hold after the whole line. -/
import proofs.«104812_j146028888292_2_alg».proof.Proof.LibLine

namespace Cert.LibLine

open Idealize.ShloMosaic Idealize.ShloMosaic.TcCoe Idealize.ShloMosaic.StableHlo

/-- The stage of a three-operand operation: after the whole line its buffer holds the operation's function of what
    the three operands hold after the whole line. -/
theorem stage_ternary {τ : Topo} {sig : RefSig} {Val : EltTy → Type} {ops : List (HloOp τ sig Val)} {outs : List (Ref sig .tc)}
    (h : WritesAre ops outs) (k : Nat) (c a b y : Ref sig .tc)
    (f : c.ty.Contents Val → a.ty.Contents Val → b.ty.Contents Val → y.ty.Contents Val) {hc ha hb hy}
    (hk : ops[k]? = some (ternary c a b y f hc ha hb hy)) (hy' : y ∉ outs.drop (k + 1)) (hc' : c ∉ outs.drop k)
    (ha' : a ∉ outs.drop k) (hb' : b ∉ outs.drop k) (V : Valuation τ sig Val) :
    after ops V (Proc.devRef .tc y)
      = f (after ops V (Proc.devRef .tc c)) (after ops V (Proc.devRef .tc a)) (after ops V (Proc.devRef .tc b)) := by
  rw [after_eq_take h (k + 1) V hy', after_eq_take h k V hc', after_eq_take h k V ha', after_eq_take h k V hb',
    after_take_succ hk]
  exact ternary_result ..

/-- The stage of a two-operand operation of an inlined function: its values are carried to and from the buffers along
    equations between types that are reflexivity, so its stage reads like any other two-operand operation's. -/
theorem stage_tbinary {τ : Topo} {sig : RefSig} {Val : EltTy → Type} {ops : List (HloOp τ sig Val)} {outs : List (Ref sig .tc)}
    (h : WritesAre ops outs) (k : Nat) (a b y : Ref sig .tc) {ha2 ha3 hb2 hb3 hy2 hy3}
    (f : a.ty.Contents Val → b.ty.Contents Val → y.ty.Contents Val)
    (hk : ops[k]? = some (TRef.binary (⟨a, rfl, ha2, ha3⟩ : TRef sig a.ty) (⟨b, rfl, hb2, hb3⟩ : TRef sig b.ty)
      (⟨y, rfl, hy2, hy3⟩ : TRef sig y.ty) f))
    (hy' : y ∉ outs.drop (k + 1)) (ha' : a ∉ outs.drop k) (hb' : b ∉ outs.drop k) (V : Valuation τ sig Val) :
    after ops V (Proc.devRef .tc y) = f (after ops V (Proc.devRef .tc a)) (after ops V (Proc.devRef .tc b)) :=
  stage_binary h k a b y f hk hy' ha' hb' V

end Cert.LibLine
-- ==== Proof.LibLineCall.lean ====
/- One more stage for a straight line of host operations in single-assignment form: a THREE-operand operation of an
   inlined function (a select called through jnp.where), whose values are carried to and from its buffers along
   equations between types that are reflexivity for a literal buffer. What the written buffer holds after the whole
   line is the operation's function of what its three operands hold after the whole line. General; no program is
   imported. -/
import proofs.«104812_j146028888292_2_alg».proof.Proof.LibLineTernary

namespace Cert.LibLine

open Idealize.ShloMosaic Idealize.ShloMosaic.TcCoe Idealize.ShloMosaic.StableHlo

/-- The stage of a three-operand operation of an inlined function: its values are carried to and from the buffers along
    equations between types that are reflexivity, so its stage reads like any other three-operand operation's. -/
theorem stage_tternary {τ : Topo} {sig : RefSig} {Val : EltTy → Type} {ops : List (HloOp τ sig Val)} {outs : List (Ref sig .tc)}
    (h : WritesAre ops outs) (k : Nat) (c a b y : Ref sig .tc) {hc2 hc3 ha2 ha3 hb2 hb3 hy2 hy3}
    (f : c.ty.Contents Val → a.ty.Contents Val → b.ty.Contents Val → y.ty.Contents Val)
    (hk : ops[k]? = some (TRef.ternary (⟨c, rfl, hc2, hc3⟩ : TRef sig c.ty) (⟨a, rfl, ha2, ha3⟩ : TRef sig a.ty)
      (⟨b, rfl, hb2, hb3⟩ : TRef sig b.ty) (⟨y, rfl, hy2, hy3⟩ : TRef sig y.ty) f))
    (hy' : y ∉ outs.drop (k + 1)) (hc' : c ∉ outs.drop k) (ha' : a ∉ outs.drop k) (hb' : b ∉ outs.drop k)
    (V : Valuation τ sig Val) :
    after ops V (Proc.devRef .tc y)
      = f (after ops V (Proc.devRef .tc c)) (after ops V (Proc.devRef .tc a)) (after ops V (Proc.devRef .tc b)) :=
  stage_ternary h k c a b y f hk hy' hc' ha' hb' V

end Cert.LibLine
-- ==== Proof.RefValue.lean ====
/-
  The reference program computes the specification.

  The program is a straight line of 112 operations on whole arrays, each writing one array that no later operation
  writes again; so after the whole line an array holds what its own operation computes from what its operands hold
  after the whole line, and an array no operation writes holds what it held at the start.  The line is thirteen
  linear layers (a plain product, a bias vector laid along one row and then down the rows, a sum), eight activations
  (two constants, each laid over the whole matrix, a comparison, a product, a choice) and four residual sums.

  First, array by array: what each layer, activation and residual sum writes, as one expression of the arrays before
  it.  Then, going down the line, the matrix written is read at a row `n` below 4194304 and a column `o` below its
  width and found to be the matching matrix of the specification at `(n, o)`; a linear layer reads row `n` of its
  input inside the input's width only, which is where the earlier fact describes it.  The array after the seventh
  layer's activation is the first result, the last array the second; an array is determined by its reads inside its
  extents.
-/
import proofs.«104812_j146028888292_2_alg».proof.Proof.RefLayer
import proofs.«104812_j146028888292_2_alg».proof.Proof.RefRunP
import proofs.«104812_j146028888292_2_alg».proof.Proof.LibLineCall

noncomputable section

namespace Cert.ReferenceIdeal.RefValue

open Cert.ReferenceIdeal Cert.ReferenceIdeal.Gen Idealize.ShloMosaic Idealize.ShloMosaic.TcCoe Idealize.SL.Sem Cert.Mlp
open Idealize.ShloMosaic.ValueIdx Idealize.ShloMosaic.StableHlo MatRead Cert.LibLine

/-- The arrays the 112 operations write, in the order of the operations. -/
abbrev outs : List (Ref sig .tc) :=
  [main_v0, main_v1, main_v2, main_v3, main_cst, main_v4, main_v5, main_cst_0, main_v6, main_v7, main_v8,
   main_v9, main_v10, main_v11, main_v12, main_v13, main_v14, main_v15, main_v16, main_cst_1, main_v17,
   main_v18, main_cst_2, main_v19, main_v20, main_v21, main_v22, main_v23, main_v24, main_v25, main_v26,
   main_v27, main_v28, main_v29, main_v30, main_cst_3, main_v31, main_v32, main_cst_4, main_v33, main_v34,
   main_v35, main_v36, main_v37, main_v38, main_v39, main_v40, main_v41, main_v42, main_v43, main_v44,
   main_cst_5, main_v45, main_v46, main_cst_6, main_v47, main_v48, main_v49, main_v50, main_v51, main_v52,
   main_v53, main_cst_7, main_v54, main_v55, main_cst_8, main_v56, main_v57, main_v58, main_v59, main_v60,
   main_v61, main_v62, main_cst_9, main_v63, main_v64, main_cst_10, main_v65, main_v66, main_v67, main_v68,
   main_v69, main_v70, main_v71, main_v72, main_v73, main_v74, main_v75, main_v76, main_cst_11, main_v77,
   main_v78, main_cst_12, main_v79, main_v80, main_v81, main_v82, main_v83, main_v84, main_v85, main_v86,
   main_v87, main_v88, main_v89, main_v90, main_cst_13, main_v91, main_v92, main_cst_14, main_v93, main_v94,
   main_v95]

/-- Operation by operation, the line writes exactly these arrays. -/
theorem writes : WritesAre (τ := τ) (ValueP.ops (F := Ideal)) outs := by
  repeat (first | exact List.Forall₂.nil | refine List.Forall₂.cons rfl ?_)

section
variable (m : (ℓ : Loc nD τ sig) → Buf (Elt Ideal) ℓ) (c : Dev nD)

/-- What the array `b` holds after the whole line, started from the contents `m` on device `c`. -/
local notation "A[" b "]" => after (ValueP.ops (F := Ideal)) (launchContents m c) (Proc.devRef Proc.tc b)

/-- AN ARRAY NO OPERATION WRITES holds after the line what it held at the start. -/
theorem arg_kept (b : Ref sig .tc) (hb : b ∉ outs) : A[b] = m ((c.tc : Thread nD τ).loc b) :=
  after_of_writesAre writes (launchContents m c) hb

/-! ## Array by array -/

theorem arr3 : (A[main_v3] : FVec Ideal S4194304x8 .f32) = addf (F := Ideal) (Host.dotGeneral (φ₁ := .f32) (φ₂ := .f32) dot_S4194304x8_S8x8_S4194304x8_1_0_0_1_n_n none (m ((c.tc : Thread nD τ).loc main_arg0) : FVec Ideal S4194304x8 .f32) (m ((c.tc : Thread nD τ).loc main_arg1) : FVec Ideal S8x8 .f32))
    (broadcastInDim S4194304x8 ![0, 1] bcast_S1x8_S4194304x8_0_1 (broadcastInDim S1x8 ![1] bcast_S8_S1x8_1 (m ((c.tc : Thread nD τ).loc main_arg2) : FVec Ideal S8 .f32))) := by
  have e3 := stage_binary writes 3 main_v0 main_v2 main_v3 _ rfl (by decide) (by decide) (by decide) (launchContents m c)
  have e0 := stage_binary writes 0 main_arg0 main_arg1 main_v0 _ rfl (by decide) (by decide) (by decide) (launchContents m c)
  have e2 := stage_unary writes 2 main_v1 main_v2 _ rfl (by decide) (by decide) (launchContents m c)
  have e1 := stage_unary writes 1 main_arg2 main_v1 _ rfl (by decide) (by decide) (launchContents m c)
  have a0 := arg_kept m c main_arg0 (by decide)
  have a1 := arg_kept m c main_arg1 (by decide)
  have a2 := arg_kept m c main_arg2 (by decide)
  rw [e3, e0, e2, e1, a0, a1, a2]

theorem arr8 : (A[main_v8] : FVec Ideal S4194304x8 .f32) = select (cmpf .oge (A[main_v3] : FVec Ideal S4194304x8 .f32) (broadcastInDim S4194304x8 ![] bcast_S_S4194304x8 (constant (F := Ideal) S_ .f32 0x00000000#32)))
    (A[main_v3] : FVec Ideal S4194304x8 .f32) (mulf (broadcastInDim S4194304x8 ![] bcast_S_S4194304x8 (constant (F := Ideal) S_ .f32 0x3B23D70A#32)) (A[main_v3] : FVec Ideal S4194304x8 .f32)) := by
  have e8 := stage_tternary writes 10 main_v5 main_v3 main_v7 main_v8 _ rfl (by decide) (by decide) (by decide) (by decide) (launchContents m c)
  have e5 := stage_binary writes 6 main_v3 main_v4 main_v5 _ rfl (by decide) (by decide) (by decide) (launchContents m c)
  have e4 := stage_unary writes 5 main_cst main_v4 _ rfl (by decide) (by decide) (launchContents m c)
  have ecst := stage_nullary writes 4 main_cst _ rfl (by decide) (launchContents m c)
  have e7 := stage_binary writes 9 main_v6 main_v3 main_v7 _ rfl (by decide) (by decide) (by decide) (launchContents m c)
  have e6 := stage_unary writes 8 main_cst_0 main_v6 _ rfl (by decide) (by decide) (launchContents m c)
  have ecst_0 := stage_nullary writes 7 main_cst_0 _ rfl (by decide) (launchContents m c)
  rw [e8, e5, e7, e4, e6, ecst, ecst_0]

theorem arr12 : (A[main_v12] : FVec Ideal S4194304x4 .f32) = addf (F := Ideal) (Host.dotGeneral (φ₁ := .f32) (φ₂ := .f32) dot_S4194304x8_S8x4_S4194304x4_1_0_0_1_n_n none (A[main_v8] : FVec Ideal S4194304x8 .f32) (m ((c.tc : Thread nD τ).loc main_arg3) : FVec Ideal S8x4 .f32))
    (broadcastInDim S4194304x4 ![0, 1] bcast_S1x4_S4194304x4_0_1 (broadcastInDim S1x4 ![1] bcast_S4_S1x4_1 (m ((c.tc : Thread nD τ).loc main_arg4) : FVec Ideal S4 .f32))) := by
  have e12 := stage_binary writes 14 main_v9 main_v11 main_v12 _ rfl (by decide) (by decide) (by decide) (launchContents m c)
  have e9 := stage_binary writes 11 main_v8 main_arg3 main_v9 _ rfl (by decide) (by decide) (by decide) (launchContents m c)
  have e11 := stage_unary writes 13 main_v10 main_v11 _ rfl (by decide) (by decide) (launchContents m c)
  have e10 := stage_unary writes 12 main_arg4 main_v10 _ rfl (by decide) (by decide) (launchContents m c)
  have a3 := arg_kept m c main_arg3 (by decide)
  have a4 := arg_kept m c main_arg4 (by decide)
  rw [e12, e9, e11, e10, a3, a4]

theorem arr16 : (A[main_v16] : FVec Ideal S4194304x4 .f32) = addf (F := Ideal) (Host.dotGeneral (φ₁ := .f32) (φ₂ := .f32) dot_S4194304x4_S4x4_S4194304x4_1_0_0_1_n_n none (A[main_v12] : FVec Ideal S4194304x4 .f32) (m ((c.tc : Thread nD τ).loc main_arg5) : FVec Ideal S4x4 .f32))
    (broadcastInDim S4194304x4 ![0, 1] bcast_S1x4_S4194304x4_0_1 (broadcastInDim S1x4 ![1] bcast_S4_S1x4_1 (m ((c.tc : Thread nD τ).loc main_arg6) : FVec Ideal S4 .f32))) := by
  have e16 := stage_binary writes 18 main_v13 main_v15 main_v16 _ rfl (by decide) (by decide) (by decide) (launchContents m c)
  have e13 := stage_binary writes 15 main_v12 main_arg5 main_v13 _ rfl (by decide) (by decide) (by decide) (launchContents m c)
  have e15 := stage_unary writes 17 main_v14 main_v15 _ rfl (by decide) (by decide) (launchContents m c)
  have e14 := stage_unary writes 16 main_arg6 main_v14 _ rfl (by decide) (by decide) (launchContents m c)
  have a5 := arg_kept m c main_arg5 (by decide)
  have a6 := arg_kept m c main_arg6 (by decide)
  rw [e16, e13, e15, e14, a5, a6]

theorem arr21 : (A[main_v21] : FVec Ideal S4194304x4 .f32) = select (cmpf .oge (A[main_v16] : FVec Ideal S4194304x4 .f32) (broadcastInDim S4194304x4 ![] bcast_S_S4194304x4 (constant (F := Ideal) S_ .f32 0x00000000#32)))
    (A[main_v16] : FVec Ideal S4194304x4 .f32) (mulf (broadcastInDim S4194304x4 ![] bcast_S_S4194304x4 (constant (F := Ideal) S_ .f32 0x3B23D70A#32)) (A[main_v16] : FVec Ideal S4194304x4 .f32)) := by
  have e21 := stage_tternary writes 25 main_v18 main_v16 main_v20 main_v21 _ rfl (by decide) (by decide) (by decide) (by decide) (launchContents m c)
  have e18 := stage_binary writes 21 main_v16 main_v17 main_v18 _ rfl (by decide) (by decide) (by decide) (launchContents m c)
  have e17 := stage_unary writes 20 main_cst_1 main_v17 _ rfl (by decide) (by decide) (launchContents m c)
  have ecst_1 := stage_nullary writes 19 main_cst_1 _ rfl (by decide) (launchContents m c)
  have e20 := stage_binary writes 24 main_v19 main_v16 main_v20 _ rfl (by decide) (by decide) (by decide) (launchContents m c)
  have e19 := stage_unary writes 23 main_cst_2 main_v19 _ rfl (by decide) (by decide) (launchContents m c)
  have ecst_2 := stage_nullary writes 22 main_cst_2 _ rfl (by decide) (launchContents m c)
  rw [e21, e18, e20, e17, e19, ecst_1, ecst_2]

theorem arr25 : (A[main_v25] : FVec Ideal S4194304x4 .f32) = addf (F := Ideal) (Host.dotGeneral (φ₁ := .f32) (φ₂ := .f32) dot_S4194304x4_S4x4_S4194304x4_1_0_0_1_n_n none (A[main_v21] : FVec Ideal S4194304x4 .f32) (m ((c.tc : Thread nD τ).loc main_arg7) : FVec Ideal S4x4 .f32))
    (broadcastInDim S4194304x4 ![0, 1] bcast_S1x4_S4194304x4_0_1 (broadcastInDim S1x4 ![1] bcast_S4_S1x4_1 (m ((c.tc : Thread nD τ).loc main_arg8) : FVec Ideal S4 .f32))) := by
  have e25 := stage_binary writes 29 main_v22 main_v24 main_v25 _ rfl (by decide) (by decide) (by decide) (launchContents m c)
  have e22 := stage_binary writes 26 main_v21 main_arg7 main_v22 _ rfl (by decide) (by decide) (by decide) (launchContents m c)
  have e24 := stage_unary writes 28 main_v23 main_v24 _ rfl (by decide) (by decide) (launchContents m c)
  have e23 := stage_unary writes 27 main_arg8 main_v23 _ rfl (by decide) (by decide) (launchContents m c)
  have a7 := arg_kept m c main_arg7 (by decide)
  have a8 := arg_kept m c main_arg8 (by decide)
  rw [e25, e22, e24, e23, a7, a8]

theorem arr26 : (A[main_v26] : FVec Ideal S4194304x4 .f32) = addf (F := Ideal) (s := S4194304x4) (φ := .f32) (A[main_v12] : FVec Ideal S4194304x4 .f32) (A[main_v25] : FVec Ideal S4194304x4 .f32) :=
  stage_binary writes 30 main_v12 main_v25 main_v26 _ rfl (by decide) (by decide) (by decide) (launchContents m c)

theorem arr30 : (A[main_v30] : FVec Ideal S4194304x4 .f32) = addf (F := Ideal) (Host.dotGeneral (φ₁ := .f32) (φ₂ := .f32) dot_S4194304x4_S4x4_S4194304x4_1_0_0_1_n_n none (A[main_v26] : FVec Ideal S4194304x4 .f32) (m ((c.tc : Thread nD τ).loc main_arg9) : FVec Ideal S4x4 .f32))
    (broadcastInDim S4194304x4 ![0, 1] bcast_S1x4_S4194304x4_0_1 (broadcastInDim S1x4 ![1] bcast_S4_S1x4_1 (m ((c.tc : Thread nD τ).loc main_arg10) : FVec Ideal S4 .f32))) := by
  have e30 := stage_binary writes 34 main_v27 main_v29 main_v30 _ rfl (by decide) (by decide) (by decide) (launchContents m c)
  have e27 := stage_binary writes 31 main_v26 main_arg9 main_v27 _ rfl (by decide) (by decide) (by decide) (launchContents m c)
  have e29 := stage_unary writes 33 main_v28 main_v29 _ rfl (by decide) (by decide) (launchContents m c)
  have e28 := stage_unary writes 32 main_arg10 main_v28 _ rfl (by decide) (by decide) (launchContents m c)
  have a9 := arg_kept m c main_arg9 (by decide)
  have a10 := arg_kept m c main_arg10 (by decide)
  rw [e30, e27, e29, e28, a9, a10]

theorem arr35 : (A[main_v35] : FVec Ideal S4194304x4 .f32) = select (cmpf .oge (A[main_v30] : FVec Ideal S4194304x4 .f32) (broadcastInDim S4194304x4 ![] bcast_S_S4194304x4 (constant (F := Ideal) S_ .f32 0x00000000#32)))
    (A[main_v30] : FVec Ideal S4194304x4 .f32) (mulf (broadcastInDim S4194304x4 ![] bcast_S_S4194304x4 (constant (F := Ideal) S_ .f32 0x3B23D70A#32)) (A[main_v30] : FVec Ideal S4194304x4 .f32)) := by
  have e35 := stage_tternary writes 41 main_v32 main_v30 main_v34 main_v35 _ rfl (by decide) (by decide) (by decide) (by decide) (launchContents m c)
  have e32 := stage_binary writes 37 main_v30 main_v31 main_v32 _ rfl (by decide) (by decide) (by decide) (launchContents m c)
  have e31 := stage_unary writes 36 main_cst_3 main_v31 _ rfl (by decide) (by decide) (launchContents m c)
  have ecst_3 := stage_nullary writes 35 main_cst_3 _ rfl (by decide) (launchContents m c)
  have e34 := stage_binary writes 40 main_v33 main_v30 main_v34 _ rfl (by decide) (by decide) (by decide) (launchContents m c)
  have e33 := stage_unary writes 39 main_cst_4 main_v33 _ rfl (by decide) (by decide) (launchContents m c)
  have ecst_4 := stage_nullary writes 38 main_cst_4 _ rfl (by decide) (launchContents m c)
  rw [e35, e32, e34, e31, e33, ecst_3, ecst_4]

theorem arr39 : (A[main_v39] : FVec Ideal S4194304x4 .f32) = addf (F := Ideal) (Host.dotGeneral (φ₁ := .f32) (φ₂ := .f32) dot_S4194304x4_S4x4_S4194304x4_1_0_0_1_n_n none (A[main_v35] : FVec Ideal S4194304x4 .f32) (m ((c.tc : Thread nD τ).loc main_arg11) : FVec Ideal S4x4 .f32))
    (broadcastInDim S4194304x4 ![0, 1] bcast_S1x4_S4194304x4_0_1 (broadcastInDim S1x4 ![1] bcast_S4_S1x4_1 (m ((c.tc : Thread nD τ).loc main_arg12) : FVec Ideal S4 .f32))) := by
  have e39 := stage_binary writes 45 main_v36 main_v38 main_v39 _ rfl (by decide) (by decide) (by decide) (launchContents m c)
  have e36 := stage_binary writes 42 main_v35 main_arg11 main_v36 _ rfl (by decide) (by decide) (by decide) (launchContents m c)
  have e38 := stage_unary writes 44 main_v37 main_v38 _ rfl (by decide) (by decide) (launchContents m c)
  have e37 := stage_unary writes 43 main_arg12 main_v37 _ rfl (by decide) (by decide) (launchContents m c)
  have a11 := arg_kept m c main_arg11 (by decide)
  have a12 := arg_kept m c main_arg12 (by decide)
  rw [e39, e36, e38, e37, a11, a12]

theorem arr40 : (A[main_v40] : FVec Ideal S4194304x4 .f32) = addf (F := Ideal) (s := S4194304x4) (φ := .f32) (A[main_v26] : FVec Ideal S4194304x4 .f32) (A[main_v39] : FVec Ideal S4194304x4 .f32) :=
  stage_binary writes 46 main_v26 main_v39 main_v40 _ rfl (by decide) (by decide) (by decide) (launchContents m c)

theorem arr44 : (A[main_v44] : FVec Ideal S4194304x1 .f32) = addf (F := Ideal) (Host.dotGeneral (φ₁ := .f32) (φ₂ := .f32) dot_S4194304x4_S4x1_S4194304x1_1_0_0_1_n_n none (A[main_v40] : FVec Ideal S4194304x4 .f32) (m ((c.tc : Thread nD τ).loc main_arg13) : FVec Ideal S4x1 .f32))
    (broadcastInDim S4194304x1 ![0, 1] bcast_S1x1_S4194304x1_0_1 (broadcastInDim S1x1 ![1] bcast_S1_S1x1_1 (m ((c.tc : Thread nD τ).loc main_arg14) : FVec Ideal S1 .f32))) := by
  have e44 := stage_binary writes 50 main_v41 main_v43 main_v44 _ rfl (by decide) (by decide) (by decide) (launchContents m c)
  have e41 := stage_binary writes 47 main_v40 main_arg13 main_v41 _ rfl (by decide) (by decide) (by decide) (launchContents m c)
  have e43 := stage_unary writes 49 main_v42 main_v43 _ rfl (by decide) (by decide) (launchContents m c)
  have e42 := stage_unary writes 48 main_arg14 main_v42 _ rfl (by decide) (by decide) (launchContents m c)
  have a13 := arg_kept m c main_arg13 (by decide)
  have a14 := arg_kept m c main_arg14 (by decide)
  rw [e44, e41, e43, e42, a13, a14]

theorem arr49 : (A[main_v49] : FVec Ideal S4194304x1 .f32) = select (cmpf .oge (A[main_v44] : FVec Ideal S4194304x1 .f32) (broadcastInDim S4194304x1 ![] bcast_S_S4194304x1 (constant (F := Ideal) S_ .f32 0x00000000#32)))
    (A[main_v44] : FVec Ideal S4194304x1 .f32) (mulf (broadcastInDim S4194304x1 ![] bcast_S_S4194304x1 (constant (F := Ideal) S_ .f32 0x3B23D70A#32)) (A[main_v44] : FVec Ideal S4194304x1 .f32)) := by
  have e49 := stage_tternary writes 57 main_v46 main_v44 main_v48 main_v49 _ rfl (by decide) (by decide) (by decide) (by decide) (launchContents m c)
  have e46 := stage_binary writes 53 main_v44 main_v45 main_v46 _ rfl (by decide) (by decide) (by decide) (launchContents m c)
  have e45 := stage_unary writes 52 main_cst_5 main_v45 _ rfl (by decide) (by decide) (launchContents m c)
  have ecst_5 := stage_nullary writes 51 main_cst_5 _ rfl (by decide) (launchContents m c)
  have e48 := stage_binary writes 56 main_v47 main_v44 main_v48 _ rfl (by decide) (by decide) (by decide) (launchContents m c)
  have e47 := stage_unary writes 55 main_cst_6 main_v47 _ rfl (by decide) (by decide) (launchContents m c)
  have ecst_6 := stage_nullary writes 54 main_cst_6 _ rfl (by decide) (launchContents m c)
  rw [e49, e46, e48, e45, e47, ecst_5, ecst_6]

theorem arr53 : (A[main_v53] : FVec Ideal S4194304x4 .f32) = addf (F := Ideal) (Host.dotGeneral (φ₁ := .f32) (φ₂ := .f32) dot_S4194304x1_S1x4_S4194304x4_1_0_0_1_n_n none (A[main_v49] : FVec Ideal S4194304x1 .f32) (m ((c.tc : Thread nD τ).loc main_arg15) : FVec Ideal S1x4 .f32))
    (broadcastInDim S4194304x4 ![0, 1] bcast_S1x4_S4194304x4_0_1 (broadcastInDim S1x4 ![1] bcast_S4_S1x4_1 (m ((c.tc : Thread nD τ).loc main_arg16) : FVec Ideal S4 .f32))) := by
  have e53 := stage_binary writes 61 main_v50 main_v52 main_v53 _ rfl (by decide) (by decide) (by decide) (launchContents m c)
  have e50 := stage_binary writes 58 main_v49 main_arg15 main_v50 _ rfl (by decide) (by decide) (by decide) (launchContents m c)
  have e52 := stage_unary writes 60 main_v51 main_v52 _ rfl (by decide) (by decide) (launchContents m c)
  have e51 := stage_unary writes 59 main_arg16 main_v51 _ rfl (by decide) (by decide) (launchContents m c)
  have a15 := arg_kept m c main_arg15 (by decide)
  have a16 := arg_kept m c main_arg16 (by decide)
  rw [e53, e50, e52, e51, a15, a16]

theorem arr58 : (A[main_v58] : FVec Ideal S4194304x4 .f32) = select (cmpf .oge (A[main_v53] : FVec Ideal S4194304x4 .f32) (broadcastInDim S4194304x4 ![] bcast_S_S4194304x4 (constant (F := Ideal) S_ .f32 0x00000000#32)))
    (A[main_v53] : FVec Ideal S4194304x4 .f32) (mulf (broadcastInDim S4194304x4 ![] bcast_S_S4194304x4 (constant (F := Ideal) S_ .f32 0x3B23D70A#32)) (A[main_v53] : FVec Ideal S4194304x4 .f32)) := by
  have e58 := stage_tternary writes 68 main_v55 main_v53 main_v57 main_v58 _ rfl (by decide) (by decide) (by decide) (by decide) (launchContents m c)
  have e55 := stage_binary writes 64 main_v53 main_v54 main_v55 _ rfl (by decide) (by decide) (by decide) (launchContents m c)
  have e54 := stage_unary writes 63 main_cst_7 main_v54 _ rfl (by decide) (by decide) (launchContents m c)
  have ecst_7 := stage_nullary writes 62 main_cst_7 _ rfl (by decide) (launchContents m c)
  have e57 := stage_binary writes 67 main_v56 main_v53 main_v57 _ rfl (by decide) (by decide) (by decide) (launchContents m c)
  have e56 := stage_unary writes 66 main_cst_8 main_v56 _ rfl (by decide) (by decide) (launchContents m c)
  have ecst_8 := stage_nullary writes 65 main_cst_8 _ rfl (by decide) (launchContents m c)
  rw [e58, e55, e57, e54, e56, ecst_7, ecst_8]

theorem arr62 : (A[main_v62] : FVec Ideal S4194304x4 .f32) = addf (F := Ideal) (Host.dotGeneral (φ₁ := .f32) (φ₂ := .f32) dot_S4194304x4_S4x4_S4194304x4_1_0_0_1_n_n none (A[main_v58] : FVec Ideal S4194304x4 .f32) (m ((c.tc : Thread nD τ).loc main_arg17) : FVec Ideal S4x4 .f32))
    (broadcastInDim S4194304x4 ![0, 1] bcast_S1x4_S4194304x4_0_1 (broadcastInDim S1x4 ![1] bcast_S4_S1x4_1 (m ((c.tc : Thread nD τ).loc main_arg18) : FVec Ideal S4 .f32))) := by
  have e62 := stage_binary writes 72 main_v59 main_v61 main_v62 _ rfl (by decide) (by decide) (by decide) (launchContents m c)
  have e59 := stage_binary writes 69 main_v58 main_arg17 main_v59 _ rfl (by decide) (by decide) (by decide) (launchContents m c)
  have e61 := stage_unary writes 71 main_v60 main_v61 _ rfl (by decide) (by decide) (launchContents m c)
  have e60 := stage_unary writes 70 main_arg18 main_v60 _ rfl (by decide) (by decide) (launchContents m c)
  have a17 := arg_kept m c main_arg17 (by decide)
  have a18 := arg_kept m c main_arg18 (by decide)
  rw [e62, e59, e61, e60, a17, a18]

theorem arr67 : (A[main_v67] : FVec Ideal S4194304x4 .f32) = select (cmpf .oge (A[main_v62] : FVec Ideal S4194304x4 .f32) (broadcastInDim S4194304x4 ![] bcast_S_S4194304x4 (constant (F := Ideal) S_ .f32 0x00000000#32)))
    (A[main_v62] : FVec Ideal S4194304x4 .f32) (mulf (broadcastInDim S4194304x4 ![] bcast_S_S4194304x4 (constant (F := Ideal) S_ .f32 0x3B23D70A#32)) (A[main_v62] : FVec Ideal S4194304x4 .f32)) := by
  have e67 := stage_tternary writes 79 main_v64 main_v62 main_v66 main_v67 _ rfl (by decide) (by decide) (by decide) (by decide) (launchContents m c)
  have e64 := stage_binary writes 75 main_v62 main_v63 main_v64 _ rfl (by decide) (by decide) (by decide) (launchContents m c)
  have e63 := stage_unary writes 74 main_cst_9 main_v63 _ rfl (by decide) (by decide) (launchContents m c)
  have ecst_9 := stage_nullary writes 73 main_cst_9 _ rfl (by decide) (launchContents m c)
  have e66 := stage_binary writes 78 main_v65 main_v62 main_v66 _ rfl (by decide) (by decide) (by decide) (launchContents m c)
  have e65 := stage_unary writes 77 main_cst_10 main_v65 _ rfl (by decide) (by decide) (launchContents m c)
  have ecst_10 := stage_nullary writes 76 main_cst_10 _ rfl (by decide) (launchContents m c)
  rw [e67, e64, e66, e63, e65, ecst_9, ecst_10]

theorem arr71 : (A[main_v71] : FVec Ideal S4194304x4 .f32) = addf (F := Ideal) (Host.dotGeneral (φ₁ := .f32) (φ₂ := .f32) dot_S4194304x4_S4x4_S4194304x4_1_0_0_1_n_n none (A[main_v67] : FVec Ideal S4194304x4 .f32) (m ((c.tc : Thread nD τ).loc main_arg19) : FVec Ideal S4x4 .f32))
    (broadcastInDim S4194304x4 ![0, 1] bcast_S1x4_S4194304x4_0_1 (broadcastInDim S1x4 ![1] bcast_S4_S1x4_1 (m ((c.tc : Thread nD τ).loc main_arg20) : FVec Ideal S4 .f32))) := by
  have e71 := stage_binary writes 83 main_v68 main_v70 main_v71 _ rfl (by decide) (by decide) (by decide) (launchContents m c)
  have e68 := stage_binary writes 80 main_v67 main_arg19 main_v68 _ rfl (by decide) (by decide) (by decide) (launchContents m c)
  have e70 := stage_unary writes 82 main_v69 main_v70 _ rfl (by decide) (by decide) (launchContents m c)
  have e69 := stage_unary writes 81 main_arg20 main_v69 _ rfl (by decide) (by decide) (launchContents m c)
  have a19 := arg_kept m c main_arg19 (by decide)
  have a20 := arg_kept m c main_arg20 (by decide)
  rw [e71, e68, e70, e69, a19, a20]

theorem arr72 : (A[main_v72] : FVec Ideal S4194304x4 .f32) = addf (F := Ideal) (s := S4194304x4) (φ := .f32) (A[main_v58] : FVec Ideal S4194304x4 .f32) (A[main_v71] : FVec Ideal S4194304x4 .f32) :=
  stage_binary writes 84 main_v58 main_v71 main_v72 _ rfl (by decide) (by decide) (by decide) (launchContents m c)

theorem arr76 : (A[main_v76] : FVec Ideal S4194304x4 .f32) = addf (F := Ideal) (Host.dotGeneral (φ₁ := .f32) (φ₂ := .f32) dot_S4194304x4_S4x4_S4194304x4_1_0_0_1_n_n none (A[main_v72] : FVec Ideal S4194304x4 .f32) (m ((c.tc : Thread nD τ).loc main_arg21) : FVec Ideal S4x4 .f32))
    (broadcastInDim S4194304x4 ![0, 1] bcast_S1x4_S4194304x4_0_1 (broadcastInDim S1x4 ![1] bcast_S4_S1x4_1 (m ((c.tc : Thread nD τ).loc main_arg22) : FVec Ideal S4 .f32))) := by
  have e76 := stage_binary writes 88 main_v73 main_v75 main_v76 _ rfl (by decide) (by decide) (by decide) (launchContents m c)
  have e73 := stage_binary writes 85 main_v72 main_arg21 main_v73 _ rfl (by decide) (by decide) (by decide) (launchContents m c)
  have e75 := stage_unary writes 87 main_v74 main_v75 _ rfl (by decide) (by decide) (launchContents m c)
  have e74 := stage_unary writes 86 main_arg22 main_v74 _ rfl (by decide) (by decide) (launchContents m c)
  have a21 := arg_kept m c main_arg21 (by decide)
  have a22 := arg_kept m c main_arg22 (by decide)
  rw [e76, e73, e75, e74, a21, a22]

theorem arr81 : (A[main_v81] : FVec Ideal S4194304x4 .f32) = select (cmpf .oge (A[main_v76] : FVec Ideal S4194304x4 .f32) (broadcastInDim S4194304x4 ![] bcast_S_S4194304x4 (constant (F := Ideal) S_ .f32 0x00000000#32)))
    (A[main_v76] : FVec Ideal S4194304x4 .f32) (mulf (broadcastInDim S4194304x4 ![] bcast_S_S4194304x4 (constant (F := Ideal) S_ .f32 0x3B23D70A#32)) (A[main_v76] : FVec Ideal S4194304x4 .f32)) := by
  have e81 := stage_tternary writes 95 main_v78 main_v76 main_v80 main_v81 _ rfl (by decide) (by decide) (by decide) (by decide) (launchContents m c)
  have e78 := stage_binary writes 91 main_v76 main_v77 main_v78 _ rfl (by decide) (by decide) (by decide) (launchContents m c)
  have e77 := stage_unary writes 90 main_cst_11 main_v77 _ rfl (by decide) (by decide) (launchContents m c)
  have ecst_11 := stage_nullary writes 89 main_cst_11 _ rfl (by decide) (launchContents m c)
  have e80 := stage_binary writes 94 main_v79 main_v76 main_v80 _ rfl (by decide) (by decide) (by decide) (launchContents m c)
  have e79 := stage_unary writes 93 main_cst_12 main_v79 _ rfl (by decide) (by decide) (launchContents m c)
  have ecst_12 := stage_nullary writes 92 main_cst_12 _ rfl (by decide) (launchContents m c)
  rw [e81, e78, e80, e77, e79, ecst_11, ecst_12]

theorem arr85 : (A[main_v85] : FVec Ideal S4194304x4 .f32) = addf (F := Ideal) (Host.dotGeneral (φ₁ := .f32) (φ₂ := .f32) dot_S4194304x4_S4x4_S4194304x4_1_0_0_1_n_n none (A[main_v81] : FVec Ideal S4194304x4 .f32) (m ((c.tc : Thread nD τ).loc main_arg23) : FVec Ideal S4x4 .f32))
    (broadcastInDim S4194304x4 ![0, 1] bcast_S1x4_S4194304x4_0_1 (broadcastInDim S1x4 ![1] bcast_S4_S1x4_1 (m ((c.tc : Thread nD τ).loc main_arg24) : FVec Ideal S4 .f32))) := by
  have e85 := stage_binary writes 99 main_v82 main_v84 main_v85 _ rfl (by decide) (by decide) (by decide) (launchContents m c)
  have e82 := stage_binary writes 96 main_v81 main_arg23 main_v82 _ rfl (by decide) (by decide) (by decide) (launchContents m c)
  have e84 := stage_unary writes 98 main_v83 main_v84 _ rfl (by decide) (by decide) (launchContents m c)
  have e83 := stage_unary writes 97 main_arg24 main_v83 _ rfl (by decide) (by decide) (launchContents m c)
  have a23 := arg_kept m c main_arg23 (by decide)
  have a24 := arg_kept m c main_arg24 (by decide)
  rw [e85, e82, e84, e83, a23, a24]

theorem arr86 : (A[main_v86] : FVec Ideal S4194304x4 .f32) = addf (F := Ideal) (s := S4194304x4) (φ := .f32) (A[main_v72] : FVec Ideal S4194304x4 .f32) (A[main_v85] : FVec Ideal S4194304x4 .f32) :=
  stage_binary writes 100 main_v72 main_v85 main_v86 _ rfl (by decide) (by decide) (by decide) (launchContents m c)

theorem arr90 : (A[main_v90] : FVec Ideal S4194304x8 .f32) = addf (F := Ideal) (Host.dotGeneral (φ₁ := .f32) (φ₂ := .f32) dot_S4194304x4_S4x8_S4194304x8_1_0_0_1_n_n none (A[main_v86] : FVec Ideal S4194304x4 .f32) (m ((c.tc : Thread nD τ).loc main_arg25) : FVec Ideal S4x8 .f32))
    (broadcastInDim S4194304x8 ![0, 1] bcast_S1x8_S4194304x8_0_1 (broadcastInDim S1x8 ![1] bcast_S8_S1x8_1 (m ((c.tc : Thread nD τ).loc main_arg26) : FVec Ideal S8 .f32))) := by
  have e90 := stage_binary writes 104 main_v87 main_v89 main_v90 _ rfl (by decide) (by decide) (by decide) (launchContents m c)
  have e87 := stage_binary writes 101 main_v86 main_arg25 main_v87 _ rfl (by decide) (by decide) (by decide) (launchContents m c)
  have e89 := stage_unary writes 103 main_v88 main_v89 _ rfl (by decide) (by decide) (launchContents m c)
  have e88 := stage_unary writes 102 main_arg26 main_v88 _ rfl (by decide) (by decide) (launchContents m c)
  have a25 := arg_kept m c main_arg25 (by decide)
  have a26 := arg_kept m c main_arg26 (by decide)
  rw [e90, e87, e89, e88, a25, a26]

theorem arr95 : (A[main_v95] : FVec Ideal S4194304x8 .f32) = select (cmpf .oge (A[main_v90] : FVec Ideal S4194304x8 .f32) (broadcastInDim S4194304x8 ![] bcast_S_S4194304x8 (constant (F := Ideal) S_ .f32 0x00000000#32)))
    (A[main_v90] : FVec Ideal S4194304x8 .f32) (mulf (broadcastInDim S4194304x8 ![] bcast_S_S4194304x8 (constant (F := Ideal) S_ .f32 0x3B23D70A#32)) (A[main_v90] : FVec Ideal S4194304x8 .f32)) := by
  have e95 := stage_tternary writes 111 main_v92 main_v90 main_v94 main_v95 _ rfl (by decide) (by decide) (by decide) (by decide) (launchContents m c)
  have e92 := stage_binary writes 107 main_v90 main_v91 main_v92 _ rfl (by decide) (by decide) (by decide) (launchContents m c)
  have e91 := stage_unary writes 106 main_cst_13 main_v91 _ rfl (by decide) (by decide) (launchContents m c)
  have ecst_13 := stage_nullary writes 105 main_cst_13 _ rfl (by decide) (launchContents m c)
  have e94 := stage_binary writes 110 main_v93 main_v90 main_v94 _ rfl (by decide) (by decide) (by decide) (launchContents m c)
  have e93 := stage_unary writes 109 main_cst_14 main_v93 _ rfl (by decide) (by decide) (launchContents m c)
  have ecst_14 := stage_nullary writes 108 main_cst_14 _ rfl (by decide) (launchContents m c)
  rw [e95, e92, e94, e91, e93, ecst_13, ecst_14]

/-! ## The stages, read inside their extents -/

/-- The specification's parameters, read off the twenty-six parameter arrays. -/
abbrev P : Params :=
  mkParams (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))
      (m ((c.tc : Thread nD τ).loc main_arg21))
      (m ((c.tc : Thread nD τ).loc main_arg22))
      (m ((c.tc : Thread nD τ).loc main_arg23))
      (m ((c.tc : Thread nD τ).loc main_arg24))
      (m ((c.tc : Thread nD τ).loc main_arg25))
      (m ((c.tc : Thread nD τ).loc main_arg26))

/-- The input, read at natural coordinates. -/
abbrev X : ℕ → ℕ → EReal := rd (m ((c.tc : Thread nD τ).loc main_arg0))

/-- The first layer. -/
theorem st3 {n o : ℕ} (hn : n < 4194304) (ho : o < 8) :
    rd (A[main_v3] : FVec Ideal S4194304x8 .f32) n o = lin 8 (X m c) (P m c).W0 (P m c).b0 n o := by
  rw [arr3 m c]
  exact rd_host_lin dot_S4194304x8_S8x8_S4194304x8_1_0_0_1_n_n dot_S4194304x8_S8x8_S4194304x8_1_0_0_1_n_n_wf rfl none bcast_S8_S1x8_1 bcast_S1x8_S4194304x8_0_1
    (m ((c.tc : Thread nD τ).loc main_arg0) : FVec Ideal S4194304x8 .f32) (m ((c.tc : Thread nD τ).loc main_arg1) : FVec Ideal S8x8 .f32) (m ((c.tc : Thread nD τ).loc main_arg2) : FVec Ideal S8 .f32)
    (X m c) hn ho fun _ _ => rfl

theorem st8 {n o : ℕ} (hn : n < 4194304) (ho : o < 8) :
    rd (A[main_v8] : FVec Ideal S4194304x8 .f32) n o = actM (lin 8 (X m c) (P m c).W0 (P m c).b0) n o := by
  rw [arr8 m c]
  exact (rd_host_act bcast_S_S4194304x8 (A[main_v3] : FVec Ideal S4194304x8 .f32) hn ho).trans (congrArg act (st3 m c hn ho))

/-- The second layer: the first intermediate matrix of the specification. -/
theorem st12 {n o : ℕ} (hn : n < 4194304) (ho : o < 4) :
    rd (A[main_v12] : FVec Ideal S4194304x4 .f32) n o = s1 (P m c) (X m c) n o := by
  rw [arr12 m c]
  exact rd_host_lin dot_S4194304x8_S8x4_S4194304x4_1_0_0_1_n_n dot_S4194304x8_S8x4_S4194304x4_1_0_0_1_n_n_wf rfl none bcast_S4_S1x4_1 bcast_S1x4_S4194304x4_0_1
    (A[main_v8] : FVec Ideal S4194304x8 .f32) (m ((c.tc : Thread nD τ).loc main_arg3) : FVec Ideal S8x4 .f32) (m ((c.tc : Thread nD τ).loc main_arg4) : FVec Ideal S4 .f32)
    (actM (lin 8 (X m c) (P m c).W0 (P m c).b0)) hn ho fun _ hk => st8 m c hn hk

/-- The first residual block. -/
theorem st16 {n o : ℕ} (hn : n < 4194304) (ho : o < 4) :
    rd (A[main_v16] : FVec Ideal S4194304x4 .f32) n o = lin 4 (s1 (P m c) (X m c)) (P m c).W2 (P m c).b2 n o := by
  rw [arr16 m c]
  exact rd_host_lin dot_S4194304x4_S4x4_S4194304x4_1_0_0_1_n_n dot_S4194304x4_S4x4_S4194304x4_1_0_0_1_n_n_wf rfl none bcast_S4_S1x4_1 bcast_S1x4_S4194304x4_0_1
    (A[main_v12] : FVec Ideal S4194304x4 .f32) (m ((c.tc : Thread nD τ).loc main_arg5) : FVec Ideal S4x4 .f32) (m ((c.tc : Thread nD τ).loc main_arg6) : FVec Ideal S4 .f32)
    (s1 (P m c) (X m c)) hn ho fun _ hk => st12 m c hn hk

theorem st21 {n o : ℕ} (hn : n < 4194304) (ho : o < 4) :
    rd (A[main_v21] : FVec Ideal S4194304x4 .f32) n o = actM (lin 4 (s1 (P m c) (X m c)) (P m c).W2 (P m c).b2) n o := by
  rw [arr21 m c]
  exact (rd_host_act bcast_S_S4194304x4 (A[main_v16] : FVec Ideal S4194304x4 .f32) hn ho).trans (congrArg act (st16 m c hn ho))

theorem st25 {n o : ℕ} (hn : n < 4194304) (ho : o < 4) :
    rd (A[main_v25] : FVec Ideal S4194304x4 .f32) n o = lin 4 (actM (lin 4 (s1 (P m c) (X m c)) (P m c).W2 (P m c).b2)) (P m c).W3 (P m c).b3 n o := by
  rw [arr25 m c]
  exact rd_host_lin dot_S4194304x4_S4x4_S4194304x4_1_0_0_1_n_n dot_S4194304x4_S4x4_S4194304x4_1_0_0_1_n_n_wf rfl none bcast_S4_S1x4_1 bcast_S1x4_S4194304x4_0_1
    (A[main_v21] : FVec Ideal S4194304x4 .f32) (m ((c.tc : Thread nD τ).loc main_arg7) : FVec Ideal S4x4 .f32) (m ((c.tc : Thread nD τ).loc main_arg8) : FVec Ideal S4 .f32)
    (actM (lin 4 (s1 (P m c) (X m c)) (P m c).W2 (P m c).b2)) hn ho fun _ hk => st21 m c hn hk

theorem st26 {n o : ℕ} (hn : n < 4194304) (ho : o < 4) :
    rd (A[main_v26] : FVec Ideal S4194304x4 .f32) n o = s3 (P m c) (X m c) n o := by
  rw [arr26 m c]
  exact (rd_addf (φ := .f32) (A[main_v12] : FVec Ideal S4194304x4 .f32) (A[main_v25] : FVec Ideal S4194304x4 .f32) n o).trans (congrArg₂ (· + ·) (st12 m c hn ho) (st25 m c hn ho))

/-- The second residual block. -/
theorem st30 {n o : ℕ} (hn : n < 4194304) (ho : o < 4) :
    rd (A[main_v30] : FVec Ideal S4194304x4 .f32) n o = lin 4 (s3 (P m c) (X m c)) (P m c).W4 (P m c).b4 n o := by
  rw [arr30 m c]
  exact rd_host_lin dot_S4194304x4_S4x4_S4194304x4_1_0_0_1_n_n dot_S4194304x4_S4x4_S4194304x4_1_0_0_1_n_n_wf rfl none bcast_S4_S1x4_1 bcast_S1x4_S4194304x4_0_1
    (A[main_v26] : FVec Ideal S4194304x4 .f32) (m ((c.tc : Thread nD τ).loc main_arg9) : FVec Ideal S4x4 .f32) (m ((c.tc : Thread nD τ).loc main_arg10) : FVec Ideal S4 .f32)
    (s3 (P m c) (X m c)) hn ho fun _ hk => st26 m c hn hk

theorem st35 {n o : ℕ} (hn : n < 4194304) (ho : o < 4) :
    rd (A[main_v35] : FVec Ideal S4194304x4 .f32) n o = actM (lin 4 (s3 (P m c) (X m c)) (P m c).W4 (P m c).b4) n o := by
  rw [arr35 m c]
  exact (rd_host_act bcast_S_S4194304x4 (A[main_v30] : FVec Ideal S4194304x4 .f32) hn ho).trans (congrArg act (st30 m c hn ho))

theorem st39 {n o : ℕ} (hn : n < 4194304) (ho : o < 4) :
    rd (A[main_v39] : FVec Ideal S4194304x4 .f32) n o = lin 4 (actM (lin 4 (s3 (P m c) (X m c)) (P m c).W4 (P m c).b4)) (P m c).W5 (P m c).b5 n o := by
  rw [arr39 m c]
  exact rd_host_lin dot_S4194304x4_S4x4_S4194304x4_1_0_0_1_n_n dot_S4194304x4_S4x4_S4194304x4_1_0_0_1_n_n_wf rfl none bcast_S4_S1x4_1 bcast_S1x4_S4194304x4_0_1
    (A[main_v35] : FVec Ideal S4194304x4 .f32) (m ((c.tc : Thread nD τ).loc main_arg11) : FVec Ideal S4x4 .f32) (m ((c.tc : Thread nD τ).loc main_arg12) : FVec Ideal S4 .f32)
    (actM (lin 4 (s3 (P m c) (X m c)) (P m c).W4 (P m c).b4)) hn ho fun _ hk => st35 m c hn hk

theorem st40 {n o : ℕ} (hn : n < 4194304) (ho : o < 4) :
    rd (A[main_v40] : FVec Ideal S4194304x4 .f32) n o = s5 (P m c) (X m c) n o := by
  rw [arr40 m c]
  exact (rd_addf (φ := .f32) (A[main_v26] : FVec Ideal S4194304x4 .f32) (A[main_v39] : FVec Ideal S4194304x4 .f32) n o).trans (congrArg₂ (· + ·) (st26 m c hn ho) (st39 m c hn ho))

/-- The layer down to one column, and its activation: the first result. -/
theorem st44 {n o : ℕ} (hn : n < 4194304) (ho : o < 1) :
    rd (A[main_v44] : FVec Ideal S4194304x1 .f32) n o = lin 4 (s5 (P m c) (X m c)) (P m c).W6 (P m c).b6 n o := by
  rw [arr44 m c]
  exact rd_host_lin dot_S4194304x4_S4x1_S4194304x1_1_0_0_1_n_n dot_S4194304x4_S4x1_S4194304x1_1_0_0_1_n_n_wf rfl none bcast_S1_S1x1_1 bcast_S1x1_S4194304x1_0_1
    (A[main_v40] : FVec Ideal S4194304x4 .f32) (m ((c.tc : Thread nD τ).loc main_arg13) : FVec Ideal S4x1 .f32) (m ((c.tc : Thread nD τ).loc main_arg14) : FVec Ideal S1 .f32)
    (s5 (P m c) (X m c)) hn ho fun _ hk => st40 m c hn hk

theorem st49 {n o : ℕ} (hn : n < 4194304) (ho : o < 1) :
    rd (A[main_v49] : FVec Ideal S4194304x1 .f32) n o = enc (P m c) (X m c) n o := by
  rw [arr49 m c]
  exact (rd_host_act bcast_S_S4194304x1 (A[main_v44] : FVec Ideal S4194304x1 .f32) hn ho).trans (congrArg act (st44 m c hn ho))

/-- The layer up from one column, and its activation. -/
theorem st53 {n o : ℕ} (hn : n < 4194304) (ho : o < 4) :
    rd (A[main_v53] : FVec Ideal S4194304x4 .f32) n o = lin 1 (enc (P m c) (X m c)) (P m c).W7 (P m c).b7 n o := by
  rw [arr53 m c]
  exact rd_host_lin dot_S4194304x1_S1x4_S4194304x4_1_0_0_1_n_n dot_S4194304x1_S1x4_S4194304x4_1_0_0_1_n_n_wf rfl none bcast_S4_S1x4_1 bcast_S1x4_S4194304x4_0_1
    (A[main_v49] : FVec Ideal S4194304x1 .f32) (m ((c.tc : Thread nD τ).loc main_arg15) : FVec Ideal S1x4 .f32) (m ((c.tc : Thread nD τ).loc main_arg16) : FVec Ideal S4 .f32)
    (enc (P m c) (X m c)) hn ho fun _ hk => st49 m c hn hk

theorem st58 {n o : ℕ} (hn : n < 4194304) (ho : o < 4) :
    rd (A[main_v58] : FVec Ideal S4194304x4 .f32) n o = s6 (P m c) (X m c) n o := by
  rw [arr58 m c]
  exact (rd_host_act bcast_S_S4194304x4 (A[main_v53] : FVec Ideal S4194304x4 .f32) hn ho).trans (congrArg act (st53 m c hn ho))

/-- The third residual block. -/
theorem st62 {n o : ℕ} (hn : n < 4194304) (ho : o < 4) :
    rd (A[main_v62] : FVec Ideal S4194304x4 .f32) n o = lin 4 (s6 (P m c) (X m c)) (P m c).W8 (P m c).b8 n o := by
  rw [arr62 m c]
  exact rd_host_lin dot_S4194304x4_S4x4_S4194304x4_1_0_0_1_n_n dot_S4194304x4_S4x4_S4194304x4_1_0_0_1_n_n_wf rfl none bcast_S4_S1x4_1 bcast_S1x4_S4194304x4_0_1
    (A[main_v58] : FVec Ideal S4194304x4 .f32) (m ((c.tc : Thread nD τ).loc main_arg17) : FVec Ideal S4x4 .f32) (m ((c.tc : Thread nD τ).loc main_arg18) : FVec Ideal S4 .f32)
    (s6 (P m c) (X m c)) hn ho fun _ hk => st58 m c hn hk

theorem st67 {n o : ℕ} (hn : n < 4194304) (ho : o < 4) :
    rd (A[main_v67] : FVec Ideal S4194304x4 .f32) n o = actM (lin 4 (s6 (P m c) (X m c)) (P m c).W8 (P m c).b8) n o := by
  rw [arr67 m c]
  exact (rd_host_act bcast_S_S4194304x4 (A[main_v62] : FVec Ideal S4194304x4 .f32) hn ho).trans (congrArg act (st62 m c hn ho))

theorem st71 {n o : ℕ} (hn : n < 4194304) (ho : o < 4) :
    rd (A[main_v71] : FVec Ideal S4194304x4 .f32) n o = lin 4 (actM (lin 4 (s6 (P m c) (X m c)) (P m c).W8 (P m c).b8)) (P m c).W9 (P m c).b9 n o := by
  rw [arr71 m c]
  exact rd_host_lin dot_S4194304x4_S4x4_S4194304x4_1_0_0_1_n_n dot_S4194304x4_S4x4_S4194304x4_1_0_0_1_n_n_wf rfl none bcast_S4_S1x4_1 bcast_S1x4_S4194304x4_0_1
    (A[main_v67] : FVec Ideal S4194304x4 .f32) (m ((c.tc : Thread nD τ).loc main_arg19) : FVec Ideal S4x4 .f32) (m ((c.tc : Thread nD τ).loc main_arg20) : FVec Ideal S4 .f32)
    (actM (lin 4 (s6 (P m c) (X m c)) (P m c).W8 (P m c).b8)) hn ho fun _ hk => st67 m c hn hk

theorem st72 {n o : ℕ} (hn : n < 4194304) (ho : o < 4) :
    rd (A[main_v72] : FVec Ideal S4194304x4 .f32) n o = s8 (P m c) (X m c) n o := by
  rw [arr72 m c]
  exact (rd_addf (φ := .f32) (A[main_v58] : FVec Ideal S4194304x4 .f32) (A[main_v71] : FVec Ideal S4194304x4 .f32) n o).trans (congrArg₂ (· + ·) (st58 m c hn ho) (st71 m c hn ho))

/-- The fourth residual block. -/
theorem st76 {n o : ℕ} (hn : n < 4194304) (ho : o < 4) :
    rd (A[main_v76] : FVec Ideal S4194304x4 .f32) n o = lin 4 (s8 (P m c) (X m c)) (P m c).W10 (P m c).b10 n o := by
  rw [arr76 m c]
  exact rd_host_lin dot_S4194304x4_S4x4_S4194304x4_1_0_0_1_n_n dot_S4194304x4_S4x4_S4194304x4_1_0_0_1_n_n_wf rfl none bcast_S4_S1x4_1 bcast_S1x4_S4194304x4_0_1
    (A[main_v72] : FVec Ideal S4194304x4 .f32) (m ((c.tc : Thread nD τ).loc main_arg21) : FVec Ideal S4x4 .f32) (m ((c.tc : Thread nD τ).loc main_arg22) : FVec Ideal S4 .f32)
    (s8 (P m c) (X m c)) hn ho fun _ hk => st72 m c hn hk

theorem st81 {n o : ℕ} (hn : n < 4194304) (ho : o < 4) :
    rd (A[main_v81] : FVec Ideal S4194304x4 .f32) n o = actM (lin 4 (s8 (P m c) (X m c)) (P m c).W10 (P m c).b10) n o := by
  rw [arr81 m c]
  exact (rd_host_act bcast_S_S4194304x4 (A[main_v76] : FVec Ideal S4194304x4 .f32) hn ho).trans (congrArg act (st76 m c hn ho))

theorem st85 {n o : ℕ} (hn : n < 4194304) (ho : o < 4) :
    rd (A[main_v85] : FVec Ideal S4194304x4 .f32) n o = lin 4 (actM (lin 4 (s8 (P m c) (X m c)) (P m c).W10 (P m c).b10)) (P m c).W11 (P m c).b11 n o := by
  rw [arr85 m c]
  exact rd_host_lin dot_S4194304x4_S4x4_S4194304x4_1_0_0_1_n_n dot_S4194304x4_S4x4_S4194304x4_1_0_0_1_n_n_wf rfl none bcast_S4_S1x4_1 bcast_S1x4_S4194304x4_0_1
    (A[main_v81] : FVec Ideal S4194304x4 .f32) (m ((c.tc : Thread nD τ).loc main_arg23) : FVec Ideal S4x4 .f32) (m ((c.tc : Thread nD τ).loc main_arg24) : FVec Ideal S4 .f32)
    (actM (lin 4 (s8 (P m c) (X m c)) (P m c).W10 (P m c).b10)) hn ho fun _ hk => st81 m c hn hk

theorem st86 {n o : ℕ} (hn : n < 4194304) (ho : o < 4) :
    rd (A[main_v86] : FVec Ideal S4194304x4 .f32) n o = s10 (P m c) (X m c) n o := by
  rw [arr86 m c]
  exact (rd_addf (φ := .f32) (A[main_v72] : FVec Ideal S4194304x4 .f32) (A[main_v85] : FVec Ideal S4194304x4 .f32) n o).trans (congrArg₂ (· + ·) (st72 m c hn ho) (st85 m c hn ho))

/-- The last layer and its activation: the second result. -/
theorem st90 {n o : ℕ} (hn : n < 4194304) (ho : o < 8) :
    rd (A[main_v90] : FVec Ideal S4194304x8 .f32) n o = lin 4 (s10 (P m c) (X m c)) (P m c).W12 (P m c).b12 n o := by
  rw [arr90 m c]
  exact rd_host_lin dot_S4194304x4_S4x8_S4194304x8_1_0_0_1_n_n dot_S4194304x4_S4x8_S4194304x8_1_0_0_1_n_n_wf rfl none bcast_S8_S1x8_1 bcast_S1x8_S4194304x8_0_1
    (A[main_v86] : FVec Ideal S4194304x4 .f32) (m ((c.tc : Thread nD τ).loc main_arg25) : FVec Ideal S4x8 .f32) (m ((c.tc : Thread nD τ).loc main_arg26) : FVec Ideal S8 .f32)
    (s10 (P m c) (X m c)) hn ho fun _ hk => st86 m c hn hk

theorem st95 {n o : ℕ} (hn : n < 4194304) (ho : o < 8) :
    rd (A[main_v95] : FVec Ideal S4194304x8 .f32) n o = dec (P m c) (X m c) n o := by
  rw [arr95 m c]
  exact (rd_host_act bcast_S_S4194304x8 (A[main_v90] : FVec Ideal S4194304x8 .f32) hn ho).trans (congrArg act (st90 m c hn ho))

/-! ## The two results -/

/-- THE FIRST RESULT is the specification's first result array. -/
theorem out0_eq : (A[main_v49] : FVec Ideal S4194304x1 .f32)
    = Genc (mkParams (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))
      (m ((c.tc : Thread nD τ).loc main_arg21))
      (m ((c.tc : Thread nD τ).loc main_arg22))
      (m ((c.tc : Thread nD τ).loc main_arg23))
      (m ((c.tc : Thread nD τ).loc main_arg24))
      (m ((c.tc : Thread nD τ).loc main_arg25))
      (m ((c.tc : Thread nD τ).loc main_arg26)))
        (m ((c.tc : Thread nD τ).loc main_arg0)) := by
  funext i
  refine (apply_eq_rd _ i).trans ?_
  exact st49 m c (idx2_lt0 i) (idx2_lt1 i)

/-- THE SECOND RESULT is the specification's second result array. -/
theorem out1_eq : (A[main_v95] : FVec Ideal S4194304x8 .f32)
    = Gdec (mkParams (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))
      (m ((c.tc : Thread nD τ).loc main_arg21))
      (m ((c.tc : Thread nD τ).loc main_arg22))
      (m ((c.tc : Thread nD τ).loc main_arg23))
      (m ((c.tc : Thread nD τ).loc main_arg24))
      (m ((c.tc : Thread nD τ).loc main_arg25))
      (m ((c.tc : Thread nD τ).loc main_arg26)))
        (m ((c.tc : Thread nD τ).loc main_arg0)) := by
  funext i
  refine (apply_eq_rd _ i).trans ?_
  exact st95 m c (idx2_lt0 i) (idx2_lt1 i)

end

end Cert.ReferenceIdeal.RefValue

end
-- ==== Proof.lean ====
/-
  The kernel program against its reference, over the extended reals.

  Both programs apply the same network, row by row, to an input of 4194304 rows of width 8: thirteen linear layers
  `x W + b` (widths 8, 8, 4, 4, 4, 4, 4, 1, 4, 4, 4, 4, 4, 8), an activation that keeps an entry that is at least zero
  and multiplies any other by the single-precision constant nearest 1/400, and residual sums; the results are the
  one-column matrix `enc` after the seventh layer and the eight-column matrix `dec` after the thirteenth (Spec).

  The reference computes this directly, one whole-array operation after another.  The kernel lays sixteen consecutive
  rows side by side in one row of 128 entries, multiplies by block-diagonal weights — sixteen copies of each weight on
  the diagonal, `0` times an entry elsewhere — adds each bias repeated sixteen times, and works through the packed input
  in 64 blocks of 4096 rows; afterwards it reshapes the packed results back.  Over the extended reals `0 * x = 0` for
  every `x`, the infinities included, so in each packed product the terms off the diagonal block vanish and what is
  left is the layer applied to each of the sixteen rows separately (PackAlg); a change of float format is the
  identity.  Layer by layer a block therefore holds sixteen rows of `enc` or `dec` to a row (KBody); the 64 blocks
  tile the two packed outputs (KBlocks); and the reshapes, keeping row-major order, give back `enc` and `dec` entry
  by entry (KRun).  The weights, biases and packed input the region finds are read off the host operations before it
  (KHost, KEntry); the reference's stages are read one operation at a time (RefValue).  No step uses that the inputs
  are finite.

  The three frames: the two kernel programs' by the frame run around the region, the reference's because no operation
  of its line writes an argument.  The idealization rewrote no operation, so nothing is owed for it.
-/
import proofs.«104812_j146028888292_2_alg».proof.Defs
import proofs.«104812_j146028888292_2_alg».proof.Proof.Gen.Kernel
import proofs.«104812_j146028888292_2_alg».proof.Proof.Gen.KernelIdeal
import proofs.«104812_j146028888292_2_alg».proof.Proof.Gen.ReferenceIdeal
import proofs.«104812_j146028888292_2_alg».proof.Proof.Gen.Pre_finite_inputs
import proofs.«104812_j146028888292_2_alg».proof.Proof.FrameKernelP
import proofs.«104812_j146028888292_2_alg».proof.Proof.KRun
import proofs.«104812_j146028888292_2_alg».proof.Proof.KEntry
import proofs.«104812_j146028888292_2_alg».proof.Proof.RefRunP
import proofs.«104812_j146028888292_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.Mlp

/-- The word-level kernel program runs and leaves its arguments unchanged. -/
theorem frame_k : Cert.frame_Kernel := fun m ρ _ => Cert.Kernel.GenP.frame m ρ

/-- The idealized kernel program runs and leaves its arguments unchanged. -/
theorem frame_ki : Cert.frame_KernelIdeal := fun m ρ _ => Cert.KernelIdeal.GenP.frame m ρ

/-- The idealized reference runs and leaves its arguments unchanged: no operation of its line writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefValue.arg_kept _ c Cert.ReferenceIdeal.main_arg0 (by decide)),
      (h c Cert.ReferenceIdeal.main_arg1).trans (Cert.ReferenceIdeal.RefValue.arg_kept _ c Cert.ReferenceIdeal.main_arg1 (by decide)),
      (h c Cert.ReferenceIdeal.main_arg2).trans (Cert.ReferenceIdeal.RefValue.arg_kept _ c Cert.ReferenceIdeal.main_arg2 (by decide)),
      (h c Cert.ReferenceIdeal.main_arg3).trans (Cert.ReferenceIdeal.RefValue.arg_kept _ c Cert.ReferenceIdeal.main_arg3 (by decide)),
      (h c Cert.ReferenceIdeal.main_arg4).trans (Cert.ReferenceIdeal.RefValue.arg_kept _ c Cert.ReferenceIdeal.main_arg4 (by decide)),
      (h c Cert.ReferenceIdeal.main_arg5).trans (Cert.ReferenceIdeal.RefValue.arg_kept _ c Cert.ReferenceIdeal.main_arg5 (by decide)),
      (h c Cert.ReferenceIdeal.main_arg6).trans (Cert.ReferenceIdeal.RefValue.arg_kept _ c Cert.ReferenceIdeal.main_arg6 (by decide)),
      (h c Cert.ReferenceIdeal.main_arg7).trans (Cert.ReferenceIdeal.RefValue.arg_kept _ c Cert.ReferenceIdeal.main_arg7 (by decide)),
      (h c Cert.ReferenceIdeal.main_arg8).trans (Cert.ReferenceIdeal.RefValue.arg_kept _ c Cert.ReferenceIdeal.main_arg8 (by decide)),
      (h c Cert.ReferenceIdeal.main_arg9).trans (Cert.ReferenceIdeal.RefValue.arg_kept _ c Cert.ReferenceIdeal.main_arg9 (by decide)),
      (h c Cert.ReferenceIdeal.main_arg10).trans (Cert.ReferenceIdeal.RefValue.arg_kept _ c Cert.ReferenceIdeal.main_arg10 (by decide)),
      (h c Cert.ReferenceIdeal.main_arg11).trans (Cert.ReferenceIdeal.RefValue.arg_kept _ c Cert.ReferenceIdeal.main_arg11 (by decide)),
      (h c Cert.ReferenceIdeal.main_arg12).trans (Cert.ReferenceIdeal.RefValue.arg_kept _ c Cert.ReferenceIdeal.main_arg12 (by decide)),
      (h c Cert.ReferenceIdeal.main_arg13).trans (Cert.ReferenceIdeal.RefValue.arg_kept _ c Cert.ReferenceIdeal.main_arg13 (by decide)),
      (h c Cert.ReferenceIdeal.main_arg14).trans (Cert.ReferenceIdeal.RefValue.arg_kept _ c Cert.ReferenceIdeal.main_arg14 (by decide)),
      (h c Cert.ReferenceIdeal.main_arg15).trans (Cert.ReferenceIdeal.RefValue.arg_kept _ c Cert.ReferenceIdeal.main_arg15 (by decide)),
      (h c Cert.ReferenceIdeal.main_arg16).trans (Cert.ReferenceIdeal.RefValue.arg_kept _ c Cert.ReferenceIdeal.main_arg16 (by decide)),
      (h c Cert.ReferenceIdeal.main_arg17).trans (Cert.ReferenceIdeal.RefValue.arg_kept _ c Cert.ReferenceIdeal.main_arg17 (by decide)),
      (h c Cert.ReferenceIdeal.main_arg18).trans (Cert.ReferenceIdeal.RefValue.arg_kept _ c Cert.ReferenceIdeal.main_arg18 (by decide)),
      (h c Cert.ReferenceIdeal.main_arg19).trans (Cert.ReferenceIdeal.RefValue.arg_kept _ c Cert.ReferenceIdeal.main_arg19 (by decide)),
      (h c Cert.ReferenceIdeal.main_arg20).trans (Cert.ReferenceIdeal.RefValue.arg_kept _ c Cert.ReferenceIdeal.main_arg20 (by decide)),
      (h c Cert.ReferenceIdeal.main_arg21).trans (Cert.ReferenceIdeal.RefValue.arg_kept _ c Cert.ReferenceIdeal.main_arg21 (by decide)),
      (h c Cert.ReferenceIdeal.main_arg22).trans (Cert.ReferenceIdeal.RefValue.arg_kept _ c Cert.ReferenceIdeal.main_arg22 (by decide)),
      (h c Cert.ReferenceIdeal.main_arg23).trans (Cert.ReferenceIdeal.RefValue.arg_kept _ c Cert.ReferenceIdeal.main_arg23 (by decide)),
      (h c Cert.ReferenceIdeal.main_arg24).trans (Cert.ReferenceIdeal.RefValue.arg_kept _ c Cert.ReferenceIdeal.main_arg24 (by decide)),
      (h c Cert.ReferenceIdeal.main_arg25).trans (Cert.ReferenceIdeal.RefValue.arg_kept _ c Cert.ReferenceIdeal.main_arg25 (by decide)),
      (h c Cert.ReferenceIdeal.main_arg26).trans (Cert.ReferenceIdeal.RefValue.arg_kept _ c Cert.ReferenceIdeal.main_arg26 (by decide))⟩)
    (Cert.ReferenceIdeal.ValueP.run_after (F := Ideal) m ρ)

/-- The idealization rewrote no operation. -/
theorem preserves : Cert.preserves_Kernel_KernelIdeal := trivial

/-- From memories that agree on the arguments both idealized programs end with `enc` and `dec` of the same
    parameters and input: the kernel by its packed layers, block by block, the reference stage by stage. -/
theorem algebraic : Cert.algebraic_KernelIdeal_ReferenceIdeal := by
  intro m ρ m' ρ' _ hagree
  refine ⟨fun c => Genc (Cert.KernelIdeal.Blocks.kparams m c) (m ((c.tc : Thread Cert.KernelIdeal.nD Cert.KernelIdeal.τ).loc Cert.KernelIdeal.main_arg0)),
    fun c => Gdec (Cert.KernelIdeal.Blocks.kparams m c) (m ((c.tc : Thread Cert.KernelIdeal.nD Cert.KernelIdeal.τ).loc Cert.KernelIdeal.main_arg0)),
    Cert.KernelIdeal.Run.run m ρ (Cert.KernelIdeal.Blocks.kparams m) (Cert.KernelIdeal.Blocks.kX m) (Cert.KernelIdeal.Blocks.entry m), ?_⟩
  refine (θ_run Cert.ReferenceIdeal.defs _ _).mono (fun r h c => ?_) (Cert.ReferenceIdeal.ValueP.run_after (F := Ideal) m' ρ')
  obtain ⟨h0, h1, h2, h3, h4, h5, h6, h7, h8, h9, h10, h11, h12, h13, h14, h15, h16, h17, h18, h19, h20, h21, h22, h23, h24, h25, h26⟩ := hagree c
  refine ⟨(h c Cert.ReferenceIdeal.main_v49).trans ?_, (h c Cert.ReferenceIdeal.main_v95).trans ?_,
      (h c Cert.ReferenceIdeal.main_arg0).trans (Cert.ReferenceIdeal.RefValue.arg_kept _ c Cert.ReferenceIdeal.main_arg0 (by decide)),
      (h c Cert.ReferenceIdeal.main_arg1).trans (Cert.ReferenceIdeal.RefValue.arg_kept _ c Cert.ReferenceIdeal.main_arg1 (by decide)),
      (h c Cert.ReferenceIdeal.main_arg2).trans (Cert.ReferenceIdeal.RefValue.arg_kept _ c Cert.ReferenceIdeal.main_arg2 (by decide)),
      (h c Cert.ReferenceIdeal.main_arg3).trans (Cert.ReferenceIdeal.RefValue.arg_kept _ c Cert.ReferenceIdeal.main_arg3 (by decide)),
      (h c Cert.ReferenceIdeal.main_arg4).trans (Cert.ReferenceIdeal.RefValue.arg_kept _ c Cert.ReferenceIdeal.main_arg4 (by decide)),
      (h c Cert.ReferenceIdeal.main_arg5).trans (Cert.ReferenceIdeal.RefValue.arg_kept _ c Cert.ReferenceIdeal.main_arg5 (by decide)),
      (h c Cert.ReferenceIdeal.main_arg6).trans (Cert.ReferenceIdeal.RefValue.arg_kept _ c Cert.ReferenceIdeal.main_arg6 (by decide)),
      (h c Cert.ReferenceIdeal.main_arg7).trans (Cert.ReferenceIdeal.RefValue.arg_kept _ c Cert.ReferenceIdeal.main_arg7 (by decide)),
      (h c Cert.ReferenceIdeal.main_arg8).trans (Cert.ReferenceIdeal.RefValue.arg_kept _ c Cert.ReferenceIdeal.main_arg8 (by decide)),
      (h c Cert.ReferenceIdeal.main_arg9).trans (Cert.ReferenceIdeal.RefValue.arg_kept _ c Cert.ReferenceIdeal.main_arg9 (by decide)),
      (h c Cert.ReferenceIdeal.main_arg10).trans (Cert.ReferenceIdeal.RefValue.arg_kept _ c Cert.ReferenceIdeal.main_arg10 (by decide)),
      (h c Cert.ReferenceIdeal.main_arg11).trans (Cert.ReferenceIdeal.RefValue.arg_kept _ c Cert.ReferenceIdeal.main_arg11 (by decide)),
      (h c Cert.ReferenceIdeal.main_arg12).trans (Cert.ReferenceIdeal.RefValue.arg_kept _ c Cert.ReferenceIdeal.main_arg12 (by decide)),
      (h c Cert.ReferenceIdeal.main_arg13).trans (Cert.ReferenceIdeal.RefValue.arg_kept _ c Cert.ReferenceIdeal.main_arg13 (by decide)),
      (h c Cert.ReferenceIdeal.main_arg14).trans (Cert.ReferenceIdeal.RefValue.arg_kept _ c Cert.ReferenceIdeal.main_arg14 (by decide)),
      (h c Cert.ReferenceIdeal.main_arg15).trans (Cert.ReferenceIdeal.RefValue.arg_kept _ c Cert.ReferenceIdeal.main_arg15 (by decide)),
      (h c Cert.ReferenceIdeal.main_arg16).trans (Cert.ReferenceIdeal.RefValue.arg_kept _ c Cert.ReferenceIdeal.main_arg16 (by decide)),
      (h c Cert.ReferenceIdeal.main_arg17).trans (Cert.ReferenceIdeal.RefValue.arg_kept _ c Cert.ReferenceIdeal.main_arg17 (by decide)),
      (h c Cert.ReferenceIdeal.main_arg18).trans (Cert.ReferenceIdeal.RefValue.arg_kept _ c Cert.ReferenceIdeal.main_arg18 (by decide)),
      (h c Cert.ReferenceIdeal.main_arg19).trans (Cert.ReferenceIdeal.RefValue.arg_kept _ c Cert.ReferenceIdeal.main_arg19 (by decide)),
      (h c Cert.ReferenceIdeal.main_arg20).trans (Cert.ReferenceIdeal.RefValue.arg_kept _ c Cert.ReferenceIdeal.main_arg20 (by decide)),
      (h c Cert.ReferenceIdeal.main_arg21).trans (Cert.ReferenceIdeal.RefValue.arg_kept _ c Cert.ReferenceIdeal.main_arg21 (by decide)),
      (h c Cert.ReferenceIdeal.main_arg22).trans (Cert.ReferenceIdeal.RefValue.arg_kept _ c Cert.ReferenceIdeal.main_arg22 (by decide)),
      (h c Cert.ReferenceIdeal.main_arg23).trans (Cert.ReferenceIdeal.RefValue.arg_kept _ c Cert.ReferenceIdeal.main_arg23 (by decide)),
      (h c Cert.ReferenceIdeal.main_arg24).trans (Cert.ReferenceIdeal.RefValue.arg_kept _ c Cert.ReferenceIdeal.main_arg24 (by decide)),
      (h c Cert.ReferenceIdeal.main_arg25).trans (Cert.ReferenceIdeal.RefValue.arg_kept _ c Cert.ReferenceIdeal.main_arg25 (by decide)),
      (h c Cert.ReferenceIdeal.main_arg26).trans (Cert.ReferenceIdeal.RefValue.arg_kept _ c Cert.ReferenceIdeal.main_arg26 (by decide))⟩
  · rw [Cert.ReferenceIdeal.RefValue.out0_eq m' c, h0, h1, h2, h3, h4, h5, h6, h7, h8, h9, h10, h11, h12, h13, h14, h15, h16, h17, h18, h19, h20, h21, h22, h23, h24, h25, h26]
    rfl
  · rw [Cert.ReferenceIdeal.RefValue.out1_eq m' c, h0, h1, h2, h3, h4, h5, h6, h7, h8, h9, h10, h11, h12, h13, h14, h15, h16, h17, h18, h19, h20, h21, h22, h23, h24, h25, h26]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
